-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x40 : S_.BroadcastsInDim S100000x40 (![] : Fin 0 → Fin S100000x40.rank)
  reducesTo_S100000x40_S_d0_1 : S100000x40.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_arg9 : FVec F S64x40 .f32) (main_arg10 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S64x40 .f32) (main_arg8 : FVec F S40 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S100000x40 .f32) (main_arg3 : FVec F S128x64 .f32) (main_arg4 : FVec F S64 .f32) (main_arg5 : FVec F S128x64 .f32) (main_arg6 : FVec F S64 .f32) (main_arg7 : FVec F S64x40 .f32) (main_arg8 : FVec F S40 .f32) (main_arg9 : FVec F S64x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x40 .f32 := Host.absf main_arg2
  let main_cst_0 : FVec F S_ .f32 := constant S_ .f32 0x7F800000#32
  let main_v5 : FVec F S100000x40 .f32 := broadcastInDim S100000x40 ![] bcast_S_S100000x40 main_cst_0
  let main_v6 : IVec S100000x40 1 := cmpf .olt main_v4 main_v5
  let main_c_1 : IVec S_ 1 := constantI S_ 1 1#1
  let main_v7 : IVec S_ 1 := (fun x v => Host.reduce IntOp.andi x v reducesTo_S100000x40_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S5000x40 : Shape := ⟨2, ![5000, 40]⟩
abbrev S5000x64 : Shape := ⟨2, ![5000, 64]⟩
abbrev S1x64 : Shape := ⟨2, ![1, 64]⟩
abbrev S1x40 : Shape := ⟨2, ![1, 40]⟩
abbrev S1700000x40 : Shape := ⟨2, ![1700000, 40]⟩
abbrev S5000 : Shape := ⟨1, ![5000]⟩
abbrev S5000x1 : Shape := ⟨2, ![5000, 1]⟩

abbrev nBuf : Space → Nat
  | .hbm => 123
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x40, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x40, .f32⟩
  | .hbm, ⟨8, _⟩ => ⟨S40, .f32⟩
  | .hbm, ⟨9, _⟩ => ⟨S64x40, .f32⟩
  | .hbm, ⟨10, _⟩ => ⟨S40, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .f32⟩
  | .hbm, ⟨54, _⟩ => ⟨S1700000, .f32⟩
  | .hbm, ⟨55, _⟩ => ⟨S_, .f32⟩
  | .hbm, ⟨56, _⟩ => ⟨S100000, .f32⟩
  | .hbm, ⟨57, _⟩ => ⟨S1700000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .i1⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S100000x40, .f32⟩
  | .hbm, ⟨89, _⟩ => ⟨S100000x40, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x40, .f32⟩
  | .hbm, ⟨100, _⟩ => ⟨S1700000x40, .f32⟩
  | .hbm, ⟨101, _⟩ => ⟨S1700000x40, .f32⟩
  | .hbm, ⟨102, _⟩ => ⟨S_, .f32⟩
  | .hbm, ⟨103, _⟩ => ⟨S100000x40, .f32⟩
  | .hbm, ⟨104, _⟩ => ⟨S1700000x1, .i32⟩
  | .hbm, ⟨105, _⟩ => ⟨S100000x40, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x40, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S128x64, .f32⟩
  | .local _ .vmem, ⟨5, _⟩ => ⟨S64, .f32⟩
  | .local _ .vmem, ⟨6, _⟩ => ⟨S64x40, .f32⟩
  | .local _ .vmem, ⟨7, _⟩ => ⟨S40, .f32⟩
  | .local _ .vmem, ⟨8, _⟩ => ⟨S64x40, .f32⟩
  | .local _ .vmem, ⟨9, _⟩ => ⟨S40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_v56 : Ref sig .tc := ⟨.hbm, 90, rfl⟩
abbrev main_c_16 : Ref sig .tc := ⟨.hbm, 91, rfl⟩
abbrev main_v57 : Ref sig .tc := ⟨.hbm, 92, rfl⟩
abbrev main_v58 : Ref sig .tc := ⟨.hbm, 93, rfl⟩
abbrev main_c_17 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_21 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x40.size a ≤ S64x40.size a
  hwx0_5 : ∀ i : grid0.Coords, EltTy.bits .f32 = 32 ∨ (Rect.block (s := S64x40) S64x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x40.size a ≤ S64x40.size a
  hwx0_7 : ∀ i : grid0.Coords, EltTy.bits .f32 = 32 ∨ (Rect.block (s := S64x40) S64x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40.size a ≤ S40.size a
  hwx0_8 : ∀ i : grid0.Coords, EltTy.bits .f32 = 32 ∨ (Rect.block (s := S40) S40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x40.size a ≤ S100000x40.size a
  hwx0_9 : ∀ i : grid0.Coords, EltTy.bits .f32 = 32 ∨ (Rect.block (s := S100000x40) S5000x40.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x40.size a ≤ S100000x40.size a
  hwx0_10 : ∀ i : grid0.Coords, EltTy.bits .f32 = 32 ∨ (Rect.block (s := S100000x40) S5000x40.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x40.size a ≤ S100000x40.size a
  hwx1_1 : ∀ i : grid1.Coords, EltTy.bits .f32 = 32 ∨ (Rect.block (s := S100000x40) S5000x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55_0) S5000x40.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v55_1) S5000x40.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v68) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S5000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1x40 : Shape := ⟨2, ![1, 40]⟩
abbrev S1700000x40 : Shape := ⟨2, ![1700000, 40]⟩
abbrev S100000x1 : Shape := ⟨2, ![100000, 1]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S100000x40, .f32⟩
  | 3 => ⟨S128x64, .f32⟩
  | 4 => ⟨S64, .f32⟩
  | 5 => ⟨S128x64, .f32⟩
  | 6 => ⟨S64, .f32⟩
  | 7 => ⟨S64x40, .f32⟩
  | 8 => ⟨S40, .f32⟩
  | 9 => ⟨S64x40, .f32⟩
  | 10 => ⟨S40, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .f32⟩
  | 54 => ⟨S1700000, .f32⟩
  | 55 => ⟨S_, .f32⟩
  | 56 => ⟨S100000, .f32⟩
  | 57 => ⟨S1700000x1, .i32⟩
  | 58 => ⟨S100000, .f32⟩
  | 59 => ⟨S_, .f32⟩
  | 60 => ⟨S100000, .f32⟩
  | 61 => ⟨S100000, .i1⟩
  | 62 => ⟨S_, .f32⟩
  | 63 => ⟨S100000, .f32⟩
  | 64 => ⟨S100000, .f32⟩
  | 65 => ⟨S_, .f32⟩
  | 66 => ⟨S_, .f32⟩
  | 67 => ⟨S100000, .f32⟩
  | 68 => ⟨S100000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S1700000, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .i1⟩
  | 95 => ⟨S_, .f32⟩
  | 96 => ⟨S100000x64, .f32⟩
  | 97 => ⟨S100000x64, .i1⟩
  | 98 => ⟨S_, .f32⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x40, .f32⟩
  | 115 => ⟨S1x40, .f32⟩
  | 116 => ⟨S100000x40, .f32⟩
  | 117 => ⟨S100000x40, .f32⟩
  | 118 => ⟨S_, .f32⟩
  | 119 => ⟨S100000x40, .f32⟩
  | 120 => ⟨S100000x40, .i1⟩
  | 121 => ⟨S_, .f32⟩
  | 122 => ⟨S100000x40, .f32⟩
  | 123 => ⟨S100000x40, .i1⟩
  | 124 => ⟨S_, .f32⟩
  | 125 => ⟨S_, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000x40, .f32⟩
  | 3 => ⟨S100000x40, .f32⟩
  | 4 => ⟨S100000x40, .f32⟩
  | 5 => ⟨S100000x40, .f32⟩
  | 6 => ⟨S1x40, .f32⟩
  | 7 => ⟨S100000x40, .f32⟩
  | 8 => ⟨S100000x40, .f32⟩
  | 9 => ⟨S_, .f32⟩
  | 10 => ⟨S100000x40, .f32⟩
  | 11 => ⟨S100000x40, .f32⟩
  | 12 => ⟨S_, .f32⟩
  | 13 => ⟨S100000x40, .f32⟩
  | 14 => ⟨S100000x40, .f32⟩
  | 15 => ⟨S100000x40, .f32⟩
  | 16 => ⟨S100000x40, .f32⟩
  | 17 => ⟨S100000x40, .f32⟩
  | 18 => ⟨S100000x40, .f32⟩
  | 19 => ⟨S100000x40, .f32⟩
  | 20 => ⟨S1700000x1, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x40, .f32⟩
  | 30 => ⟨S1700000x40, .f32⟩
  | 31 => ⟨S1700000x40, .f32⟩
  | 32 => ⟨S_, .f32⟩
  | 33 => ⟨S100000x40, .f32⟩
  | 34 => ⟨S1700000x1, .i32⟩
  | 35 => ⟨S100000x40, .f32⟩
  | 36 => ⟨S1700000x1, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x40, .f32⟩
  | 46 => ⟨S1700000x40, .f32⟩
  | 47 => ⟨S1700000x40, .f32⟩
  | 48 => ⟨S_, .f32⟩
  | 49 => ⟨S100000x40, .f32⟩
  | 50 => ⟨S1700000x1, .i32⟩
  | 51 => ⟨S100000x40, .f32⟩
  | 52 => ⟨S100000x40, .f32⟩
  | 53 => ⟨S100000x40, .f32⟩
  | 54 => ⟨S100000x40, .f32⟩
  | 55 => ⟨S_, .f32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x40, .f32⟩
  | 62 => ⟨S100000x40, .f32⟩
  | 63 => ⟨S100000x40, .f32⟩
  | 64 => ⟨S_, .f32⟩
  | 65 => ⟨S100000, .f32⟩
  | 66 => ⟨S100000x1, .f32⟩
  | 67 => ⟨S100000x1, .f32⟩
  | 68 => ⟨S100000x40, .f32⟩
  | 69 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_cst_1 : Ref sig .tc := ⟨.hbm, 98, rfl⟩
abbrev main_call2_call0_v0 : Ref sig .tc := ⟨.hbm, 99, rfl⟩
abbrev main_call2_call0_v1 : Ref sig .tc := ⟨.hbm, 100, rfl⟩
abbrev main_call2_v4 : Ref sig .tc := ⟨.hbm, 101, rfl⟩
abbrev main_call2_v5 : Ref sig .tc := ⟨.hbm, 102, rfl⟩
abbrev main_call2_cst_2 : Ref sig .tc := ⟨.hbm, 103, rfl⟩
abbrev main_call2_v6 : Ref sig .tc := ⟨.hbm, 104, rfl⟩
abbrev main_call2_v7 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call3_cst : Ref sig .tc := ⟨.hbm, 111, rfl⟩
abbrev main_call3_v0 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call4_cst : Ref sig .tc := ⟨.hbm, 118, rfl⟩
abbrev main_call4_v0 : Ref sig .tc := ⟨.hbm, 119, rfl⟩
abbrev main_call4_v1 : Ref sig .tc := ⟨.hbm, 120, rfl⟩
abbrev main_call4_cst_0 : Ref sig .tc := ⟨.hbm, 121, rfl⟩
abbrev main_call4_v2 : Ref sig .tc := ⟨.hbm, 122, rfl⟩
abbrev main_call4_v3 : Ref sig .tc := ⟨.hbm, 123, rfl⟩
abbrev main_call4_cst_1 : Ref sig .tc := ⟨.hbm, 124, rfl⟩
abbrev main_call4_call0_v0 : Ref sig .tc := ⟨.hbm, 125, rfl⟩
abbrev main_call4_call0_v1 : Ref sig .tc := ⟨.hbm, 126, rfl⟩
abbrev main_call4_v4 : Ref sig .tc := ⟨.hbm, 127, rfl⟩
abbrev main_call4_v5 : Ref sig .tc := ⟨.hbm, 128, rfl⟩
abbrev main_call4_cst_2 : Ref sig .tc := ⟨.hbm, 129, rfl⟩
abbrev main_call4_v6 : Ref sig .tc := ⟨.hbm, 130, rfl⟩
abbrev main_call4_v7 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_call5_cst : Ref sig .tc := ⟨.hbm, 137, rfl⟩
abbrev main_call5_v0 : Ref sig .tc := ⟨.hbm, 138, rfl⟩
abbrev main_v74 : Ref sig .tc := ⟨.hbm, 139, rfl⟩
abbrev main_cst_16 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_c_17 : Ref sig .tc := ⟨.hbm, 149, rfl⟩
abbrev main_v83 : Ref sig .tc := ⟨.hbm, 150, rfl⟩
abbrev main_v84 : Ref sig .tc := ⟨.hbm, 151, rfl⟩
abbrev main_c_18 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_19 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_c_20 : Ref sig .tc := ⟨.hbm, 165, rfl⟩
abbrev main_v96 : Ref sig .tc := ⟨.hbm, 166, rfl⟩
abbrev main_v97 : Ref sig .tc := ⟨.hbm, 167, rfl⟩
abbrev main_c_21 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_22 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_call6_cst : Ref sig .tc := ⟨.hbm, 183, rfl⟩
abbrev main_call6_v0 : Ref sig .tc := ⟨.hbm, 184, rfl⟩
abbrev main_call6_cst_0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_cst_1 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_v111 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  bcast_S1700000x1_S1700000x40_0_1 : S1700000x1.BroadcastsInDim S1700000x40 (![0, 1] : Fin 2 → Fin S1700000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The idealized kernel's run with its result named. The program is two kernel regions among stretches of host
  operations; the thread's unscoped buffers are carried from boundary to boundary, and after the last region every
  unscoped buffer holds the last boundary's contents. The frame claim reads only the argument buffers off that final
  state; here the result buffer (the second region's output array) is read off it as well, so the run's post names
  the result as the last boundary's contents at that buffer.
-/
import proofs.«115648_j18047452578190_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; in the final state the result buffer holds the last
    boundary's contents at it, and the eleven argument buffers hold what they were launched with. -/
theorem run_result : θ_run defs (onTc (τ := τ) (main (F := F))) ⟨m, fun _ => 0, ρ⟩ (fun r => ∀ c : Dev nD,
      r.2.mem ((c.tc : Thread nD τ).loc main_v82) = W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.KBlocks0.lean ====
/-
  The first kernel region (the two dense layers) as whole-array functions. Its grid has 20 points; point t reads rows
  5000 t … 5000 t + 4999 of the feature array x and, at every point, the eight weight and bias arrays whole; it writes
  the same rows of its two outputs. The body acts on each row of x by itself. So if the value the body stores at block
  position (p, q) is a function of block row p of x and of the weights, then after the run each output array at (r, q)
  is that function of row r of x and of the weights: the 20 blocks tile the 100000 rows, and block row p of point t is
  array row 5000 t + p.
-/
import proofs.«115648_j18047452578190_2_alg».proof.Proof.Gen.KernelIdeal.Frame
import Idealize.ShloMosaic.Lib.Pipeline.Value
import Idealize.ShloMosaic.Lib.ValueIdx

noncomputable section

namespace Cert.KernelIdeal.KBlocks0

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The row of an index into an array of 100000 rows and 40 lanes. -/
def rowOf (i : S100000x40.Idx) : Fin 100000 := ⟨(i 0).val, (i 0).isLt⟩
/-- Its lane. -/
def laneOf (i : S100000x40.Idx) : Fin 40 := ⟨(i 1).val, (i 1).isLt⟩
/-- Row r of the feature array, as a function of the feature. -/
def row128 (X : S100000x128.Idx → Elt F .f32) (r : Fin 100000) : Fin 128 → Elt F .f32 := fun k => X (ix2 r k)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt F) ((c : Thread nD τ).loc b))

/-- The printed index maps over the 20 points: the feature window and the two outputs sit at block (t, 0), every
    weight window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The feature window's block at point t is rows 5000 t … of x as the region finds it. -/
theorem iblk0_0_apply (c : Dev nD) (t : Fin cfg0.N) (p : Fin 5000) (k : Fin 128) (i : S100000x128.Idx)
    (hi0 : (i 0).val = t.val * 5000 + p.val) (hi1 : (i 1).val = k.val) :
    (iblk0 V c 0 t : Vec F S5000x128 .f32) (ix2 p k) = (V c main_arg0 : S100000x128.Idx → Elt F .f32) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = (i 0).val; rw [e0, hi0]; omega
  | ⟨1, _⟩ => show win0_0.index t (1 : Fin 2) * 128 + 1 * k.val = (i 1).val; rw [e1, hi1]; omega

/-! A weight window's block, at block index 0 with the array's own extents, is the whole array. -/
theorem iblk0_1_whole (c : Dev nD) (t : Fin cfg0.N) (h0 : win0_1.index t (0 : Fin 2) = 0) (h1 : win0_1.index t (1 : Fin 2) = 0) :
    (iblk0 V c 1 t : Vec F S128x64 .f32) = (V c main_arg3 : S128x64.Idx → Elt F .f32) := by
  funext y
  unfold iblk0
  rw [View.read_apply]
  show V c main_arg3 _ = V c main_arg3 y
  refine congrArg _ ?_
  funext a
  apply Fin.ext
  match a with
  | ⟨0, _⟩ => show win0_1.index t (0 : Fin 2) * 128 + 1 * (y 0).val = (y 0).val; rw [h0]; omega
  | ⟨1, _⟩ => show win0_1.index t (1 : Fin 2) * 64 + 1 * (y 1).val = (y 1).val; rw [h1]; omega

theorem iblk0_2_whole (c : Dev nD) (t : Fin cfg0.N) (h0 : win0_2.index t (0 : Fin 1) = 0) :
    (iblk0 V c 2 t : Vec F S64 .f32) = (V c main_arg4 : S64.Idx → Elt F .f32) := by
  funext y
  unfold iblk0
  rw [View.read_apply]
  show V c main_arg4 _ = V c main_arg4 y
  refine congrArg _ ?_
  funext a
  apply Fin.ext
  match a with
  | ⟨0, _⟩ => show win0_2.index t (0 : Fin 1) * 64 + 1 * (y 0).val = (y 0).val; rw [h0]; omega

theorem iblk0_3_whole (c : Dev nD) (t : Fin cfg0.N) (h0 : win0_3.index t (0 : Fin 2) = 0) (h1 : win0_3.index t (1 : Fin 2) = 0) :
    (iblk0 V c 3 t : Vec F S128x64 .f32) = (V c main_arg5 : S128x64.Idx → Elt F .f32) := by
  funext y
  unfold iblk0
  rw [View.read_apply]
  show V c main_arg5 _ = V c main_arg5 y
  refine congrArg _ ?_
  funext a
  apply Fin.ext
  match a with
  | ⟨0, _⟩ => show win0_3.index t (0 : Fin 2) * 128 + 1 * (y 0).val = (y 0).val; rw [h0]; omega
  | ⟨1, _⟩ => show win0_3.index t (1 : Fin 2) * 64 + 1 * (y 1).val = (y 1).val; rw [h1]; omega

theorem iblk0_4_whole (c : Dev nD) (t : Fin cfg0.N) (h0 : win0_4.index t (0 : Fin 1) = 0) :
    (iblk0 V c 4 t : Vec F S64 .f32) = (V c main_arg6 : S64.Idx → Elt F .f32) := by
  funext y
  unfold iblk0
  rw [View.read_apply]
  show V c main_arg6 _ = V c main_arg6 y
  refine congrArg _ ?_
  funext a
  apply Fin.ext
  match a with
  | ⟨0, _⟩ => show win0_4.index t (0 : Fin 1) * 64 + 1 * (y 0).val = (y 0).val; rw [h0]; omega

theorem iblk0_5_whole (c : Dev nD) (t : Fin cfg0.N) (h0 : win0_5.index t (0 : Fin 2) = 0) (h1 : win0_5.index t (1 : Fin 2) = 0) :
    (iblk0 V c 5 t : Vec F S64x40 .f32) = (V c main_arg7 : S64x40.Idx → Elt F .f32) := by
  funext y
  unfold iblk0
  rw [View.read_apply]
  show V c main_arg7 _ = V c main_arg7 y
  refine congrArg _ ?_
  funext a
  apply Fin.ext
  match a with
  | ⟨0, _⟩ => show win0_5.index t (0 : Fin 2) * 64 + 1 * (y 0).val = (y 0).val; rw [h0]; omega
  | ⟨1, _⟩ => show win0_5.index t (1 : Fin 2) * 40 + 1 * (y 1).val = (y 1).val; rw [h1]; omega

theorem iblk0_6_whole (c : Dev nD) (t : Fin cfg0.N) (h0 : win0_6.index t (0 : Fin 1) = 0) :
    (iblk0 V c 6 t : Vec F S40 .f32) = (V c main_arg8 : S40.Idx → Elt F .f32) := by
  funext y
  unfold iblk0
  rw [View.read_apply]
  show V c main_arg8 _ = V c main_arg8 y
  refine congrArg _ ?_
  funext a
  apply Fin.ext
  match a with
  | ⟨0, _⟩ => show win0_6.index t (0 : Fin 1) * 40 + 1 * (y 0).val = (y 0).val; rw [h0]; omega

theorem iblk0_7_whole (c : Dev nD) (t : Fin cfg0.N) (h0 : win0_7.index t (0 : Fin 2) = 0) (h1 : win0_7.index t (1 : Fin 2) = 0) :
    (iblk0 V c 7 t : Vec F S64x40 .f32) = (V c main_arg9 : S64x40.Idx → Elt F .f32) := by
  funext y
  unfold iblk0
  rw [View.read_apply]
  show V c main_arg9 _ = V c main_arg9 y
  refine congrArg _ ?_
  funext a
  apply Fin.ext
  match a with
  | ⟨0, _⟩ => show win0_7.index t (0 : Fin 2) * 64 + 1 * (y 0).val = (y 0).val; rw [h0]; omega
  | ⟨1, _⟩ => show win0_7.index t (1 : Fin 2) * 40 + 1 * (y 1).val = (y 1).val; rw [h1]; omega

theorem iblk0_8_whole (c : Dev nD) (t : Fin cfg0.N) (h0 : win0_8.index t (0 : Fin 1) = 0) :
    (iblk0 V c 8 t : Vec F S40 .f32) = (V c main_arg10 : S40.Idx → Elt F .f32) := by
  funext y
  unfold iblk0
  rw [View.read_apply]
  show V c main_arg10 _ = V c main_arg10 y
  refine congrArg _ ?_
  funext a
  apply Fin.ext
  match a with
  | ⟨0, _⟩ => show win0_8.index t (0 : Fin 1) * 40 + 1 * (y 0).val = (y 0).val; rw [h0]; omega

/-- The mean output of the region as one function of the arrays as the region finds them. -/
def meanArr (Gm : (Fin 128 → Elt F .f32) → Vec F S128x64 .f32 → Vec F S64 .f32 → Vec F S128x64 .f32 → Vec F S64 .f32 → Vec F S64x40 .f32 → Vec F S40 .f32 → Vec F S64x40 .f32 → Vec F S40 .f32 → Fin 40 → Elt F .f32)
    (X : S100000x128.Idx → Elt F .f32) (W1 : Vec F S128x64 .f32) (b1 : Vec F S64 .f32) (W3 : Vec F S128x64 .f32) (b3 : Vec F S64 .f32)
    (W5 : Vec F S64x40 .f32) (b5 : Vec F S40 .f32) (W7 : Vec F S64x40 .f32) (b7 : Vec F S40 .f32) : S100000x40.Idx → Elt F .f32 :=
  fun i => Gm (row128 X (rowOf i)) W1 b1 W3 b3 W5 b5 W7 b7 (laneOf i)

/-- The variance output of the region likewise. -/
def varArr (Gv : (Fin 128 → Elt F .f32) → Vec F S128x64 .f32 → Vec F S64 .f32 → Vec F S64x40 .f32 → Vec F S40 .f32 → Fin 40 → Elt F .f32)
    (X : S100000x128.Idx → Elt F .f32) (W3 : Vec F S128x64 .f32) (b3 : Vec F S64 .f32) (W7 : Vec F S64x40 .f32) (b7 : Vec F S40 .f32) :
    S100000x40.Idx → Elt F .f32 :=
  fun i => Gv (row128 X (rowOf i)) W3 b3 W7 b7 (laneOf i)

/-- Block row p of x at point t is array row 5000 t + p. -/
theorem blk_row (c : Dev nD) (t : Fin cfg0.N) (p : Fin 5000) (i : S100000x40.Idx) (hi0 : (i 0).val = t.val * 5000 + p.val) :
    (fun k => (iblk0 V c 0 t : Vec F S5000x128 .f32) (ix2 p k)) = row128 (V c main_arg0) (rowOf i) :=
  funext fun k => iblk0_0_apply V c t p k (ix2 (rowOf i) k) hi0 rfl

/-- What point t writes back to the mean output is block t of `meanArr`. -/
theorem flushed0_9_eq (Gm : (Fin 128 → Elt F .f32) → Vec F S128x64 .f32 → Vec F S64 .f32 → Vec F S128x64 .f32 → Vec F S64 .f32 → Vec F S64x40 .f32 → Vec F S40 .f32 → Vec F S64x40 .f32 → Vec F S40 .f32 → Fin 40 → Elt F .f32)
    (hpay : ∀ (x0 : Vec F S5000x128 .f32) (x1 : Vec F S128x64 .f32) (x2 : Vec F S64 .f32) (x3 : Vec F S128x64 .f32) (x4 : Vec F S64 .f32)
      (x5 : Vec F S64x40 .f32) (x6 : Vec F S40 .f32) (x7 : Vec F S64x40 .f32) (x8 : Vec F S40 .f32) (p : Fin 5000) (q : Fin 40),
      k0_pay3 (k0_pay6 x0 x1 x2 x5 x6) (k0_pay7 x0 x3 x4 x7) (k0_pay8 x8) (ix2 p q)
        = Gm (fun k => x0 (ix2 p k)) x1 x2 x3 x4 x5 x6 x7 x8 q)
    (c : Dev nD) (t : Fin cfg0.N) :
    (dat0 V c).flushed 9 t = ((cfg0.win 9).blk t).view.read (Elt F)
      (meanArr Gm (V c main_arg0) (V c main_arg3) (V c main_arg4) (V c main_arg5) (V c main_arg6) (V c main_arg7) (V c main_arg8) (V c main_arg9) (V c main_arg10)) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S128x64) hz2, View.ld_unit_zero (S := S64x40) hz2,
    View.ld_unit_zero (S := S64) hz1, View.ld_unit_zero (S := S40) hz1]
  obtain ⟨-, -, a10, a11, a20, a30, a31, a40, a50, a51, a60, a70, a71, a80, e0, e1, -, -⟩ := idx_facts0 t
  rw [iblk0_1_whole V c t a10 a11, iblk0_2_whole V c t a20, iblk0_3_whole V c t a30 a31, iblk0_4_whole V c t a40,
    iblk0_5_whole V c t a50 a51, iblk0_6_whole V c t a60, iblk0_7_whole V c t a70 a71, iblk0_8_whole V c t a80]
  funext y
  obtain ⟨p, q, rfl⟩ : ∃ (p : Fin 5000) (q : Fin 40), y = ix2 p q := ⟨y 0, y 1, eq_ix2 y⟩
  refine (hpay _ _ _ _ _ _ _ _ _ p q).trans ?_
  show _ = meanArr Gm _ _ _ _ _ _ _ _ _ (((cfg0.win 9).blk t).view.emb (ix2 p q))
  unfold meanArr
  have hr : ((((cfg0.win 9).blk t).view.emb (ix2 p q) : S100000x40.Idx) 0).val = t.val * 5000 + p.val := by
    show win0_9.index t (0 : Fin 2) * 5000 + 1 * p.val = _
    rw [e0]; omega
  have hq : q = laneOf (((cfg0.win 9).blk t).view.emb (ix2 p q)) := Fin.ext (by
    show q.val = win0_9.index t (1 : Fin 2) * 40 + 1 * q.val
    rw [e1]; omega)
  rw [blk_row V c t p _ hr, ← hq]

/-- What point t writes back to the variance output is block t of `varArr`. -/
theorem flushed0_10_eq (Gv : (Fin 128 → Elt F .f32) → Vec F S128x64 .f32 → Vec F S64 .f32 → Vec F S64x40 .f32 → Vec F S40 .f32 → Fin 40 → Elt F .f32)
    (hpay : ∀ (x0 : Vec F S5000x128 .f32) (x3 : Vec F S128x64 .f32) (x4 : Vec F S64 .f32) (x7 : Vec F S64x40 .f32) (x8 : Vec F S40 .f32)
      (p : Fin 5000) (q : Fin 40),
      k0_pay4 (k0_pay7 x0 x3 x4 x7) (k0_pay8 x8) (ix2 p q) = Gv (fun k => x0 (ix2 p k)) x3 x4 x7 x8 q)
    (c : Dev nD) (t : Fin cfg0.N) :
    (dat0 V c).flushed 10 t = ((cfg0.win 10).blk t).view.read (Elt F)
      (varArr Gv (V c main_arg0) (V c main_arg5) (V c main_arg6) (V c main_arg9) (V c main_arg10)) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x64) hz2, View.ld_unit_zero (S := S64x40) hz2,
    View.ld_unit_zero (S := S64) hz1, View.ld_unit_zero (S := S40) hz1]
  obtain ⟨-, -, -, -, -, a30, a31, a40, -, -, -, a70, a71, a80, -, -, e0, e1⟩ := idx_facts0 t
  rw [iblk0_3_whole V c t a30 a31, iblk0_4_whole V c t a40, iblk0_7_whole V c t a70 a71, iblk0_8_whole V c t a80]
  funext y
  obtain ⟨p, q, rfl⟩ : ∃ (p : Fin 5000) (q : Fin 40), y = ix2 p q := ⟨y 0, y 1, eq_ix2 y⟩
  refine (hpay _ _ _ _ _ p q).trans ?_
  show _ = varArr Gv _ _ _ _ _ (((cfg0.win 10).blk t).view.emb (ix2 p q))
  unfold varArr
  have hr : ((((cfg0.win 10).blk t).view.emb (ix2 p q) : S100000x40.Idx) 0).val = t.val * 5000 + p.val := by
    show win0_10.index t (0 : Fin 2) * 5000 + 1 * p.val = _
    rw [e0]; omega
  have hq : q = laneOf (((cfg0.win 10).blk t).view.emb (ix2 p q)) := Fin.ext (by
    show q.val = win0_10.index t (1 : Fin 2) * 40 + 1 * q.val
    rw [e1]; omega)
  rw [blk_row V c t p _ hr, ← hq]

/-- Every row of an output lies in the block of the point (row / 5000). -/
theorem cover9 (i : S100000x40.Idx) : ∃ t : Fin cfg0.N, (cfg0.win 9).flush t = true ∧ i ∈ ((cfg0.win 9).blk t).view.set := by
  have hN : cfg0.N = 20 := N_0
  have hi0 : (i 0 : Nat) < 100000 := (i 0).isLt
  have hi1 : (i 1 : Nat) < 40 := (i 1).isLt
  let t : Fin cfg0.N := ⟨(i 0 : Nat) / 5000, by rw [hN]; omega⟩
  obtain ⟨-, -, -, -, -, -, -, -, -, -, -, -, -, -, e0, e1, -, -⟩ := idx_facts0 t
  have ht : t.val = (i 0 : Nat) / 5000 := rfl
  refine ⟨t, flush0_9 t, ?_⟩
  show i ∈ ((View.whole main_v55_0).slice (win0_9.rect t)).set
  rw [View.set_slice_whole, Rect.mem_set_unit]
  intro a
  match a with
  | ⟨0, _⟩ =>
    show win0_9.index t (0 : Fin 2) * 5000 ≤ (i 0 : Nat) ∧ (i 0 : Nat) < win0_9.index t (0 : Fin 2) * 5000 + 5000
    rw [e0, ht]; omega
  | ⟨1, _⟩ =>
    show win0_9.index t (1 : Fin 2) * 40 ≤ (i 1 : Nat) ∧ (i 1 : Nat) < win0_9.index t (1 : Fin 2) * 40 + 40
    rw [e1]; omega

theorem cover10 (i : S100000x40.Idx) : ∃ t : Fin cfg0.N, (cfg0.win 10).flush t = true ∧ i ∈ ((cfg0.win 10).blk t).view.set := by
  have hN : cfg0.N = 20 := N_0
  have hi0 : (i 0 : Nat) < 100000 := (i 0).isLt
  have hi1 : (i 1 : Nat) < 40 := (i 1).isLt
  let t : Fin cfg0.N := ⟨(i 0 : Nat) / 5000, by rw [hN]; omega⟩
  obtain ⟨-, -, -, -, -, -, -, -, -, -, -, -, -, -, -, -, e0, e1⟩ := idx_facts0 t
  have ht : t.val = (i 0 : Nat) / 5000 := rfl
  refine ⟨t, flush0_10 t, ?_⟩
  show i ∈ ((View.whole main_v55_1).slice (win0_10.rect t)).set
  rw [View.set_slice_whole, Rect.mem_set_unit]
  intro a
  match a with
  | ⟨0, _⟩ =>
    show win0_10.index t (0 : Fin 2) * 5000 ≤ (i 0 : Nat) ∧ (i 0 : Nat) < win0_10.index t (0 : Fin 2) * 5000 + 5000
    rw [e0, ht]; omega
  | ⟨1, _⟩ =>
    show win0_10.index t (1 : Fin 2) * 40 ≤ (i 1 : Nat) ∧ (i 1 : Nat) < win0_10.index t (1 : Fin 2) * 40 + 40
    rw [e1]; omega

/-- After the region's run its mean output array is `meanArr` of its input arrays at entry. -/
theorem mean_arr (Gm : (Fin 128 → Elt F .f32) → Vec F S128x64 .f32 → Vec F S64 .f32 → Vec F S128x64 .f32 → Vec F S64 .f32 → Vec F S64x40 .f32 → Vec F S40 .f32 → Vec F S64x40 .f32 → Vec F S40 .f32 → Fin 40 → Elt F .f32)
    (hpay : ∀ (x0 : Vec F S5000x128 .f32) (x1 : Vec F S128x64 .f32) (x2 : Vec F S64 .f32) (x3 : Vec F S128x64 .f32) (x4 : Vec F S64 .f32)
      (x5 : Vec F S64x40 .f32) (x6 : Vec F S40 .f32) (x7 : Vec F S64x40 .f32) (x8 : Vec F S40 .f32) (p : Fin 5000) (q : Fin 40),
      k0_pay3 (k0_pay6 x0 x1 x2 x5 x6) (k0_pay7 x0 x3 x4 x7) (k0_pay8 x8) (ix2 p q)
        = Gm (fun k => x0 (ix2 p k)) x1 x2 x3 x4 x5 x6 x7 x8 q)
    (c : Dev nD) :
    (dat0 V c).arrAt 9 cfg0.N
      = meanArr Gm (V c main_arg0) (V c main_arg3) (V c main_arg4) (V c main_arg5) (V c main_arg6) (V c main_arg7) (V c main_arg8) (V c main_arg9) (V c main_arg10) :=
  (dat0 V c).arrAt_eq_of_cover 9 _ (fun t _ => flushed0_9_eq V Gm hpay c t) cover9

/-- And its variance output array is `varArr` of them. -/
theorem var_arr (Gv : (Fin 128 → Elt F .f32) → Vec F S128x64 .f32 → Vec F S64 .f32 → Vec F S64x40 .f32 → Vec F S40 .f32 → Fin 40 → Elt F .f32)
    (hpay : ∀ (x0 : Vec F S5000x128 .f32) (x3 : Vec F S128x64 .f32) (x4 : Vec F S64 .f32) (x7 : Vec F S64x40 .f32) (x8 : Vec F S40 .f32)
      (p : Fin 5000) (q : Fin 40),
      k0_pay4 (k0_pay7 x0 x3 x4 x7) (k0_pay8 x8) (ix2 p q) = Gv (fun k => x0 (ix2 p k)) x3 x4 x7 x8 q)
    (c : Dev nD) :
    (dat0 V c).arrAt 10 cfg0.N = varArr Gv (V c main_arg0) (V c main_arg5) (V c main_arg6) (V c main_arg9) (V c main_arg10) :=
  (dat0 V c).arrAt_eq_of_cover 10 _ (fun t _ => flushed0_10_eq V Gv hpay c t) cover10

end Cert.KernelIdeal.KBlocks0

end
-- ==== Proof.KBlocks1.lean ====
/-
  The second kernel region (the final combine) as a whole-array function. Its grid has 20 points; point t reads rows
  5000 t … 5000 t + 4999 of its three input arrays (the aggregated mean, the aggregated variance, the noise) and writes
  the same rows of its output. The body acts on each row by itself: the output at (r, q) depends only on row r of the
  three inputs. So if the body's stored value at block position (p, q) is a function `Gr` of the three block rows p,
  then after the run the output array at (r, q) is `Gr` of the three array rows r — the 20 blocks tile the array, and
  block row p of point t is array row 5000 t + p.
-/
import proofs.«115648_j18047452578190_2_alg».proof.Proof.Gen.KernelIdeal.Frame
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The row of an index into an array of 100000 rows and 40 lanes. -/
def rowOf (i : S100000x40.Idx) : Fin 100000 := ⟨(i 0).val, (i 0).isLt⟩
/-- Its lane. -/
def laneOf (i : S100000x40.Idx) : Fin 40 := ⟨(i 1).val, (i 1).isLt⟩

/-- Row r of an array of 40 lanes, as a function of the lane. -/
def row40 (A : S100000x40.Idx → Elt F .f32) (r : Fin 100000) : Fin 40 → Elt F .f32 := fun j => A (ix2 r j)

theorem hz2 : (![0, 0] : Fin 2 → Nat) = fun _ => 0 := funext fun a => by fin_cases a <;> rfl

/-- A row-wise body on a block whose rows are rows o, o + 1, … of the arrays: at block position y, which is array
    position i, it gives the row function of the arrays' rows. -/
theorem final_blk
    (Gr : (Fin 40 → Elt F .f32) → (Fin 40 → Elt F .f32) → (Fin 40 → Elt F .f32) → Fin 40 → Elt F .f32)
    (hpay : ∀ (a b n : Vec F S5000x40 .f32) (p : Fin 5000) (q : Fin 40),
      k1_pay1 a b n (ix2 p q) = Gr (fun j => a (ix2 p j)) (fun j => b (ix2 p j)) (fun j => n (ix2 p j)) q)
    (a b n : Vec F S5000x40 .f32) (A B N : S100000x40.Idx → Elt F .f32) (o : Nat)
    (ha : ∀ (p : Fin 5000) (j : Fin 40) (k : S100000x40.Idx), (k 0).val = o + p.val → (k 1).val = j.val → a (ix2 p j) = A k)
    (hb : ∀ (p : Fin 5000) (j : Fin 40) (k : S100000x40.Idx), (k 0).val = o + p.val → (k 1).val = j.val → b (ix2 p j) = B k)
    (hn : ∀ (p : Fin 5000) (j : Fin 40) (k : S100000x40.Idx), (k 0).val = o + p.val → (k 1).val = j.val → n (ix2 p j) = N k)
    (y : S5000x40.Idx) (i : S100000x40.Idx) (hi0 : (i 0).val = o + (y 0).val) (hi1 : (i 1).val = (y 1).val) :
    k1_pay1 a b n y = Gr (row40 A (rowOf i)) (row40 B (rowOf i)) (row40 N (rowOf i)) (laneOf i) := by
  obtain ⟨p, q, rfl⟩ : ∃ (p : Fin 5000) (q : Fin 40), y = ix2 p q := ⟨y 0, y 1, eq_ix2 y⟩
  rw [hpay]
  have e1 : (fun j => a (ix2 p j)) = row40 A (rowOf i) := funext fun j => ha p j (ix2 (rowOf i) j) hi0 rfl
  have e2 : (fun j => b (ix2 p j)) = row40 B (rowOf i) := funext fun j => hb p j (ix2 (rowOf i) j) hi0 rfl
  have e3 : (fun j => n (ix2 p j)) = row40 N (rowOf i) := funext fun j => hn p j (ix2 (rowOf i) j) hi0 rfl
  have e4 : q = laneOf i := Fin.ext hi1.symm
  rw [e1, e2, e3, e4]

variable (V : (c : Dev nD) → (b : Ref sig .tc) → Buf (Elt F) ((c : Thread nD τ).loc b))

/-- The printed index maps over the 20 points: every window's block index is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Input window 0's block at point t is rows 5000 t … of the aggregated mean as the region finds it. -/
theorem iblk1_0_apply (c : Dev nD) (t : Fin cfg1.N) (p : Fin 5000) (j : Fin 40) (k : S100000x40.Idx)
    (hk0 : (k 0).val = t.val * 5000 + p.val) (hk1 : (k 1).val = j.val) :
    (iblk1 V c 0 t : Vec F S5000x40 .f32) (ix2 p j) = (V c main_v68 : S100000x40.Idx → Elt F .f32) k := by
  obtain ⟨e0, e1, -⟩ := idx_facts1 t
  unfold iblk1
  rw [View.read_apply]
  show V c main_v68 _ = V c main_v68 _
  refine congrArg _ ?_
  funext a
  apply Fin.ext
  match a with
  | ⟨0, _⟩ => show win1_0.index t (0 : Fin 2) * 5000 + 1 * p.val = (k 0).val; rw [e0, hk0]; omega
  | ⟨1, _⟩ => show win1_0.index t (1 : Fin 2) * 40 + 1 * j.val = (k 1).val; rw [e1, hk1]; omega

theorem iblk1_1_apply (c : Dev nD) (t : Fin cfg1.N) (p : Fin 5000) (j : Fin 40) (k : S100000x40.Idx)
    (hk0 : (k 0).val = t.val * 5000 + p.val) (hk1 : (k 1).val = j.val) :
    (iblk1 V c 1 t : Vec F S5000x40 .f32) (ix2 p j) = (V c main_v81 : S100000x40.Idx → Elt F .f32) k := by
  obtain ⟨-, -, e0, e1, -⟩ := idx_facts1 t
  unfold iblk1
  rw [View.read_apply]
  show V c main_v81 _ = V c main_v81 _
  refine congrArg _ ?_
  funext a
  apply Fin.ext
  match a with
  | ⟨0, _⟩ => show win1_1.index t (0 : Fin 2) * 5000 + 1 * p.val = (k 0).val; rw [e0, hk0]; omega
  | ⟨1, _⟩ => show win1_1.index t (1 : Fin 2) * 40 + 1 * j.val = (k 1).val; rw [e1, hk1]; omega

theorem iblk1_2_apply (c : Dev nD) (t : Fin cfg1.N) (p : Fin 5000) (j : Fin 40) (k : S100000x40.Idx)
    (hk0 : (k 0).val = t.val * 5000 + p.val) (hk1 : (k 1).val = j.val) :
    (iblk1 V c 2 t : Vec F S5000x40 .f32) (ix2 p j) = (V c main_arg2 : S100000x40.Idx → Elt F .f32) k := by
  obtain ⟨-, -, -, -, e0, e1, -⟩ := idx_facts1 t
  unfold iblk1
  rw [View.read_apply]
  show V c main_arg2 _ = V c main_arg2 _
  refine congrArg _ ?_
  funext a
  apply Fin.ext
  match a with
  | ⟨0, _⟩ => show win1_2.index t (0 : Fin 2) * 5000 + 1 * p.val = (k 0).val; rw [e0, hk0]; omega
  | ⟨1, _⟩ => show win1_2.index t (1 : Fin 2) * 40 + 1 * j.val = (k 1).val; rw [e1, hk1]; omega

/-- The output array of the region as one function of the three input arrays as the region finds them. -/
def finalArr (Gr : (Fin 40 → Elt F .f32) → (Fin 40 → Elt F .f32) → (Fin 40 → Elt F .f32) → Fin 40 → Elt F .f32)
    (A B N : S100000x40.Idx → Elt F .f32) : S100000x40.Idx → Elt F .f32 :=
  fun i => Gr (row40 A (rowOf i)) (row40 B (rowOf i)) (row40 N (rowOf i)) (laneOf i)

/-- What point t writes back is block t of that function. -/
theorem flushed1_3_eq
    (Gr : (Fin 40 → Elt F .f32) → (Fin 40 → Elt F .f32) → (Fin 40 → Elt F .f32) → Fin 40 → Elt F .f32)
    (hpay : ∀ (a b n : Vec F S5000x40 .f32) (p : Fin 5000) (q : Fin 40),
      k1_pay1 a b n (ix2 p q) = Gr (fun j => a (ix2 p j)) (fun j => b (ix2 p j)) (fun j => n (ix2 p j)) q)
    (c : Dev nD) (t : Fin cfg1.N) :
    (dat1 V c).flushed 3 t = ((cfg1.win 3).blk t).view.read (Elt F) (finalArr Gr (V c main_v68) (V c main_v81) (V c main_arg2)) := by
  show (cfg1.win 3).cut (grid1.coords t) ((dat1 V c).after 3 t) = _
  rw [after1_3]
  unfold out1_3
  rw [View.canon_unit_zero hz2]
  simp only [View.ld_unit_zero (S := S5000x40) hz2]
  obtain ⟨-, -, -, -, -, -, e0, e1⟩ := idx_facts1 t
  funext y
  show k1_pay1 (iblk1 V c 0 t) (iblk1 V c 1 t) (iblk1 V c 2 t) y = finalArr Gr (V c main_v68) (V c main_v81) (V c main_arg2) (((cfg1.win 3).blk t).view.emb y)
  unfold finalArr
  refine final_blk Gr hpay _ _ _ _ _ _ (t.val * 5000) (fun p j k h0 h1 => iblk1_0_apply V c t p j k h0 h1)
    (fun p j k h0 h1 => iblk1_1_apply V c t p j k h0 h1) (fun p j k h0 h1 => iblk1_2_apply V c t p j k h0 h1) y _ ?_ ?_
  · show win1_3.index t (0 : Fin 2) * 5000 + 1 * (y 0).val = t.val * 5000 + (y 0).val
    rw [e0]; omega
  · show win1_3.index t (1 : Fin 2) * 40 + 1 * (y 1).val = (y 1).val
    rw [e1]; omega

/-- After the region's run its output array is that function of its input arrays at entry: the 20 blocks of 5000 rows
    tile the 100000 rows. -/
theorem final_arr
    (Gr : (Fin 40 → Elt F .f32) → (Fin 40 → Elt F .f32) → (Fin 40 → Elt F .f32) → Fin 40 → Elt F .f32)
    (hpay : ∀ (a b n : Vec F S5000x40 .f32) (p : Fin 5000) (q : Fin 40),
      k1_pay1 a b n (ix2 p q) = Gr (fun j => a (ix2 p j)) (fun j => b (ix2 p j)) (fun j => n (ix2 p j)) q)
    (c : Dev nD) :
    (dat1 V c).arrAt 3 cfg1.N = finalArr Gr (V c main_v68) (V c main_v81) (V c main_arg2) :=
  (dat1 V c).arrAt_eq_of_cover 3 _ (fun t _ => flushed1_3_eq V Gr hpay c t) fun i => by
    have hN : cfg1.N = 20 := N_1
    have hi0 : (i 0 : Nat) < 100000 := (i 0).isLt
    have hi1 : (i 1 : Nat) < 40 := (i 1).isLt
    let t : Fin cfg1.N := ⟨(i 0 : Nat) / 5000, by rw [hN]; omega⟩
    obtain ⟨-, -, -, -, -, -, e0, e1⟩ := idx_facts1 t
    have ht : t.val = (i 0 : Nat) / 5000 := rfl
    refine ⟨t, flush1_3 t, ?_⟩
    show i ∈ ((View.whole main_v82).slice (win1_3.rect t)).set
    rw [View.set_slice_whole, Rect.mem_set_unit]
    intro a
    match a with
    | ⟨0, _⟩ =>
      show win1_3.index t (0 : Fin 2) * 5000 ≤ (i 0 : Nat) ∧ (i 0 : Nat) < win1_3.index t (0 : Fin 2) * 5000 + 5000
      rw [e0, ht]; omega
    | ⟨1, _⟩ =>
      show win1_3.index t (1 : Fin 2) * 40 ≤ (i 1 : Nat) ∧ (i 1 : Nat) < win1_3.index t (1 : Fin 2) * 40 + 40
      rw [e1]; omega

end Cert.KernelIdeal.KBlocks

end
-- ==== Proof.RefStages.lean ====
/-
  The reference computation, cut into named stages.

  The reference is a two-branch graph network on 100000 nodes and 1600000 edges, with a self loop added at
  every node (1700000 edges in all).  Its stages:

  * rowIdx, colIdx : the two rows of the edge list, each followed by 0, 1, …, 99999 (the self loops).
  * edgeW pw : the edge weights  dis[row] * dis[col],  where  deg = Σ_{edges into row} 1  and
    dis = deg ^ pw  where  deg > 0,  and 0 elsewhere  (pw = -1/2 for the mean branch, -1 for the variance branch;
    an index below zero is wrapped by adding the number of nodes).
  * denseMean, denseVar : the two dense layers of each branch followed by the attention
    att = exp (-(relu (…) + 1e-6)):  mean * att  and  var * att * att.
  * agg : the weighted neighbourhood sum  out[row] += w * P[col]  over all edges.
  * finalOut : log_softmax over the 40 classes of  mean + noise * sqrt var.
  * refOut : the whole reference.

  Every body is the composition of the pure operations exactly as the reference's operations apply them, so
  that the run of the reference reads back to refOut by unfolding alone.
-/
import proofs.«115648_j18047452578190_2_alg».proof.ReferenceIdeal
import proofs.«115648_j18047452578190_2_alg».proof.Proof.Gen.ReferenceIdeal

noncomputable section

namespace Cert.ReferenceIdeal.Stage

open Cert.ReferenceIdeal Cert.ReferenceIdeal.Gen Idealize.ShloMosaic

variable {F : FTy → Type} [FloatOps F]

/-- Row 0 of the edge list, then the self loops 0 … 99999. -/
def rowIdx (e : IVec S2x1600000 32) : IVec S1700000 32 :=
  concatenate S1700000 0
    [⟨S1600000, shapeCast S1600000 (extractStridedSlice S1x1600000 ![0, 0] e slices_S2x1600000_S1x1600000_0_0)
        shapeCasts_S1x1600000_S1600000⟩,
     ⟨S100000, iotaInDim S100000 32 0⟩] concatenates_S1600000_S100000_S1700000_d0

/-- Row 1 of the edge list, then the self loops 0 … 99999. -/
def colIdx (e : IVec S2x1600000 32) : IVec S1700000 32 :=
  concatenate S1700000 0
    [⟨S1600000, shapeCast S1600000 (extractStridedSlice S1x1600000 ![1, 0] e slices_S2x1600000_S1x1600000_1_0)
        shapeCasts_S1x1600000_S1600000⟩,
     ⟨S100000, iotaInDim S100000 32 0⟩] concatenates_S1600000_S100000_S1700000_d0

/-- An index below zero counts from the end: it is moved up by the number of nodes. -/
def wrapIdx (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- An index vector as a column of one-element index tuples. -/
def idxCol (i : IVec S1700000 32) : IVec S1700000x1 32 :=
  broadcastInDim S1700000x1 ![0] bcast_S1700000_S1700000x1_0 i

/-- The degree of every node: the number of edges (self loop included) whose row index it is. -/
def deg (e : IVec S2x1600000 32) : FVec F S100000 .f32 :=
  Host.scatterAdd scatter_S100000_S1700000x1_S1700000_n_0_0_1
    (broadcastInDim S100000 ![] bcast_S_S100000 (constant (F := F) S_ .f32 0x00000000#32))
    (idxCol (rowIdx e))
    (broadcastInDim S1700000 ![] bcast_S_S1700000 (constant (F := F) S_ .f32 0x3F800000#32))

/-- deg ^ pw where the degree is positive, 0 elsewhere. -/
def dis (pw : BitVec 32) (e : IVec S2x1600000 32) : FVec F S100000 .f32 :=
  select
    (cmpf .ogt (deg (F := F) e) (broadcastInDim S100000 ![] bcast_S_S100000 (constant (F := F) S_ .f32 0x00000000#32)))
    (Host.powf (deg (F := F) e) (broadcastInDim S100000 ![] bcast_S_S100000 (constant (F := F) S_ .f32 pw)))
    (broadcastInDim S100000 ![] bcast_S_S100000 (constant (F := F) S_ .f32 0x00000000#32))

/-- The edge weights dis[row] * dis[col]. -/
def edgeW (pw : BitVec 32) (e : IVec S2x1600000 32) : FVec F S1700000 .f32 :=
  mulf
    (Host.gather gather_S100000_S1700000x1_S1700000_n_0_n_n_0_1_1 (dis (F := F) pw e) (idxCol (wrapIdx (rowIdx e))))
    (Host.gather gather_S100000_S1700000x1_S1700000_n_0_n_n_0_1_1 (dis (F := F) pw e) (idxCol (wrapIdx (colIdx e))))

/-- A bias of 64 entries added to every row. -/
def bias64 (b : FVec F S64 .f32) : FVec F S100000x64 .f32 :=
  broadcastInDim S100000x64 ![0, 1] bcast_S1x64_S100000x64_0_1 (broadcastInDim S1x64 ![1] bcast_S64_S1x64_1 b)

/-- A bias of 40 entries added to every row. -/
def bias40 (b : FVec F S40 .f32) : FVec F S100000x40 .f32 :=
  broadcastInDim S100000x40 ![0, 1] bcast_S1x40_S100000x40_0_1 (broadcastInDim S1x40 ![1] bcast_S40_S1x40_1 b)

/-- elu on 64 columns: z where z > 0, else 1 * expm1 (z where not z > 0, else 0). -/
def elu64 (z : FVec F S100000x64 .f32) : FVec F S100000x64 .f32 :=
  select
    (cmpf .ogt z (broadcastInDim S100000x64 ![] bcast_S_S100000x64 (constant (F := F) S_ .f32 0x00000000#32)))
    z
    (mulf (broadcastInDim S100000x64 ![] bcast_S_S100000x64 (constant (F := F) S_ .f32 0x3F800000#32))
      (Host.expm1
        (select
          (cmpf .ogt z (broadcastInDim S100000x64 ![] bcast_S_S100000x64 (constant (F := F) S_ .f32 0x00000000#32)))
          (broadcastInDim S100000x64 ![] bcast_S_S100000x64 (constant (F := F) S_ .f32 0x00000000#32))
          z)))

/-- elu on 40 columns. -/
def elu40 (z : FVec F S100000x40 .f32) : FVec F S100000x40 .f32 :=
  select
    (cmpf .ogt z (broadcastInDim S100000x40 ![] bcast_S_S100000x40 (constant (F := F) S_ .f32 0x00000000#32)))
    z
    (mulf (broadcastInDim S100000x40 ![] bcast_S_S100000x40 (constant (F := F) S_ .f32 0x3F800000#32))
      (Host.expm1
        (select
          (cmpf .ogt z (broadcastInDim S100000x40 ![] bcast_S_S100000x40 (constant (F := F) S_ .f32 0x00000000#32)))
          (broadcastInDim S100000x40 ![] bcast_S_S100000x40 (constant (F := F) S_ .f32 0x00000000#32))
          z)))

/-- relu on 64 columns. -/
def relu64 (z : FVec F S100000x64 .f32) : FVec F S100000x64 .f32 :=
  maximumf z (broadcastInDim S100000x64 ![] bcast_S_S100000x64 (constant (F := F) S_ .f32 0x00000000#32))

/-- relu on 40 columns. -/
def relu40 (z : FVec F S100000x40 .f32) : FVec F S100000x40 .f32 :=
  maximumf z (broadcastInDim S100000x40 ![] bcast_S_S100000x40 (constant (F := F) S_ .f32 0x00000000#32))

/-- The mean branch before the attention: elu (elu (x Wm0 + bm0) Wm1 + bm1). -/
def meanPre (x : FVec F S100000x128 .f32) (Wm0 : FVec F S128x64 .f32) (bm0 : FVec F S64 .f32)
    (Wm1 : FVec F S64x40 .f32) (bm1 : FVec F S40 .f32) : FVec F S100000x40 .f32 :=
  elu40 (addf
    (Host.dotGeneral dot_S100000x64_S64x40_S100000x40_1_0_0_1_n_n none
      (elu64 (addf (Host.dotGeneral dot_S100000x128_S128x64_S100000x64_1_0_0_1_n_n none x Wm0) (bias64 bm0))) Wm1)
    (bias40 bm1))

/-- The variance branch before the attention: relu (relu (x Wv0 + bv0) Wv1 + bv1) + 1e-6. -/
def varPre (x : FVec F S100000x128 .f32) (Wv0 : FVec F S128x64 .f32) (bv0 : FVec F S64 .f32)
    (Wv1 : FVec F S64x40 .f32) (bv1 : FVec F S40 .f32) : FVec F S100000x40 .f32 :=
  addf
    (relu40 (addf
      (Host.dotGeneral dot_S100000x64_S64x40_S100000x40_1_0_0_1_n_n none
        (relu64 (addf (Host.dotGeneral dot_S100000x128_S128x64_S100000x64_1_0_0_1_n_n none x Wv0) (bias64 bv0))) Wv1)
      (bias40 bv1)))
    (broadcastInDim S100000x40 ![] bcast_S_S100000x40 (constant (F := F) S_ .f32 0x358637BD#32))

/-- The attention exp (-var). -/
def att (x : FVec F S100000x128 .f32) (Wv0 : FVec F S128x64 .f32) (bv0 : FVec F S64 .f32)
    (Wv1 : FVec F S64x40 .f32) (bv1 : FVec F S40 .f32) : FVec F S100000x40 .f32 :=
  Host.exp (Host.negf (varPre x Wv0 bv0 Wv1 bv1))

/-- mean * att. -/
def denseMean (x : FVec F S100000x128 .f32) (Wm0 : FVec F S128x64 .f32) (bm0 : FVec F S64 .f32)
    (Wv0 : FVec F S128x64 .f32) (bv0 : FVec F S64 .f32) (Wm1 : FVec F S64x40 .f32) (bm1 : FVec F S40 .f32)
    (Wv1 : FVec F S64x40 .f32) (bv1 : FVec F S40 .f32) : FVec F S100000x40 .f32 :=
  mulf (meanPre x Wm0 bm0 Wm1 bm1) (att x Wv0 bv0 Wv1 bv1)

/-- var * att * att. -/
def denseVar (x : FVec F S100000x128 .f32) (Wv0 : FVec F S128x64 .f32) (bv0 : FVec F S64 .f32)
    (Wv1 : FVec F S64x40 .f32) (bv1 : FVec F S40 .f32) : FVec F S100000x40 .f32 :=
  mulf (mulf (varPre x Wv0 bv0 Wv1 bv1) (att x Wv0 bv0 Wv1 bv1)) (att x Wv0 bv0 Wv1 bv1)

/-- The weighted neighbourhood sum: out[row] += w * P[col] over all edges. -/
def agg (e : IVec S2x1600000 32) (w : FVec F S1700000 .f32) (P : FVec F S100000x40 .f32) : FVec F S100000x40 .f32 :=
  Host.scatterAdd scatter_S100000x40_S1700000x1_S1700000x40_1_0_0_1
    (broadcastInDim S100000x40 ![] bcast_S_S100000x40 (constant (F := F) S_ .f32 0x00000000#32))
    (idxCol (rowIdx e))
    (mulf
      (broadcastInDim S1700000x40 ![0, 1] bcast_S1700000x1_S1700000x40_0_1
        (broadcastInDim S1700000x1 ![0] bcast_S1700000_S1700000x1_0 w))
      (Host.gather gather_S100000x40_S1700000x1_S1700000x40_1_0_n_n_0_1_140 P (idxCol (wrapIdx (colIdx e)))))

/-- z minus its row maximum (the maximum taken with -∞ as the initial value, twice as the reference does). -/
def shifted (z : FVec F S100000x40 .f32) : FVec F S100000x40 .f32 :=
  subf z
    (broadcastInDim S100000x40 ![0, 1] bcast_S100000x1_S100000x40_0_1
      (broadcastInDim S100000x1 ![0] bcast_S100000_S100000x1_0
        (maximumf (broadcastInDim S100000 ![] bcast_S_S100000 (constant (F := F) S_ .f32 0xFF800000#32))
          (Host.reduce FloatOps.maximumf z (constant (F := F) S_ .f32 0xFF800000#32) reducesTo_S100000x40_S100000_d1 h_S_))))

/-- log_softmax over the 40 classes. -/
def logSoftmax (z : FVec F S100000x40 .f32) : FVec F S100000x40 .f32 :=
  subf (shifted z)
    (broadcastInDim S100000x40 ![0, 1] bcast_S100000x1_S100000x40_0_1
      (Host.log
        (broadcastInDim S100000x1 ![0] bcast_S100000_S100000x1_0
          (Host.reduceAdd (Host.exp (shifted z)) (constant (F := F) S_ .f32 0x00000000#32)
            reducesTo_S100000x40_S100000_d1 h_S_))))

/-- log_softmax (mean + noise * sqrt var). -/
def finalOut (mean var noise : FVec F S100000x40 .f32) : FVec F S100000x40 .f32 :=
  logSoftmax (addf mean (mulf noise (Host.sqrt var)))

/-- The whole reference, from the eleven arguments in their order. -/
def refOut (x : FVec F S100000x128 .f32) (e : IVec S2x1600000 32) (noise : FVec F S100000x40 .f32)
    (Wm0 : FVec F S128x64 .f32) (bm0 : FVec F S64 .f32) (Wv0 : FVec F S128x64 .f32) (bv0 : FVec F S64 .f32)
    (Wm1 : FVec F S64x40 .f32) (bm1 : FVec F S40 .f32) (Wv1 : FVec F S64x40 .f32) (bv1 : FVec F S40 .f32) :
    FVec F S100000x40 .f32 :=
  finalOut (agg e (edgeW 0xBF000000#32 e) (denseMean x Wm0 bm0 Wv0 bv0 Wm1 bm1 Wv1 bv1))
    (agg e (edgeW 0xBF800000#32 e) (denseVar x Wv0 bv0 Wv1 bv1)) noise

end Cert.ReferenceIdeal.Stage

end
-- ==== Proof.KFoldMid.lean ====
/-
  The host stretch between the two kernel regions, read back. From the buffer contents at the first region's exit it
  computes the two neighbourhood sums the second region reads: for each edge (row, col) with weight w, w times row col
  of the region's output is added into row `row` of the sum — once with the mean branch's weights and the mean output,
  once with the variance branch's weights and the variance output. These are the same operations the reference applies
  to its own dense outputs, so the result is the reference's aggregation stage applied to this program's buffers; the
  noise argument is not written.
-/
import proofs.«115648_j18047452578190_2_alg».proof.Proof.Gen.KernelIdeal.Frame
import proofs.«115648_j18047452578190_2_alg».proof.Proof.RefStages
import Idealize.ShloMosaic.Lib.StableHlo.Run

noncomputable section

namespace Cert.KernelIdeal.KFold

open Cert.KernelIdeal Cert.KernelIdeal.Gen Idealize.ShloMosaic Idealize.ShloMosaic.TcCoe Idealize.SL.Sem

variable {F : FTy → Type} [FloatOps F]

/-- The weighted neighbourhood sum from the row and column index vectors: out[row] += w * P[col] over all edges
    (an index below zero counts from the end). The reference's aggregation stage is this at the edge list's rows. -/
def aggRC (row col : IVec Cert.ReferenceIdeal.S1700000 32) (w : FVec F Cert.ReferenceIdeal.S1700000 .f32)
    (P : FVec F Cert.ReferenceIdeal.S100000x40 .f32) : FVec F Cert.ReferenceIdeal.S100000x40 .f32 :=
  Host.scatterAdd Cert.ReferenceIdeal.scatter_S100000x40_S1700000x1_S1700000x40_1_0_0_1
    (broadcastInDim Cert.ReferenceIdeal.S100000x40 ![] Cert.ReferenceIdeal.Gen.bcast_S_S100000x40
      (constant (F := F) Cert.ReferenceIdeal.S_ .f32 0x00000000#32))
    (Cert.ReferenceIdeal.Stage.idxCol row)
    (mulf
      (broadcastInDim Cert.ReferenceIdeal.S1700000x40 ![0, 1] Cert.ReferenceIdeal.Gen.bcast_S1700000x1_S1700000x40_0_1
        (broadcastInDim Cert.ReferenceIdeal.S1700000x1 ![0] Cert.ReferenceIdeal.Gen.bcast_S1700000_S1700000x1_0 w))
      (Host.gather Cert.ReferenceIdeal.gather_S100000x40_S1700000x1_S1700000x40_1_0_n_n_0_1_140 P
        (Cert.ReferenceIdeal.Stage.idxCol (Cert.ReferenceIdeal.Stage.wrapIdx col))))

theorem agg_eq (e : IVec Cert.ReferenceIdeal.S2x1600000 32) (w : FVec F Cert.ReferenceIdeal.S1700000 .f32)
    (P : FVec F Cert.ReferenceIdeal.S100000x40 .f32) :
    Cert.ReferenceIdeal.Stage.agg e w P
      = aggRC (Cert.ReferenceIdeal.Stage.rowIdx e) (Cert.ReferenceIdeal.Stage.colIdx e) w P := rfl

attribute [local irreducible] Host.scatterAdd Host.gather in
set_option maxHeartbeats 2000000 in
/-- The mean branch's sum after the stretch, from any contents. -/
theorem mid_mean (Wx : Valuation τ sig (Elt F)) :
    StableHlo.after hostOps1 Wx (Proc.devRef .tc main_v68)
      = aggRC (Wx (Proc.devRef .tc main_v3)) (Wx (Proc.devRef .tc main_v6)) (Wx (Proc.devRef .tc main_v30)) (Wx (Proc.devRef .tc main_v55_0)) := by
  after_results_simp
  rfl

attribute [local irreducible] Host.scatterAdd Host.gather in
set_option maxHeartbeats 2000000 in
/-- The variance branch's sum after the stretch, from any contents. -/
theorem mid_var (Wx : Valuation τ sig (Elt F)) :
    StableHlo.after hostOps1 Wx (Proc.devRef .tc main_v81)
      = aggRC (Wx (Proc.devRef .tc main_v3)) (Wx (Proc.devRef .tc main_v6)) (Wx (Proc.devRef .tc main_v54)) (Wx (Proc.devRef .tc main_v55_1)) := by
  after_results_simp
  rfl

/-- The stretch does not write the noise argument. -/
theorem mid_noise (Wx : Valuation τ sig (Elt F)) :
    StableHlo.after hostOps1 Wx (Proc.devRef .tc main_arg2) = Wx (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.KFold

end
-- ==== Proof.KFoldPre.lean ====
/-
  The host stretches before the first kernel region, read back. From the launch contents they compute, out of the edge
  list alone, the row and column index vectors (each edge list row followed by the self loops 0 … 99999) and the two
  vectors of edge weights dis[row] * dis[col], dis = deg ^ (-1/2) for the mean branch and deg ^ (-1) for the variance
  branch, deg the number of edges into a node. These are the same operations, in the same order, as the reference's
  first stages, so each is the reference's stage function of this program's edge list buffer. No stretch writes an
  argument buffer.
-/
import proofs.«115648_j18047452578190_2_alg».proof.Proof.Gen.KernelIdeal.Frame
import proofs.«115648_j18047452578190_2_alg».proof.Proof.RefStages
import Idealize.ShloMosaic.Lib.StableHlo.Run

noncomputable section

namespace Cert.KernelIdeal.KFold

open Cert.KernelIdeal Cert.KernelIdeal.Gen Idealize.ShloMosaic Idealize.ShloMosaic.TcCoe Idealize.SL.Sem

variable {F : FTy → Type} [FloatOps F]

/-- The buffer contents after the five stretches, from contents `Wx`. -/
abbrev pre (Wx : Valuation τ sig (Elt F)) : Valuation τ sig (Elt F) :=
  StableHlo.after hostOps0_4 (StableHlo.after hostOps0_3 (StableHlo.after hostOps0_2 (StableHlo.after hostOps0_1 (StableHlo.after hostOps0 Wx))))

theorem pre_arg0 (Wx : Valuation τ sig (Elt F)) : pre Wx (Proc.devRef .tc main_arg0) = Wx (Proc.devRef .tc main_arg0) :=
  calc pre Wx (Proc.devRef .tc main_arg0)
    _ = (StableHlo.after hostOps0_3 (StableHlo.after hostOps0_2 (StableHlo.after hostOps0_1 (StableHlo.after hostOps0 Wx)))) (Proc.devRef .tc main_arg0) := StableHlo.after_of_forall_not_mem (b := Proc.devRef .tc main_arg0) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg0) := StableHlo.after_of_forall_not_mem (b := Proc.devRef .tc main_arg0) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg0) := StableHlo.after_of_forall_not_mem (b := Proc.devRef .tc main_arg0) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg0) := StableHlo.after_of_forall_not_mem (b := Proc.devRef .tc main_arg0) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg0) := StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg1 (Wx : Valuation τ sig (Elt F)) : pre Wx (Proc.devRef .tc main_arg1) = Wx (Proc.devRef .tc main_arg1) :=
  calc pre Wx (Proc.devRef .tc main_arg1)
    _ = (StableHlo.after hostOps0_3 (StableHlo.after hostOps0_2 (StableHlo.after hostOps0_1 (StableHlo.after hostOps0 Wx)))) (Proc.devRef .tc main_arg1) := StableHlo.after_of_forall_not_mem (b := Proc.devRef .tc main_arg1) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg1) := StableHlo.after_of_forall_not_mem (b := Proc.devRef .tc main_arg1) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg1) := StableHlo.after_of_forall_not_mem (b := Proc.devRef .tc main_arg1) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg1) := StableHlo.after_of_forall_not_mem (b := Proc.devRef .tc main_arg1) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg1) := StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg2 (Wx : Valuation τ sig (Elt F)) : pre Wx (Proc.devRef .tc main_arg2) = Wx (Proc.devRef .tc main_arg2) :=
  calc pre Wx (Proc.devRef .tc main_arg2)
    _ = (StableHlo.after hostOps0_3 (StableHlo.after hostOps0_2 (StableHlo.after hostOps0_1 (StableHlo.after hostOps0 Wx)))) (Proc.devRef .tc main_arg2) := StableHlo.after_of_forall_not_mem (b := Proc.devRef .tc main_arg2) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg2) := StableHlo.after_of_forall_not_mem (b := Proc.devRef .tc main_arg2) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg2) := StableHlo.after_of_forall_not_mem (b := Proc.devRef .tc main_arg2) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg2) := StableHlo.after_of_forall_not_mem (b := Proc.devRef .tc main_arg2) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg2) := StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg3 (Wx : Valuation τ sig (Elt F)) : pre Wx (Proc.devRef .tc main_arg3) = Wx (Proc.devRef .tc main_arg3) :=
  calc pre Wx (Proc.devRef .tc main_arg3)
    _ = (StableHlo.after hostOps0_3 (StableHlo.after hostOps0_2 (StableHlo.after hostOps0_1 (StableHlo.after hostOps0 Wx)))) (Proc.devRef .tc main_arg3) := StableHlo.after_of_forall_not_mem (b := Proc.devRef .tc main_arg3) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg3) := StableHlo.after_of_forall_not_mem (b := Proc.devRef .tc main_arg3) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg3) := StableHlo.after_of_forall_not_mem (b := Proc.devRef .tc main_arg3) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg3) := StableHlo.after_of_forall_not_mem (b := Proc.devRef .tc main_arg3) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg3) := StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg4 (Wx : Valuation τ sig (Elt F)) : pre Wx (Proc.devRef .tc main_arg4) = Wx (Proc.devRef .tc main_arg4) :=
  calc pre Wx (Proc.devRef .tc main_arg4)
    _ = (StableHlo.after hostOps0_3 (StableHlo.after hostOps0_2 (StableHlo.after hostOps0_1 (StableHlo.after hostOps0 Wx)))) (Proc.devRef .tc main_arg4) := StableHlo.after_of_forall_not_mem (b := Proc.devRef .tc main_arg4) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg4) := StableHlo.after_of_forall_not_mem (b := Proc.devRef .tc main_arg4) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg4) := StableHlo.after_of_forall_not_mem (b := Proc.devRef .tc main_arg4) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg4) := StableHlo.after_of_forall_not_mem (b := Proc.devRef .tc main_arg4) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg4) := StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg5 (Wx : Valuation τ sig (Elt F)) : pre Wx (Proc.devRef .tc main_arg5) = Wx (Proc.devRef .tc main_arg5) :=
  calc pre Wx (Proc.devRef .tc main_arg5)
    _ = (StableHlo.after hostOps0_3 (StableHlo.after hostOps0_2 (StableHlo.after hostOps0_1 (StableHlo.after hostOps0 Wx)))) (Proc.devRef .tc main_arg5) := StableHlo.after_of_forall_not_mem (b := Proc.devRef .tc main_arg5) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg5) := StableHlo.after_of_forall_not_mem (b := Proc.devRef .tc main_arg5) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg5) := StableHlo.after_of_forall_not_mem (b := Proc.devRef .tc main_arg5) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg5) := StableHlo.after_of_forall_not_mem (b := Proc.devRef .tc main_arg5) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg5) := StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg6 (Wx : Valuation τ sig (Elt F)) : pre Wx (Proc.devRef .tc main_arg6) = Wx (Proc.devRef .tc main_arg6) :=
  calc pre Wx (Proc.devRef .tc main_arg6)
    _ = (StableHlo.after hostOps0_3 (StableHlo.after hostOps0_2 (StableHlo.after hostOps0_1 (StableHlo.after hostOps0 Wx)))) (Proc.devRef .tc main_arg6) := StableHlo.after_of_forall_not_mem (b := Proc.devRef .tc main_arg6) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg6) := StableHlo.after_of_forall_not_mem (b := Proc.devRef .tc main_arg6) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg6) := StableHlo.after_of_forall_not_mem (b := Proc.devRef .tc main_arg6) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg6) := StableHlo.after_of_forall_not_mem (b := Proc.devRef .tc main_arg6) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg6) := StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg7 (Wx : Valuation τ sig (Elt F)) : pre Wx (Proc.devRef .tc main_arg7) = Wx (Proc.devRef .tc main_arg7) :=
  calc pre Wx (Proc.devRef .tc main_arg7)
    _ = (StableHlo.after hostOps0_3 (StableHlo.after hostOps0_2 (StableHlo.after hostOps0_1 (StableHlo.after hostOps0 Wx)))) (Proc.devRef .tc main_arg7) := StableHlo.after_of_forall_not_mem (b := Proc.devRef .tc main_arg7) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg7) := StableHlo.after_of_forall_not_mem (b := Proc.devRef .tc main_arg7) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg7) := StableHlo.after_of_forall_not_mem (b := Proc.devRef .tc main_arg7) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg7) := StableHlo.after_of_forall_not_mem (b := Proc.devRef .tc main_arg7) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg7) := StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg8 (Wx : Valuation τ sig (Elt F)) : pre Wx (Proc.devRef .tc main_arg8) = Wx (Proc.devRef .tc main_arg8) :=
  calc pre Wx (Proc.devRef .tc main_arg8)
    _ = (StableHlo.after hostOps0_3 (StableHlo.after hostOps0_2 (StableHlo.after hostOps0_1 (StableHlo.after hostOps0 Wx)))) (Proc.devRef .tc main_arg8) := StableHlo.after_of_forall_not_mem (b := Proc.devRef .tc main_arg8) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg8) := StableHlo.after_of_forall_not_mem (b := Proc.devRef .tc main_arg8) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg8) := StableHlo.after_of_forall_not_mem (b := Proc.devRef .tc main_arg8) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg8) := StableHlo.after_of_forall_not_mem (b := Proc.devRef .tc main_arg8) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg8) := StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg9 (Wx : Valuation τ sig (Elt F)) : pre Wx (Proc.devRef .tc main_arg9) = Wx (Proc.devRef .tc main_arg9) :=
  calc pre Wx (Proc.devRef .tc main_arg9)
    _ = (StableHlo.after hostOps0_3 (StableHlo.after hostOps0_2 (StableHlo.after hostOps0_1 (StableHlo.after hostOps0 Wx)))) (Proc.devRef .tc main_arg9) := StableHlo.after_of_forall_not_mem (b := Proc.devRef .tc main_arg9) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg9) := StableHlo.after_of_forall_not_mem (b := Proc.devRef .tc main_arg9) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg9) := StableHlo.after_of_forall_not_mem (b := Proc.devRef .tc main_arg9) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg9) := StableHlo.after_of_forall_not_mem (b := Proc.devRef .tc main_arg9) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg9) := StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre_arg10 (Wx : Valuation τ sig (Elt F)) : pre Wx (Proc.devRef .tc main_arg10) = Wx (Proc.devRef .tc main_arg10) :=
  calc pre Wx (Proc.devRef .tc main_arg10)
    _ = (StableHlo.after hostOps0_3 (StableHlo.after hostOps0_2 (StableHlo.after hostOps0_1 (StableHlo.after hostOps0 Wx)))) (Proc.devRef .tc main_arg10) := StableHlo.after_of_forall_not_mem (b := Proc.devRef .tc main_arg10) _ _ (List.forall_iff_forall_mem.mp (by
    simp only [hostOps0_4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_2 (StableHlo.after hostOps0_1 (StableHlo.after hostOps0 Wx))) (Proc.devRef .tc main_arg10) := StableHlo.after_of_forall_not_mem (b := Proc.devRef .tc main_arg10) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0_1 (StableHlo.after hostOps0 Wx)) (Proc.devRef .tc main_arg10) := StableHlo.after_of_forall_not_mem (b := Proc.devRef .tc main_arg10) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (StableHlo.after hostOps0 Wx) (Proc.devRef .tc main_arg10) := StableHlo.after_of_forall_not_mem (b := Proc.devRef .tc main_arg10) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
    _ = (Wx) (Proc.devRef .tc main_arg10) := StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

attribute [local irreducible] Host.scatterAdd Host.gather Host.powf in
set_option maxHeartbeats 4000000 in
/-- The row index vector. -/
theorem pre_row (Wx : Valuation τ sig (Elt F)) :
    pre Wx (Proc.devRef .tc main_v3) = Cert.ReferenceIdeal.Stage.rowIdx (Wx (Proc.devRef .tc main_arg1)) := by
  after_results_simp
  rfl

attribute [local irreducible] Host.scatterAdd Host.gather Host.powf in
set_option maxHeartbeats 4000000 in
/-- The column index vector. -/
theorem pre_col (Wx : Valuation τ sig (Elt F)) :
    pre Wx (Proc.devRef .tc main_v6) = Cert.ReferenceIdeal.Stage.colIdx (Wx (Proc.devRef .tc main_arg1)) := by
  after_results_simp
  rfl

attribute [local irreducible] Host.scatterAdd Host.gather Host.powf in
set_option maxHeartbeats 4000000 in
/-- The mean branch's edge weights. -/
theorem pre_w0 (Wx : Valuation τ sig (Elt F)) :
    pre Wx (Proc.devRef .tc main_v30) = Cert.ReferenceIdeal.Stage.edgeW 0xBF000000#32 (Wx (Proc.devRef .tc main_arg1)) := by
  after_results_simp
  rfl

attribute [local irreducible] Host.scatterAdd Host.gather Host.powf in
set_option maxHeartbeats 4000000 in
/-- The variance branch's edge weights. -/
theorem pre_w1 (Wx : Valuation τ sig (Elt F)) :
    pre Wx (Proc.devRef .tc main_v54) = Cert.ReferenceIdeal.Stage.edgeW 0xBF800000#32 (Wx (Proc.devRef .tc main_arg1)) := by
  after_results_simp
  rfl

end Cert.KernelIdeal.KFold

end
-- ==== Proof.KValue.lean ====
/-
  The idealized kernel's result as one closed term of its argument arrays. Reading the run from the end: the result is
  the second region's output array, a row-wise function `Gr` of the two neighbourhood sums and the noise argument; the
  sums are the aggregation of the first region's two output arrays along the edges, with the edge weights and index
  vectors the first host stretches computed from the edge list; the first region's outputs are row-wise functions
  `Gm`, `Gv` of the feature array and the weights. The three row functions are parameters here: all that is used of
  the kernel bodies is that the value they store at a block position is the row function of the block's rows.
-/
import proofs.«115648_j18047452578190_2_alg».proof.Proof.KRun
import proofs.«115648_j18047452578190_2_alg».proof.Proof.KBlocks0
import proofs.«115648_j18047452578190_2_alg».proof.Proof.KBlocks1
import proofs.«115648_j18047452578190_2_alg».proof.Proof.KFoldMid
import proofs.«115648_j18047452578190_2_alg».proof.Proof.KFoldPre

noncomputable section

namespace Cert.KernelIdeal.KValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (ρ : Dev nD → PrngReg)

/-! The argument buffers at the first region's entry are as launched. -/
theorem V5_arg0 (c : Dev nD) : V5 m ρ c main_arg0 = m ((c : Thread nD τ).loc main_arg0) :=
  KFold.pre_arg0 (W0 m ρ c)
theorem V5_arg3 (c : Dev nD) : V5 m ρ c main_arg3 = m ((c : Thread nD τ).loc main_arg3) :=
  KFold.pre_arg3 (W0 m ρ c)
theorem V5_arg4 (c : Dev nD) : V5 m ρ c main_arg4 = m ((c : Thread nD τ).loc main_arg4) :=
  KFold.pre_arg4 (W0 m ρ c)
theorem V5_arg5 (c : Dev nD) : V5 m ρ c main_arg5 = m ((c : Thread nD τ).loc main_arg5) :=
  KFold.pre_arg5 (W0 m ρ c)
theorem V5_arg6 (c : Dev nD) : V5 m ρ c main_arg6 = m ((c : Thread nD τ).loc main_arg6) :=
  KFold.pre_arg6 (W0 m ρ c)
theorem V5_arg7 (c : Dev nD) : V5 m ρ c main_arg7 = m ((c : Thread nD τ).loc main_arg7) :=
  KFold.pre_arg7 (W0 m ρ c)
theorem V5_arg8 (c : Dev nD) : V5 m ρ c main_arg8 = m ((c : Thread nD τ).loc main_arg8) :=
  KFold.pre_arg8 (W0 m ρ c)
theorem V5_arg9 (c : Dev nD) : V5 m ρ c main_arg9 = m ((c : Thread nD τ).loc main_arg9) :=
  KFold.pre_arg9 (W0 m ρ c)
theorem V5_arg10 (c : Dev nD) : V5 m ρ c main_arg10 = m ((c : Thread nD τ).loc main_arg10) :=
  KFold.pre_arg10 (W0 m ρ c)

/-- The index vectors and edge weights at the first region's exit are the stage functions of the edge list. -/
theorem W6_row (c : Dev nD) : W6 m ρ c (Proc.devRef .tc main_v3) = Cert.ReferenceIdeal.Stage.rowIdx (m ((c : Thread nD τ).loc main_arg1)) :=
  (W6_of_ne m ρ c main_v3 (by decide)).trans (KFold.pre_row (W0 m ρ c))
theorem W6_col (c : Dev nD) : W6 m ρ c (Proc.devRef .tc main_v6) = Cert.ReferenceIdeal.Stage.colIdx (m ((c : Thread nD τ).loc main_arg1)) :=
  (W6_of_ne m ρ c main_v6 (by decide)).trans (KFold.pre_col (W0 m ρ c))
theorem W6_w0 (c : Dev nD) : W6 m ρ c (Proc.devRef .tc main_v30) = Cert.ReferenceIdeal.Stage.edgeW 0xBF000000#32 (m ((c : Thread nD τ).loc main_arg1)) :=
  (W6_of_ne m ρ c main_v30 (by decide)).trans (KFold.pre_w0 (W0 m ρ c))
theorem W6_w1 (c : Dev nD) : W6 m ρ c (Proc.devRef .tc main_v54) = Cert.ReferenceIdeal.Stage.edgeW 0xBF800000#32 (m ((c : Thread nD τ).loc main_arg1)) :=
  (W6_of_ne m ρ c main_v54 (by decide)).trans (KFold.pre_w1 (W0 m ρ c))
theorem W6_noise (c : Dev nD) : W6 m ρ c (Proc.devRef .tc main_arg2) = (m ((c : Thread nD τ).loc main_arg2)) :=
  (W6_of_ne m ρ c main_arg2 (by decide)).trans (KFold.pre_arg2 (W0 m ρ c))

section
variable (Gr : (Fin 40 → Elt F .f32) → (Fin 40 → Elt F .f32) → (Fin 40 → Elt F .f32) → Fin 40 → Elt F .f32)
  (Gm : (Fin 128 → Elt F .f32) → Vec F S128x64 .f32 → Vec F S64 .f32 → Vec F S128x64 .f32 → Vec F S64 .f32 → Vec F S64x40 .f32 → Vec F S40 .f32 → Vec F S64x40 .f32 → Vec F S40 .f32 → Fin 40 → Elt F .f32)
  (Gv : (Fin 128 → Elt F .f32) → Vec F S128x64 .f32 → Vec F S64 .f32 → Vec F S64x40 .f32 → Vec F S40 .f32 → Fin 40 → Elt F .f32)

/-- The first region's mean output at its exit. -/
theorem W6_mean (hm : ∀ (x0 : Vec F S5000x128 .f32) (x1 : Vec F S128x64 .f32) (x2 : Vec F S64 .f32) (x3 : Vec F S128x64 .f32) (x4 : Vec F S64 .f32)
      (x5 : Vec F S64x40 .f32) (x6 : Vec F S40 .f32) (x7 : Vec F S64x40 .f32) (x8 : Vec F S40 .f32) (p : Fin 5000) (q : Fin 40),
      k0_pay3 (k0_pay6 x0 x1 x2 x5 x6) (k0_pay7 x0 x3 x4 x7) (k0_pay8 x8) (ix2 p q)
        = Gm (fun k => x0 (ix2 p k)) x1 x2 x3 x4 x5 x6 x7 x8 q) (c : Dev nD) :
    W6 m ρ c (Proc.devRef .tc main_v55_0)
      = KBlocks0.meanArr Gm (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 9).trans ((KBlocks0.mean_arr (V5 m ρ) Gm hm c).trans ?_)
  rw [V5_arg0, V5_arg3, V5_arg4, V5_arg5, V5_arg6, V5_arg7, V5_arg8, V5_arg9, V5_arg10]

/-- The first region's variance output at its exit. -/
theorem W6_var (hv : ∀ (x0 : Vec F S5000x128 .f32) (x3 : Vec F S128x64 .f32) (x4 : Vec F S64 .f32) (x7 : Vec F S64x40 .f32) (x8 : Vec F S40 .f32)
      (p : Fin 5000) (q : Fin 40),
      k0_pay4 (k0_pay7 x0 x3 x4 x7) (k0_pay8 x8) (ix2 p q) = Gv (fun k => x0 (ix2 p k)) x3 x4 x7 x8 q) (c : Dev nD) :
    W6 m ρ c (Proc.devRef .tc main_v55_1)
      = KBlocks0.varArr Gv (m ((c : Thread nD τ).loc main_arg0)) (m ((c : Thread nD τ).loc main_arg5)) (m ((c : Thread nD τ).loc main_arg6)) (m ((c : Thread nD τ).loc main_arg9)) (m ((c : Thread nD τ).loc main_arg10)) := by
  refine (W6_arr m ρ c 10).trans ((KBlocks0.var_arr (V5 m ρ) Gv hv c).trans ?_)
  rw [V5_arg0, V5_arg5, V5_arg6, V5_arg9, V5_arg10]

/-- The kernel's result array as a closed term of the launch contents of its arguments. -/
def closed (c : Dev nD) : Cert.ReferenceIdeal.S100000x40.Idx → Elt F .f32 :=
  KBlocks.finalArr Gr
    (KFold.aggRC (Cert.ReferenceIdeal.Stage.rowIdx (m ((c : Thread nD τ).loc main_arg1))) (Cert.ReferenceIdeal.Stage.colIdx (m ((c : Thread nD τ).loc main_arg1)))
      (Cert.ReferenceIdeal.Stage.edgeW 0xBF000000#32 (m ((c : Thread nD τ).loc main_arg1)))
      (KBlocks0.meanArr Gm (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))
    (KFold.aggRC (Cert.ReferenceIdeal.Stage.rowIdx (m ((c : Thread nD τ).loc main_arg1))) (Cert.ReferenceIdeal.Stage.colIdx (m ((c : Thread nD τ).loc main_arg1)))
      (Cert.ReferenceIdeal.Stage.edgeW 0xBF800000#32 (m ((c : Thread nD τ).loc main_arg1)))
      (KBlocks0.varArr Gv (m ((c : Thread nD τ).loc main_arg0)) (m ((c : Thread nD τ).loc main_arg5)) (m ((c : Thread nD τ).loc main_arg6)) (m ((c : Thread nD τ).loc main_arg9)) (m ((c : Thread nD τ).loc main_arg10))))
    (m ((c : Thread nD τ).loc main_arg2))

/-- The last boundary's contents at the result buffer are that term. -/
theorem result_eq (hr : ∀ (a b n : Vec F S5000x40 .f32) (p : Fin 5000) (q : Fin 40),
      k1_pay1 a b n (ix2 p q) = Gr (fun j => a (ix2 p j)) (fun j => b (ix2 p j)) (fun j => n (ix2 p j)) q) (hm : ∀ (x0 : Vec F S5000x128 .f32) (x1 : Vec F S128x64 .f32) (x2 : Vec F S64 .f32) (x3 : Vec F S128x64 .f32) (x4 : Vec F S64 .f32)
      (x5 : Vec F S64x40 .f32) (x6 : Vec F S40 .f32) (x7 : Vec F S64x40 .f32) (x8 : Vec F S40 .f32) (p : Fin 5000) (q : Fin 40),
      k0_pay3 (k0_pay6 x0 x1 x2 x5 x6) (k0_pay7 x0 x3 x4 x7) (k0_pay8 x8) (ix2 p q)
        = Gm (fun k => x0 (ix2 p k)) x1 x2 x3 x4 x5 x6 x7 x8 q) (hv : ∀ (x0 : Vec F S5000x128 .f32) (x3 : Vec F S128x64 .f32) (x4 : Vec F S64 .f32) (x7 : Vec F S64x40 .f32) (x8 : Vec F S40 .f32)
      (p : Fin 5000) (q : Fin 40),
      k0_pay4 (k0_pay7 x0 x3 x4 x7) (k0_pay8 x8) (ix2 p q) = Gv (fun k => x0 (ix2 p k)) x3 x4 x7 x8 q) (c : Dev nD) :
    W8 m ρ c (Proc.devRef .tc main_v82) = closed m Gr Gm Gv c := by
  refine (W8_arr m ρ c 3).trans ((KBlocks.final_arr (V7 m ρ) Gr hr c).trans ?_)
  have e68 : V7 m ρ c main_v68 = KFold.aggRC (Cert.ReferenceIdeal.Stage.rowIdx (m ((c : Thread nD τ).loc main_arg1))) (Cert.ReferenceIdeal.Stage.colIdx (m ((c : Thread nD τ).loc main_arg1)))
      (Cert.ReferenceIdeal.Stage.edgeW 0xBF000000#32 (m ((c : Thread nD τ).loc main_arg1)))
      (KBlocks0.meanArr Gm (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
    refine (KFold.mid_mean (W6 m ρ c)).trans ?_
    rw [W6_row, W6_col, W6_w0, W6_mean m ρ Gm hm c]
  have e81 : V7 m ρ c main_v81 = KFold.aggRC (Cert.ReferenceIdeal.Stage.rowIdx (m ((c : Thread nD τ).loc main_arg1))) (Cert.ReferenceIdeal.Stage.colIdx (m ((c : Thread nD τ).loc main_arg1)))
      (Cert.ReferenceIdeal.Stage.edgeW 0xBF800000#32 (m ((c : Thread nD τ).loc main_arg1)))
      (KBlocks0.varArr Gv (m ((c : Thread nD τ).loc main_arg0)) (m ((c : Thread nD τ).loc main_arg5)) (m ((c : Thread nD τ).loc main_arg6)) (m ((c : Thread nD τ).loc main_arg9)) (m ((c : Thread nD τ).loc main_arg10))) := by
    refine (KFold.mid_var (W6 m ρ c)).trans ?_
    rw [W6_row, W6_col, W6_w1, W6_var m ρ Gv hv c]
  have e2 : V7 m ρ c main_arg2 = (m ((c : Thread nD τ).loc main_arg2)) :=
    (KFold.mid_noise (W6 m ρ c)).trans (W6_noise m ρ c)
  rw [e68, e81, e2]
  rfl

/-- The run of the idealized kernel with its result at the closed term and its arguments unchanged. -/
theorem run (hr : ∀ (a b n : Vec F S5000x40 .f32) (p : Fin 5000) (q : Fin 40),
      k1_pay1 a b n (ix2 p q) = Gr (fun j => a (ix2 p j)) (fun j => b (ix2 p j)) (fun j => n (ix2 p j)) q) (hm : ∀ (x0 : Vec F S5000x128 .f32) (x1 : Vec F S128x64 .f32) (x2 : Vec F S64 .f32) (x3 : Vec F S128x64 .f32) (x4 : Vec F S64 .f32)
      (x5 : Vec F S64x40 .f32) (x6 : Vec F S40 .f32) (x7 : Vec F S64x40 .f32) (x8 : Vec F S40 .f32) (p : Fin 5000) (q : Fin 40),
      k0_pay3 (k0_pay6 x0 x1 x2 x5 x6) (k0_pay7 x0 x3 x4 x7) (k0_pay8 x8) (ix2 p q)
        = Gm (fun k => x0 (ix2 p k)) x1 x2 x3 x4 x5 x6 x7 x8 q) (hv : ∀ (x0 : Vec F S5000x128 .f32) (x3 : Vec F S128x64 .f32) (x4 : Vec F S64 .f32) (x7 : Vec F S64x40 .f32) (x8 : Vec F S40 .f32)
      (p : Fin 5000) (q : Fin 40),
      k0_pay4 (k0_pay7 x0 x3 x4 x7) (k0_pay8 x8) (ix2 p q) = Gv (fun k => x0 (ix2 p k)) x3 x4 x7 x8 q) :
    θ_run defs (onTc (τ := τ) (main (F := F))) ⟨m, fun _ => 0, ρ⟩ (fun r => ∀ c : Dev nD,
      r.2.mem ((c.tc : Thread nD τ).loc main_v82) = closed m Gr Gm Gv c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ Gr Gm Gv hr hm hv c), (h c).2⟩) (KRun.run_result m ρ)

end

end Cert.KernelIdeal.KValue

end
-- ==== Proof.RowSpec.lean ====
/- The function of ONE ROW that both programs compute, over the extended reals.

   A row `x` of 128 features goes through two two-layer dense networks that share the input:
   the MEAN branch, `elu (elu (x·Wm0 + bm0)·Wm1 + bm1)`, and the VARIANCE branch,
   `relu (relu (x·Wv0 + bv0)·Wv1 + bv1) + ε` (`ε` the program's small positive literal, kept as the
   value its word denotes and never evaluated). With the attention weight `att = exp (−variance)` the
   first stage returns `mean · att` and `variance · att · att`, lane by lane (40 lanes).
   The last stage takes a row of means, variances and noise, forms `z = mean + noise · √variance`
   and returns its log-softmax along the 40 lanes: `s = z − max z`, then `s − log (∑ exp s)`.
   Every operation is the exact one of the extended reals; nothing here asks the inputs to be finite. -/
import Idealize.ShloMosaic.PureOps.Ideal

noncomputable section

namespace Cert.RowSpec

open Idealize.ShloMosaic
open scoped BigOperators

/-- The small positive literal added to the variance, as the extended real its word denotes. -/
def eps : EReal := Ideal.ofBits .f32 0x358637BD#32

/-- The exponential linear unit: the identity above zero, `eˣ − 1` elsewhere. -/
def elu (x : EReal) : EReal := if 0 < x then x else Ideal.exp x - 1

/-- The rectifier. -/
def relu (x : EReal) : EReal := max x 0

/-- One dense layer at output lane `j`: the row against column `j` of the weights, plus the bias. -/
def dense {n m : Nat} (x : Fin n → EReal) (W : Fin n → Fin m → EReal) (b : Fin m → EReal) (j : Fin m) : EReal :=
  (∑ k : Fin n, x k * W k j) + b j

/-- The mean branch before its last activation is scaled: `elu` of the second layer over `elu` of the first. -/
def meanPre (x : Fin 128 → EReal) (Wm0 : Fin 128 → Fin 64 → EReal) (bm0 : Fin 64 → EReal)
    (Wm1 : Fin 64 → Fin 40 → EReal) (bm1 : Fin 40 → EReal) (q : Fin 40) : EReal :=
  elu (dense (fun j => elu (dense x Wm0 bm0 j)) Wm1 bm1 q)

/-- The variance branch: `relu` of the second layer over `relu` of the first, plus `ε`. -/
def var1 (x : Fin 128 → EReal) (Wv0 : Fin 128 → Fin 64 → EReal) (bv0 : Fin 64 → EReal)
    (Wv1 : Fin 64 → Fin 40 → EReal) (bv1 : Fin 40 → EReal) (q : Fin 40) : EReal :=
  relu (dense (fun j => relu (dense x Wv0 bv0 j)) Wv1 bv1 q) + eps

/-- The attention weight of a variance: `exp (−v)`. -/
def att (v : EReal) : EReal := Ideal.exp (-v)

/-- The first stage's mean output at lane `q`: the mean branch times the attention weight of the variance branch. -/
def meanRow (x : Fin 128 → EReal) (Wm0 : Fin 128 → Fin 64 → EReal) (bm0 : Fin 64 → EReal)
    (Wv0 : Fin 128 → Fin 64 → EReal) (bv0 : Fin 64 → EReal) (Wm1 : Fin 64 → Fin 40 → EReal) (bm1 : Fin 40 → EReal)
    (Wv1 : Fin 64 → Fin 40 → EReal) (bv1 : Fin 40 → EReal) (q : Fin 40) : EReal :=
  meanPre x Wm0 bm0 Wm1 bm1 q * att (var1 x Wv0 bv0 Wv1 bv1 q)

/-- The first stage's variance output at lane `q`: the variance branch times its attention weight, twice. -/
def varRow (x : Fin 128 → EReal) (Wv0 : Fin 128 → Fin 64 → EReal) (bv0 : Fin 64 → EReal)
    (Wv1 : Fin 64 → Fin 40 → EReal) (bv1 : Fin 40 → EReal) (q : Fin 40) : EReal :=
  var1 x Wv0 bv0 Wv1 bv1 q * att (var1 x Wv0 bv0 Wv1 bv1 q) * att (var1 x Wv0 bv0 Wv1 bv1 q)

/-- The greatest of a row's 40 lanes: the fold of `max` from `−∞`, in any order. -/
def rowMax (v : Fin 40 → EReal) : EReal := (Finset.univ : Finset (Fin 40)).fold max ⊥ v

/-- The sampled row `mean + noise · √variance`. -/
def sample (mean var noise : Fin 40 → EReal) (j : Fin 40) : EReal := mean j + noise j * Ideal.sqrt (var j)

/-- A row less its greatest lane. -/
def shifted (z : Fin 40 → EReal) (j : Fin 40) : EReal := z j - rowMax z

/-- The log-softmax of a row at lane `q`. -/
def logSoftmax (z : Fin 40 → EReal) (q : Fin 40) : EReal :=
  shifted z q - Ideal.log (∑ j : Fin 40, Ideal.exp (shifted z j))

/-- The last stage at lane `q`: the log-softmax of the sampled row. -/
def finalRow (mean var noise : Fin 40 → EReal) (q : Fin 40) : EReal :=
  logSoftmax (sample mean var noise) q

end Cert.RowSpec

end
-- ==== Proof.RowLemmas.lean ====
/- Shared readings used on both sides of the row-wise argument, all over the extended reals.

   * the words `1.0` and `−∞` denote `1` and `⊥`;
   * a select on the comparison `y < x` is the `if` on that order fact;
   * the column layouts: `[a] → [a,1]` and `[a,1] → [a,b]` (a per-row scalar spread along the lanes), as a shape
     cast / broadcast and as the host's `broadcast_in_dim`; the row layouts `[b] → [1,b] → [a,b]` on the host;
   * a plain `M×K` by `K×N` contraction read at `(p, q)` is `∑ k, L (p,k) · R (k,q)`;
   * a reduction along axis 1 of an `[a,40]` array read at row `p` runs over the row's 40 lanes. -/
import Idealize.ShloMosaic.Lib.ValueLayout
import Idealize.ShloMosaic.PureOps.Ideal.Laws
import proofs.«115648_j18047452578190_2_alg».proof.Proof.RowSpec

noncomputable section

namespace Cert.RowLemmas

open Idealize.ShloMosaic Idealize.ShloMosaic.ValueIdx
open scoped BigOperators

/-! ## Words -/

/-- The word of `1.0` denotes `1`. -/
theorem ofBits_one : Ideal.ofBits .f32 0x3F800000#32 = 1 := by
  simp [Ideal.ofBits, Ideal.ieee, -EReal.coe_mul]; norm_num

/-- The word of `−∞` denotes `⊥`. -/
theorem ofBits_negInf : Ideal.ofBits .f32 0xFF800000#32 = ⊥ := by
  simp [Ideal.ofBits, Ideal.ieee]

/-- A select on "`x` is greater than `y`" is the `if` on `y < x`. -/
theorem select_ogt (x y a b : EReal) :
    Scalar.select (FloatOps.cmpf (F := Ideal) (φ := .f32) .ogt x y) a b = if y < x then a else b := by
  show (if BitVec.ofBool (decide (y < x)) = 1 then a else b) = _
  by_cases h : y < x <;> simp [h]

/-! ## Column layouts -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one element. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A plain contraction read at an index -/

/-- For dimension numbers that contract the left operand's columns with the right operand's rows (no batch axis),
    the contraction's sum at `(p, q)` runs over `k` with the operands read at `(p, k)` and `(k, q)`. -/
theorem dot_plain_sum {m n c : Nat} (d : DotDims ⟨2, ![m, n]⟩ ⟨2, ![n, c]⟩ ⟨2, ![m, c]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![m, n]⟩ : Shape).Idx → EReal) (R : (⟨2, ![n, c]⟩ : Shape).Idx → EReal) (p : Fin m) (q : Fin c) :
    ∑ k : d.contr.Idx, L (d.lhsIdx (ix2 p q) k) * R (d.rhsIdx (ix2 p q) k) = ∑ k : Fin n, L (ix2 p k) * R (ix2 k q) := by
  obtain ⟨lc, rc, ln, rn, lb, rb, wf⟩ := d
  simp only at hlc hrc hln hrn hlb hrb
  subst hlc hrc hln hrn hlb hrb
  let d : DotDims ⟨2, ![m, n]⟩ ⟨2, ![n, c]⟩ ⟨2, ![m, c]⟩ := ⟨[1], [0], [0], [1], [], [], wf⟩
  let e := contrEquiv1 d n rfl rfl
  rw [← Equiv.sum_comp e.symm]
  refine Finset.sum_congr rfl fun k _ => ?_
  have hl : d.lhsIdx (ix2 p q) (e.symm k) = ix2 p k := by
    funext a
    match a with
    | ⟨0, _⟩ => exact Fin.ext rfl
    | ⟨1, _⟩ =>
      refine Fin.ext ?_
      exact (d.lhsIdx_val_of_single (cl := 1) rfl (ix2 p q) (e.symm k)).trans (contrEquiv1_symm_val d n rfl rfl k)
  have hr : d.rhsIdx (ix2 p q) (e.symm k) = ix2 k q := by
    funext a
    match a with
    | ⟨0, _⟩ =>
      refine Fin.ext ?_
      exact (d.rhsIdx_val_of_single (cr := 0) rfl (ix2 p q) (e.symm k)).trans (contrEquiv1_symm_val d n rfl rfl k)
    | ⟨1, _⟩ => exact Fin.ext rfl
  show L (d.lhsIdx (ix2 p q) (e.symm k)) * R (d.rhsIdx (ix2 p q) (e.symm k)) = _
  rw [hl, hr]

/-- A matrix product into the zero accumulator, read at `(p, q)`: the row of the left operand against the column of
    the right one. -/
theorem matmul_zero_plain_apply {m n c : Nat} {φ₁ φ₂ : FTy} (d : DotDims ⟨2, ![m, n]⟩ ⟨2, ![n, c]⟩ ⟨2, ![m, c]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, n]⟩ φ₁) (rhs : FVec Ideal ⟨2, ![n, c]⟩ φ₂)
    (p : Fin m) (q : Fin c) :
    matmul d prec lhs rhs (constant (F := Ideal) ⟨2, ![m, c]⟩ .f32 0x00000000#32) (ix2 p q)
      = ∑ k : Fin n, lhs (ix2 p k) * rhs (ix2 k q) :=
  (Ideal.matmul_constant_zero_apply d prec lhs rhs (ix2 p q)).trans (dot_plain_sum d hlc hrc hln hrn hlb hrb lhs rhs p q)

/-- The host's product of the same dimension numbers, read at `(p, q)`: the same sum. -/
theorem dotGeneral_plain_apply {m n c : Nat} {φ₁ φ₂ : FTy} (d : DotDims ⟨2, ![m, n]⟩ ⟨2, ![n, c]⟩ ⟨2, ![m, c]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, n]⟩ φ₁) (rhs : FVec Ideal ⟨2, ![n, c]⟩ φ₂)
    (p : Fin m) (q : Fin c) :
    Host.dotGeneral d prec lhs rhs (ix2 p q) = ∑ k : Fin n, lhs (ix2 p k) * rhs (ix2 k q) :=
  (Ideal.dotGeneral_apply d prec .single lhs rhs (ix2 p q)).trans (dot_plain_sum d hlc hrc hln hrn hlb hrb lhs rhs p q)

/-! ## Reductions along the lanes of a row -/

/-- Row `p` of an `[a, b]` array with lane `k` put back is the index `(p, k)`. -/
theorem lift_axis1 {a b : Nat} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A lane maximum from `−∞` read at row `p`: the greatest of that row's 40 lanes. -/
theorem multiReduction_max_row {a : Nat} (src : FVec Ideal ⟨2, ![a, 40]⟩ .f32)
    (h : (⟨2, ![a, 40]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = RowSpec.rowMax (fun j => src (ix2 p j)) :=
  (Ideal.multiReduction_maximumf_single src _ h hφ hacc (ix1 p)).trans (by
    show (Finset.univ : Finset (Fin 40)).fold max (Ideal.ofBits .f32 0xFF800000#32) (src ∘ h.lift (ix1 p)) = _
    rw [ofBits_negInf]
    exact congrArg (fun f => Finset.fold max ⊥ f (Finset.univ : Finset (Fin 40)))
      (funext fun k => congrArg src (lift_axis1 h p k)))

/-- A lane sum from `0` read at row `p`: the sum of that row's 40 lanes. -/
theorem multiReduction_add_row {a : Nat} (src : FVec Ideal ⟨2, ![a, 40]⟩ .f32)
    (h : (⟨2, ![a, 40]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ j : Fin 40, src (ix2 p j) :=
  (Ideal.multiReduction_add_single src _ h hφ hacc (ix1 p)).trans (by
    show ∑ k : Fin 40, src (h.lift (ix1 p) k) = _
    exact Finset.sum_congr rfl fun k _ => congrArg src (lift_axis1 h p k))

/-- The host's lane maximum from an initial value that is `−∞`, read at row `p`. -/
theorem hostReduce_max_row {a : Nat} {u : Shape} (x : FVec Ideal ⟨2, ![a, 40]⟩ .f32) (init : u.Idx → EReal)
    (h' : (⟨2, ![a, 40]⟩ : Shape).ReducesTo [1] ⟨1, ![a]⟩) (h : (⟨2, ![a, 40]⟩ : Shape).Reduces [1] ⟨1, ![a]⟩)
    (hu : 0 < u.numel) (hinit : init (Shape.Idx.first hu) = ⊥) (p : Fin a) :
    Host.reduce (FloatOps.maximumf (F := Ideal) (φ := .f32)) x init h' hu (ix1 p)
      = RowSpec.rowMax (fun j => x (ix2 p j)) :=
  (Host.reduce_eq_fold_single (FloatOps.maximumf (F := Ideal) (φ := .f32)) x init h' h hu (ix1 p)).trans (by
    show (Finset.univ : Finset (Fin 40)).fold max (init (Shape.Idx.first hu)) (x ∘ h.lift (ix1 p)) = _
    rw [hinit]
    exact congrArg (fun f => Finset.fold max ⊥ f (Finset.univ : Finset (Fin 40)))
      (funext fun k => congrArg x (lift_axis1 h p k)))

/-- The host's lane sum read at row `p`: the initial value plus the sum of that row's 40 lanes. -/
theorem hostReduceAdd_row {a : Nat} {u : Shape} (x : FVec Ideal ⟨2, ![a, 40]⟩ .f32) (init : u.Idx → EReal)
    (h' : (⟨2, ![a, 40]⟩ : Shape).ReducesTo [1] ⟨1, ![a]⟩) (h : (⟨2, ![a, 40]⟩ : Shape).Reduces [1] ⟨1, ![a]⟩)
    (hu : 0 < u.numel) (p : Fin a) :
    Host.reduceAdd (F := Ideal) x init h' hu (ix1 p) = init (Shape.Idx.first hu) + ∑ j : Fin 40, x (ix2 p j) :=
  (Ideal.hostReduceAdd_single h' h x (init (Shape.Idx.first hu)) (ix1 p)).trans (by
    show init (Shape.Idx.first hu) + ∑ k : Fin 40, x (h.lift (ix1 p) k) = _
    exact congrArg (init (Shape.Idx.first hu) + ·) (Finset.sum_congr rfl fun k _ => congrArg x (lift_axis1 h p k)))

/-! ## The activations and one dense layer, as vectors read at an index -/

/-- `select (x > 0) x (exp x − 1)` with the words of `0.0` and `1.0` is `elu`. -/
theorem elu_eq (x : EReal) :
    (if Ideal.ofBits .f32 0x00000000#32 < x then x else Ideal.exp x - Ideal.ofBits .f32 0x3F800000#32) = RowSpec.elu x := by
  rw [Ideal.ofBits_zero_f32, ofBits_one]; rfl

/-- The kernel's spelling of `elu` on a vector, read at an index. -/
theorem elu_vec_apply {s : Shape} (v : FVec Ideal s .f32) (i : s.Idx) :
    select (cmpf .ogt v (broadcast s (Scalar.ofBits (F := Ideal) .f32 0x00000000#32))) v
        (subf (exp v) (broadcast s (Scalar.ofBits (F := Ideal) .f32 0x3F800000#32))) i = RowSpec.elu (v i) :=
  (select_ogt (v i) (Ideal.ofBits .f32 0x00000000#32) (v i) (Ideal.exp (v i) - Ideal.ofBits .f32 0x3F800000#32)).trans
    (elu_eq (v i))

/-- `max x 0` with the word of `0.0` is `relu`. -/
theorem relu_eq (x : EReal) : max x (Ideal.ofBits .f32 0x00000000#32) = RowSpec.relu x := by
  rw [Ideal.ofBits_zero_f32]; rfl

/-- The kernel's spelling of `relu` on a vector, read at an index. -/
theorem relu_vec_apply {s : Shape} (v : FVec Ideal s .f32) (i : s.Idx) :
    maximumf v (broadcast s (Scalar.ofBits (F := Ideal) .f32 0x00000000#32)) i = RowSpec.relu (v i) :=
  relu_eq (v i)

/-- One dense layer as the kernel computes it — the product into the zero accumulator of the rows with the narrowed
    weights, plus the bias spread over the rows — read at `(p, q)`. -/
theorem layer_apply {m n c : Nat} {φ : FTy} (d : DotDims ⟨2, ![m, n]⟩ ⟨2, ![n, c]⟩ ⟨2, ![m, c]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨2, ![m, n]⟩ φ) (W : FVec Ideal ⟨2, ![n, c]⟩ .f32) (hbits : FTy.bits .bf16 < FTy.bits .f32)
    (b : FVec Ideal ⟨1, ![c]⟩ .f32) (hsc : (⟨1, ![c]⟩ : Shape).ShapeCasts ⟨2, ![1, c]⟩)
    (hbc : (⟨2, ![1, c]⟩ : Shape).Broadcasts ⟨2, ![m, c]⟩) (p : Fin m) (q : Fin c) :
    addf (matmul d none L (truncf .bf16 W hbits) (constant (F := Ideal) ⟨2, ![m, c]⟩ .f32 0x00000000#32))
        (broadcastTo ⟨2, ![m, c]⟩ (shapeCast ⟨2, ![1, c]⟩ b hsc) hbc) (ix2 p q)
      = RowSpec.dense (fun k => L (ix2 p k)) (fun k j => W (ix2 k j)) (fun j => b (ix1 j)) q :=
  congrArg₂ (· + ·) (matmul_zero_plain_apply d hlc hrc hln hrn hlb hrb none L (truncf .bf16 W hbits) p q)
    ((broadcastTo_1b_ab_apply (shapeCast ⟨2, ![1, c]⟩ b hsc) hbc p q).trans (shapeCast_a_1a_apply b hsc (0 : Fin 1) q))

end Cert.RowLemmas

end
-- ==== Proof.KernelRows.lean ====
/- The kernel's stored values read at one element, as the row-wise functions of Proof/RowSpec.lean.

   The dense kernel's block of 5000 rows: each matrix product into the zero accumulator is, at `(p, q)`, the sum over
   the contracted axis of row `p` against column `q` (the narrowing of the operands is the identity on extended
   reals); the bias reaches every row through `[n] → [1,n] → [5000,n]`; `select (x > 0) x (exp x − 1)` is `elu`,
   `max x 0` is `relu`, and `exp (0 − v)` is the attention weight of `v`. So the two stored values at `(p, q)` are
   `meanRow` and `varRow` of row `p` of the block.
   The final kernel's block: the lane maximum from `−∞` and the lane sum from `0` run over the 40 lanes of row `p`,
   and reach every lane of the row through `[5000] → [5000,1] → [5000,40]`; so the stored value at `(p, q)` is
   `finalRow` of row `p` of the three operands. -/
import proofs.«115648_j18047452578190_2_alg».proof.Proof.Gen.KernelIdeal.Skeleton
import proofs.«115648_j18047452578190_2_alg».proof.Proof.RowLemmas

noncomputable section

namespace Cert.KernelIdeal.Rows

open Cert.KernelIdeal Cert.KernelIdeal.Gen Idealize.ShloMosaic Idealize.ShloMosaic.ValueIdx
open Cert Cert.RowLemmas
open scoped BigOperators

/-! ## The log-softmax of the final kernel -/

/-- The row maximum spread over the lanes, as the final kernel computes it. -/
def laneMax (z : FVec Ideal S5000x40 .f32) : FVec Ideal S5000x40 .f32 :=
  broadcastTo S5000x40
    (shapeCast S5000x1 (multiReduction .maximumf [1] S5000 z 0xFF800000#32 reduces_S5000x40_S5000 (.inl rfl) rfl)
      shapeCasts_S5000_S5000x1) broadcasts_S5000x1_S5000x40

/-- It is the greatest lane of the row, at every lane. -/
theorem laneMax_apply (z : FVec Ideal S5000x40 .f32) (p : Fin 5000) (j : Fin 40) :
    laneMax z (ix2 p j) = RowSpec.rowMax (fun l => z (ix2 p l)) :=
  (broadcastTo_a1_ab_apply _ _ p j).trans
    ((shapeCast_a_a1_apply _ _ p (0 : Fin 1)).trans (multiReduction_max_row z _ _ _ p))

/-- The log of the row's sum spread over the lanes, as the final kernel computes it. -/
def laneLogSum (e : FVec Ideal S5000x40 .f32) : FVec Ideal S5000x40 .f32 :=
  broadcastTo S5000x40
    (log (shapeCast S5000x1 (multiReduction .add [1] S5000 e 0x00000000#32 reduces_S5000x40_S5000 (.inl rfl) rfl)
      shapeCasts_S5000_S5000x1)) broadcasts_S5000x1_S5000x40

/-- It is the log of the sum of the row's lanes, at every lane. -/
theorem laneLogSum_apply (e : FVec Ideal S5000x40 .f32) (p : Fin 5000) (j : Fin 40) :
    laneLogSum e (ix2 p j) = Ideal.log (∑ l : Fin 40, e (ix2 p l)) :=
  (broadcastTo_a1_ab_apply _ _ p j).trans
    (congrArg Ideal.log ((shapeCast_a_a1_apply _ _ p (0 : Fin 1)).trans (multiReduction_add_row e _ _ _ p)))

/-- The final kernel's log-softmax of an array, read at `(p, q)`. -/
theorem logSoftmax_pay (z : FVec Ideal S5000x40 .f32) (p : Fin 5000) (q : Fin 40) :
    subf (subf z (laneMax z)) (laneLogSum (exp (subf z (laneMax z)))) (ix2 p q)
      = RowSpec.logSoftmax (fun j => z (ix2 p j)) q := by
  have hs : ∀ j : Fin 40, subf z (laneMax z) (ix2 p j) = RowSpec.shifted (fun l => z (ix2 p l)) j := fun j =>
    congrArg (z (ix2 p j) - ·) (laneMax_apply z p j)
  show subf z (laneMax z) (ix2 p q) - laneLogSum (exp (subf z (laneMax z))) (ix2 p q) = _
  rw [laneLogSum_apply, hs q]
  refine congrArg (fun t => RowSpec.shifted (fun l => z (ix2 p l)) q - Ideal.log t) ?_
  exact Finset.sum_congr rfl fun j _ => congrArg Ideal.exp (hs j)

/-- The sampled array `a + n · √b` as the final kernel computes it (its two shape casts are to the same shape). -/
def sampleV (a b n : FVec Ideal S5000x40 .f32) : FVec Ideal S5000x40 .f32 :=
  addf (shapeCast S5000x40 a shapeCasts_S5000x40_S5000x40)
    (mulf n (sqrt (shapeCast S5000x40 b shapeCasts_S5000x40_S5000x40)))

/-- Read at `(p, j)`: lane `j` of the sampled row. -/
theorem sampleV_apply (a b n : FVec Ideal S5000x40 .f32) (p : Fin 5000) (j : Fin 40) :
    sampleV a b n (ix2 p j)
      = RowSpec.sample (fun j => a (ix2 p j)) (fun j => b (ix2 p j)) (fun j => n (ix2 p j)) j := by
  unfold sampleV
  rw [shapeCast_self, shapeCast_self]
  rfl

/-- THE FINAL KERNEL's stored value at `(p, q)`: the log-softmax of row `p` of `a + n · √b`. -/
theorem final_pay (a b n : Vec Ideal S5000x40 .f32) (p : Fin 5000) (q : Fin 40) :
    k1_pay1 a b n (ix2 p q)
      = RowSpec.finalRow (fun j => a (ix2 p j)) (fun j => b (ix2 p j)) (fun j => n (ix2 p j)) q :=
  (logSoftmax_pay (sampleV a b n) p q).trans
    (congrArg (fun z => RowSpec.logSoftmax z q) (funext fun j => sampleV_apply a b n p j))

/-! ## The dense kernel -/

/-- The first layer of either branch before its activation: the block's rows against the narrowed weights, plus the bias. -/
def pre1 (x0 : FVec Ideal S5000x128 .f32) (W : FVec Ideal S128x64 .f32) (b : FVec Ideal S64 .f32) :
    FVec Ideal S5000x64 .f32 :=
  addf (matmul dot_S5000x128_S128x64_S5000x64_1_0_0_1_n_n none (k0_pay5 x0) (truncf .bf16 W bitsLt_bf16_f32)
      (constant S5000x64 .f32 0x00000000#32))
    (broadcastTo S5000x64 (shapeCast S1x64 b shapeCasts_S64_S1x64) broadcasts_S1x64_S5000x64)

/-- Read at `(p, j)`: the first dense layer of row `p` at lane `j`. -/
theorem pre1_apply (x0 : FVec Ideal S5000x128 .f32) (W : FVec Ideal S128x64 .f32) (b : FVec Ideal S64 .f32)
    (p : Fin 5000) (j : Fin 64) :
    pre1 x0 W b (ix2 p j)
      = RowSpec.dense (fun k => x0 (ix2 p k)) (fun k j => W (ix2 k j)) (fun j => b (ix1 j)) j :=
  layer_apply dot_S5000x128_S128x64_S5000x64_1_0_0_1_n_n rfl rfl rfl rfl rfl rfl (k0_pay5 x0) W bitsLt_bf16_f32 b
    shapeCasts_S64_S1x64 broadcasts_S1x64_S5000x64 p j

/-- The kernel's `elu` on the hidden block. -/
def eluV (v : FVec Ideal S5000x64 .f32) : FVec Ideal S5000x64 .f32 :=
  select (cmpf .ogt v (broadcast S5000x64 (Scalar.ofBits (F := Ideal) .f32 0x00000000#32))) v
    (subf (exp v) (broadcast S5000x64 (Scalar.ofBits (F := Ideal) .f32 0x3F800000#32)))

/-- The kernel's `relu` on the hidden block. -/
def reluV (v : FVec Ideal S5000x64 .f32) : FVec Ideal S5000x64 .f32 :=
  maximumf v (broadcast S5000x64 (Scalar.ofBits (F := Ideal) .f32 0x00000000#32))

/-- The mean branch's second layer before its activation, read at `(p, q)`. -/
theorem pay6_apply (x0 : Vec Ideal S5000x128 .f32) (x1 : Vec Ideal S128x64 .f32) (x2 : Vec Ideal S64 .f32)
    (x5 : Vec Ideal S64x40 .f32) (x6 : Vec Ideal S40 .f32) (p : Fin 5000) (q : Fin 40) :
    k0_pay6 x0 x1 x2 x5 x6 (ix2 p q)
      = RowSpec.dense (fun j => RowSpec.elu (RowSpec.dense (fun k => x0 (ix2 p k)) (fun k j => x1 (ix2 k j))
          (fun j => x2 (ix1 j)) j)) (fun k j => x5 (ix2 k j)) (fun j => x6 (ix1 j)) q :=
  (layer_apply dot_S5000x64_S64x40_S5000x40_1_0_0_1_n_n rfl rfl rfl rfl rfl rfl
      (truncf .bf16 (eluV (pre1 x0 x1 x2)) bitsLt_bf16_f32) x5 bitsLt_bf16_f32 x6
      shapeCasts_S40_S1x40 broadcasts_S1x40_S5000x40 p q).trans
    (congrArg (fun f => RowSpec.dense f (fun k j => x5 (ix2 k j)) (fun j => x6 (ix1 j)) q)
      (funext fun j => (elu_vec_apply (pre1 x0 x1 x2) (ix2 p j)).trans (congrArg RowSpec.elu (pre1_apply x0 x1 x2 p j))))

/-- The variance branch's second product (its bias is added later), read at `(p, q)`. -/
theorem pay7_apply (x0 : Vec Ideal S5000x128 .f32) (x3 : Vec Ideal S128x64 .f32) (x4 : Vec Ideal S64 .f32)
    (x7 : Vec Ideal S64x40 .f32) (p : Fin 5000) (q : Fin 40) :
    k0_pay7 x0 x3 x4 x7 (ix2 p q)
      = ∑ j : Fin 64, RowSpec.relu (RowSpec.dense (fun k => x0 (ix2 p k)) (fun k j => x3 (ix2 k j))
          (fun j => x4 (ix1 j)) j) * x7 (ix2 j q) :=
  (matmul_zero_plain_apply dot_S5000x64_S64x40_S5000x40_1_0_0_1_n_n rfl rfl rfl rfl rfl rfl none
      (truncf .bf16 (reluV (pre1 x0 x3 x4)) bitsLt_bf16_f32) (truncf .bf16 x7 bitsLt_bf16_f32) p q).trans
    (Finset.sum_congr rfl fun j _ => congrArg (· * x7 (ix2 j q))
      ((relu_vec_apply (pre1 x0 x3 x4) (ix2 p j)).trans (congrArg RowSpec.relu (pre1_apply x0 x3 x4 p j))))

/-- The variance with its bias, rectified, plus the small literal, read at `(p, q)`. -/
theorem pay1_apply (x0 : Vec Ideal S5000x128 .f32) (x3 : Vec Ideal S128x64 .f32) (x4 : Vec Ideal S64 .f32)
    (x7 : Vec Ideal S64x40 .f32) (x8 : Vec Ideal S40 .f32) (p : Fin 5000) (q : Fin 40) :
    k0_pay1 (k0_pay7 x0 x3 x4 x7) (k0_pay8 x8) (ix2 p q)
      = RowSpec.var1 (fun k => x0 (ix2 p k)) (fun k j => x3 (ix2 k j)) (fun j => x4 (ix1 j))
          (fun k j => x7 (ix2 k j)) (fun j => x8 (ix1 j)) q := by
  have hb : broadcastTo S5000x40 (k0_pay8 x8) broadcasts_S1x40_S5000x40 (ix2 p q) = x8 (ix1 q) :=
    (broadcastTo_1b_ab_apply (k0_pay8 x8) broadcasts_S1x40_S5000x40 p q).trans
      (shapeCast_a_1a_apply x8 shapeCasts_S40_S1x40 (0 : Fin 1) q)
  show max (k0_pay7 x0 x3 x4 x7 (ix2 p q) + broadcastTo S5000x40 (k0_pay8 x8) broadcasts_S1x40_S5000x40 (ix2 p q))
      (Ideal.ofBits .f32 0x00000000#32) + Ideal.ofBits .f32 0x358637BD#32 = _
  rw [hb, pay7_apply, relu_eq]
  rfl

/-- The attention weight: `exp (0 − v)` is `exp (−v)`. -/
theorem pay2_apply (v35 : FVec Ideal S5000x40 .f32) (v37 : FVec Ideal S1x40 .f32) (i : S5000x40.Idx) :
    k0_pay2 v35 v37 i = RowSpec.att (k0_pay1 v35 v37 i) := by
  show Ideal.exp (Ideal.ofBits .f32 0x00000000#32 - k0_pay1 v35 v37 i) = Ideal.exp (-(k0_pay1 v35 v37 i))
  rw [Ideal.ofBits_zero_f32, zero_sub]

/-- THE DENSE KERNEL's first stored value at `(p, q)`: `meanRow` of row `p` of the block. -/
theorem mean_pay (x0 : Vec Ideal S5000x128 .f32) (x1 : Vec Ideal S128x64 .f32) (x2 : Vec Ideal S64 .f32)
    (x3 : Vec Ideal S128x64 .f32) (x4 : Vec Ideal S64 .f32) (x5 : Vec Ideal S64x40 .f32) (x6 : Vec Ideal S40 .f32)
    (x7 : Vec Ideal S64x40 .f32) (x8 : Vec Ideal S40 .f32) (p : Fin 5000) (q : Fin 40) :
    k0_pay3 (k0_pay6 x0 x1 x2 x5 x6) (k0_pay7 x0 x3 x4 x7) (k0_pay8 x8) (ix2 p q)
      = RowSpec.meanRow (fun k => x0 (ix2 p k)) (fun k j => x1 (ix2 k j)) (fun j => x2 (ix1 j))
          (fun k j => x3 (ix2 k j)) (fun j => x4 (ix1 j)) (fun k j => x5 (ix2 k j)) (fun j => x6 (ix1 j))
          (fun k j => x7 (ix2 k j)) (fun j => x8 (ix1 j)) q := by
  have h3 : k0_pay3 (k0_pay6 x0 x1 x2 x5 x6) (k0_pay7 x0 x3 x4 x7) (k0_pay8 x8) (ix2 p q)
      = RowSpec.elu (k0_pay6 x0 x1 x2 x5 x6 (ix2 p q)) * k0_pay2 (k0_pay7 x0 x3 x4 x7) (k0_pay8 x8) (ix2 p q) :=
    congrArg (· * k0_pay2 (k0_pay7 x0 x3 x4 x7) (k0_pay8 x8) (ix2 p q))
      (elu_vec_apply (k0_pay6 x0 x1 x2 x5 x6) (ix2 p q))
  rw [h3, pay6_apply, pay2_apply, pay1_apply]
  rfl

/-- THE DENSE KERNEL's second stored value at `(p, q)`: `varRow` of row `p` of the block. -/
theorem var_pay (x0 : Vec Ideal S5000x128 .f32) (x3 : Vec Ideal S128x64 .f32) (x4 : Vec Ideal S64 .f32)
    (x7 : Vec Ideal S64x40 .f32) (x8 : Vec Ideal S40 .f32) (p : Fin 5000) (q : Fin 40) :
    k0_pay4 (k0_pay7 x0 x3 x4 x7) (k0_pay8 x8) (ix2 p q)
      = RowSpec.varRow (fun k => x0 (ix2 p k)) (fun k j => x3 (ix2 k j)) (fun j => x4 (ix1 j))
          (fun k j => x7 (ix2 k j)) (fun j => x8 (ix1 j)) q := by
  show k0_pay1 (k0_pay7 x0 x3 x4 x7) (k0_pay8 x8) (ix2 p q) * k0_pay2 (k0_pay7 x0 x3 x4 x7) (k0_pay8 x8) (ix2 p q)
      * k0_pay2 (k0_pay7 x0 x3 x4 x7) (k0_pay8 x8) (ix2 p q) = _
  rw [pay2_apply, pay1_apply]
  rfl

end Cert.KernelIdeal.Rows

end
-- ==== Proof.RefLemmas.lean ====
/- The host's spellings read at one element, over the extended reals.

   * `broadcast_in_dim` in the four shapes the reference uses: a bias `[b] → [1,b] → [a,b]` and a per-row scalar
     `[a] → [a,1] → [a,b]`;
   * jax's `elu`, `select (x > 0) x (1 · expm1 (select (x > 0) 0 x))`, is `elu`: above zero both selects take their
     first branch, elsewhere `1 · (exp x − 1)` is `exp x − 1`;
   * one dense layer on the host, `dot_general` plus the spread bias, read at `(p, q)`. -/
import proofs.«115648_j18047452578190_2_alg».proof.Proof.RowLemmas

noncomputable section

namespace Cert.RefLemmas

open Idealize.ShloMosaic Idealize.ShloMosaic.ValueIdx
open Cert Cert.RowLemmas
open scoped BigOperators

section Layout
variable {α : Type}

/-- A `[b]` array placed on axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` array spread over `a` rows reads, at `(p, c)`, its one row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- An `[a]` array placed on axis 0 of `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` array spread over `b` lanes reads, at `(p, c)`, row `p`'s one element. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- jax's `elu` at one element. -/
theorem host_elu_apply (x : EReal) :
    Scalar.select (FloatOps.cmpf (F := Ideal) (φ := .f32) .ogt x (Ideal.ofBits .f32 0x00000000#32)) x
        (Ideal.ofBits .f32 0x3F800000#32 *
          (Ideal.exp (Scalar.select (FloatOps.cmpf (F := Ideal) (φ := .f32) .ogt x (Ideal.ofBits .f32 0x00000000#32))
            (Ideal.ofBits .f32 0x00000000#32) x) - 1))
      = RowSpec.elu x := by
  rw [select_ogt, select_ogt, Ideal.ofBits_zero_f32, ofBits_one]
  unfold RowSpec.elu
  by_cases h : 0 < x
  · rw [if_pos h, if_pos h]
  · rw [if_neg h, if_neg h, if_neg h, one_mul]

/-- One dense layer on the host — the product plus the bias placed on axis 1 and spread over the rows — read at
    `(p, q)`. -/
theorem host_layer_apply {m n c : Nat} (d : DotDims ⟨2, ![m, n]⟩ ⟨2, ![n, c]⟩ ⟨2, ![m, c]⟩)
    (hlc : d.lhsContracting = [1]) (hrc : d.rhsContracting = [0]) (hln : d.lhsNonContracting = [0])
    (hrn : d.rhsNonContracting = [1]) (hlb : d.lhsBatch = []) (hrb : d.rhsBatch = [])
    (L : FVec Ideal ⟨2, ![m, n]⟩ .f32) (W : FVec Ideal ⟨2, ![n, c]⟩ .f32) (b : FVec Ideal ⟨1, ![c]⟩ .f32)
    (h1 : (⟨1, ![c]⟩ : Shape).BroadcastsInDim ⟨2, ![1, c]⟩ (![1] : Fin 1 → Fin 2))
    (h2 : (⟨2, ![1, c]⟩ : Shape).BroadcastsInDim ⟨2, ![m, c]⟩ (![0, 1] : Fin 2 → Fin 2)) (p : Fin m) (q : Fin c) :
    addf (Host.dotGeneral (F := Ideal) d none L W)
        (broadcastInDim ⟨2, ![m, c]⟩ (![0, 1] : Fin 2 → Fin 2) h2
          (broadcastInDim ⟨2, ![1, c]⟩ (![1] : Fin 1 → Fin 2) h1 b)) (ix2 p q)
      = RowSpec.dense (fun k => L (ix2 p k)) (fun k j => W (ix2 k j)) (fun j => b (ix1 j)) q :=
  congrArg₂ (· + ·) (dotGeneral_plain_apply d hlc hrc hln hrn hlb hrb none L W p q)
    ((broadcastInDim_1b_ab_apply _ h2 p q).trans (broadcastInDim_b_1b_apply b h1 (0 : Fin 1) q))

/-- A `max` of two vectors read where the first is `−∞`: the second. -/
theorem maximumf_bot_apply {s : Shape} (A B : FVec Ideal s .f32) (i : s.Idx) (m : EReal) (hA : A i = ⊥) (hB : B i = m) :
    maximumf A B i = m := by
  show max (A i) (B i) = m
  rw [hA, hB]
  exact max_eq_right bot_le

/-- A difference of two vectors read at an index where each is known. -/
theorem subf_apply_of_eq {s : Shape} (A B : FVec Ideal s .f32) (i : s.Idx) (x y : EReal) (hA : A i = x) (hB : B i = y) :
    subf A B i = x - y := by
  show A i - B i = x - y
  rw [hA, hB]

/-- The host's `log` of a vector read at an index where it is known. -/
theorem hostLog_apply_of_eq {s : Shape} (A : FVec Ideal s .f32) (i : s.Idx) (x : EReal) (hA : A i = x) :
    Host.log A i = Ideal.log x := by
  show Ideal.log (A i) = Ideal.log x
  rw [hA]

/-- The host's `exp` of a vector read at an index where it is known. -/
theorem hostExp_apply_of_eq {s : Shape} (A : FVec Ideal s .f32) (i : s.Idx) (x : EReal) (hA : A i = x) :
    Host.exp A i = Ideal.exp x := by
  show Ideal.exp (A i) = Ideal.exp x
  rw [hA]

end Cert.RefLemmas

end
-- ==== Proof.RefRows.lean ====
/- The reference's stages read at one element, as the row-wise functions of Proof/RowSpec.lean.

   Each dense layer is the host's `dot_general` (at `(r, q)` the sum over the contracted axis of row `r` against column
   `q`) plus the bias placed on axis 1 and spread over the rows; jax's `elu` and `relu` are `elu` and `relu`;
   `exp (negate v)` is the attention weight of `v`. So the two dense stages at `(r, q)` are `meanRow` and `varRow`
   of row `r`. In the log-softmax the lane maximum is the host's reduce from `−∞` (then once more `max` with `−∞`,
   which changes nothing) and the lane sum is the host's sum from `0`; both run over the 40 lanes of row `r` and reach
   every lane of the row through `[100000] → [100000,1] → [100000,40]`. So the last stage at `(r, q)` is `finalRow` of
   row `r` of its three operands. -/
import proofs.«115648_j18047452578190_2_alg».proof.Proof.RefStages
import proofs.«115648_j18047452578190_2_alg».proof.Proof.RefLemmas

noncomputable section

namespace Cert.ReferenceIdeal.Rows

open Cert.ReferenceIdeal Cert.ReferenceIdeal.Gen Idealize.ShloMosaic Idealize.ShloMosaic.ValueIdx
open Cert Cert.RowLemmas Cert.RefLemmas
open scoped BigOperators

/-! ## Elementwise operations read at an index where the operands are known -/

theorem mulf_apply_of_eq {s : Shape} (A B : FVec Ideal s .f32) (i : s.Idx) (x y : EReal) (hA : A i = x) (hB : B i = y) :
    mulf A B i = x * y := by
  show A i * B i = x * y
  rw [hA, hB]

theorem addf_apply_of_eq {s : Shape} (A B : FVec Ideal s .f32) (i : s.Idx) (x y : EReal) (hA : A i = x) (hB : B i = y) :
    addf A B i = x + y := by
  show A i + B i = x + y
  rw [hA, hB]

/-- `exp (negate v)` read at an index where `v` is known: the attention weight. -/
theorem hostExpNeg_apply_of_eq {s : Shape} (A : FVec Ideal s .f32) (i : s.Idx) (x : EReal) (hA : A i = x) :
    Host.exp (Host.negf A) i = RowSpec.att x := by
  show Ideal.exp (-(A i)) = Ideal.exp (-x)
  rw [hA]

/-- The lanes of a `[100000, 40]` array reduce to its rows. -/
theorem reduces_S100000x40_S100000 : S100000x40.Reduces [1] S100000 := by decide

/-! ## The activations -/

theorem elu64_apply (z : FVec Ideal S100000x64 .f32) (i : S100000x64.Idx) :
    Stage.elu64 (F := Ideal) z i = RowSpec.elu (z i) := host_elu_apply (z i)

theorem elu40_apply (z : FVec Ideal S100000x40 .f32) (i : S100000x40.Idx) :
    Stage.elu40 (F := Ideal) z i = RowSpec.elu (z i) := host_elu_apply (z i)

theorem relu64_apply (z : FVec Ideal S100000x64 .f32) (i : S100000x64.Idx) :
    Stage.relu64 (F := Ideal) z i = RowSpec.relu (z i) := relu_eq (z i)

theorem relu40_apply (z : FVec Ideal S100000x40 .f32) (i : S100000x40.Idx) :
    Stage.relu40 (F := Ideal) z i = RowSpec.relu (z i) := relu_eq (z i)

/-! ## The dense layers -/

/-- The first layer of either branch before its activation, read at `(r, j)`. -/
theorem pre1_at (x : FVec Ideal S100000x128 .f32) (W : FVec Ideal S128x64 .f32) (b : FVec Ideal S64 .f32)
    (r : Fin 100000) (j : Fin 64) :
    addf (Host.dotGeneral (F := Ideal) dot_S100000x128_S128x64_S100000x64_1_0_0_1_n_n none x W) (Stage.bias64 b) (ix2 r j)
      = RowSpec.dense (fun k => x (ix2 r k)) (fun k j => W (ix2 k j)) (fun j => b (ix1 j)) j :=
  host_layer_apply dot_S100000x128_S128x64_S100000x64_1_0_0_1_n_n rfl rfl rfl rfl rfl rfl x W b
    bcast_S64_S1x64_1 bcast_S1x64_S100000x64_0_1 r j

/-- The mean branch, read at `(r, q)`. -/
theorem meanPre_at (x : FVec Ideal S100000x128 .f32) (Wm0 : FVec Ideal S128x64 .f32) (bm0 : FVec Ideal S64 .f32)
    (Wm1 : FVec Ideal S64x40 .f32) (bm1 : FVec Ideal S40 .f32) (r : Fin 100000) (q : Fin 40) :
    Stage.meanPre (F := Ideal) x Wm0 bm0 Wm1 bm1 (ix2 r q)
      = RowSpec.meanPre (fun k => x (ix2 r k)) (fun k j => Wm0 (ix2 k j)) (fun j => bm0 (ix1 j))
          (fun k j => Wm1 (ix2 k j)) (fun j => bm1 (ix1 j)) q := by
  refine (elu40_apply _ (ix2 r q)).trans (congrArg RowSpec.elu ?_)
  refine (host_layer_apply dot_S100000x64_S64x40_S100000x40_1_0_0_1_n_n rfl rfl rfl rfl rfl rfl _ Wm1 bm1
    bcast_S40_S1x40_1 bcast_S1x40_S100000x40_0_1 r q).trans ?_
  refine congrArg (fun f => RowSpec.dense f (fun k j => Wm1 (ix2 k j)) (fun j => bm1 (ix1 j)) q) (funext fun j => ?_)
  exact (elu64_apply _ (ix2 r j)).trans (congrArg RowSpec.elu (pre1_at x Wm0 bm0 r j))

/-- The variance branch before the small literal is added, read at `(r, q)`. -/
theorem varRelu_at (x : FVec Ideal S100000x128 .f32) (Wv0 : FVec Ideal S128x64 .f32) (bv0 : FVec Ideal S64 .f32)
    (Wv1 : FVec Ideal S64x40 .f32) (bv1 : FVec Ideal S40 .f32) (r : Fin 100000) (q : Fin 40) :
    Stage.relu40 (F := Ideal) (addf
        (Host.dotGeneral (F := Ideal) dot_S100000x64_S64x40_S100000x40_1_0_0_1_n_n none
          (Stage.relu64 (F := Ideal) (addf (Host.dotGeneral (F := Ideal) dot_S100000x128_S128x64_S100000x64_1_0_0_1_n_n none x Wv0)
            (Stage.bias64 bv0))) Wv1)
        (Stage.bias40 bv1)) (ix2 r q)
      = RowSpec.relu (RowSpec.dense (fun j => RowSpec.relu (RowSpec.dense (fun k => x (ix2 r k))
          (fun k j => Wv0 (ix2 k j)) (fun j => bv0 (ix1 j)) j)) (fun k j => Wv1 (ix2 k j)) (fun j => bv1 (ix1 j)) q) := by
  refine (relu40_apply _ (ix2 r q)).trans (congrArg RowSpec.relu ?_)
  refine (host_layer_apply dot_S100000x64_S64x40_S100000x40_1_0_0_1_n_n rfl rfl rfl rfl rfl rfl _ Wv1 bv1
    bcast_S40_S1x40_1 bcast_S1x40_S100000x40_0_1 r q).trans ?_
  refine congrArg (fun f => RowSpec.dense f (fun k j => Wv1 (ix2 k j)) (fun j => bv1 (ix1 j)) q) (funext fun j => ?_)
  exact (relu64_apply _ (ix2 r j)).trans (congrArg RowSpec.relu (pre1_at x Wv0 bv0 r j))

/-- The variance branch, read at `(r, q)`. -/
theorem varPre_at (x : FVec Ideal S100000x128 .f32) (Wv0 : FVec Ideal S128x64 .f32) (bv0 : FVec Ideal S64 .f32)
    (Wv1 : FVec Ideal S64x40 .f32) (bv1 : FVec Ideal S40 .f32) (r : Fin 100000) (q : Fin 40) :
    Stage.varPre (F := Ideal) x Wv0 bv0 Wv1 bv1 (ix2 r q)
      = RowSpec.var1 (fun k => x (ix2 r k)) (fun k j => Wv0 (ix2 k j)) (fun j => bv0 (ix1 j))
          (fun k j => Wv1 (ix2 k j)) (fun j => bv1 (ix1 j)) q :=
  addf_apply_of_eq _ _ (ix2 r q) _ _ (varRelu_at x Wv0 bv0 Wv1 bv1 r q) rfl

/-- The attention weight, read at `(r, q)`: `exp (negate v)` of the variance branch. -/
theorem att_at (x : FVec Ideal S100000x128 .f32) (Wv0 : FVec Ideal S128x64 .f32) (bv0 : FVec Ideal S64 .f32)
    (Wv1 : FVec Ideal S64x40 .f32) (bv1 : FVec Ideal S40 .f32) (r : Fin 100000) (q : Fin 40) :
    Stage.att (F := Ideal) x Wv0 bv0 Wv1 bv1 (ix2 r q)
      = RowSpec.att (RowSpec.var1 (fun k => x (ix2 r k)) (fun k j => Wv0 (ix2 k j)) (fun j => bv0 (ix1 j))
          (fun k j => Wv1 (ix2 k j)) (fun j => bv1 (ix1 j)) q) :=
  hostExpNeg_apply_of_eq _ (ix2 r q) _ (varPre_at x Wv0 bv0 Wv1 bv1 r q)

/-- THE REFERENCE's mean stage at `(r, q)`: `meanRow` of row `r`. -/
theorem denseMean_at (x : FVec Ideal S100000x128 .f32) (Wm0 : FVec Ideal S128x64 .f32) (bm0 : FVec Ideal S64 .f32)
    (Wv0 : FVec Ideal S128x64 .f32) (bv0 : FVec Ideal S64 .f32) (Wm1 : FVec Ideal S64x40 .f32) (bm1 : FVec Ideal S40 .f32)
    (Wv1 : FVec Ideal S64x40 .f32) (bv1 : FVec Ideal S40 .f32) (r : Fin 100000) (q : Fin 40) :
    Stage.denseMean (F := Ideal) x Wm0 bm0 Wv0 bv0 Wm1 bm1 Wv1 bv1 (ix2 r q)
      = RowSpec.meanRow (fun k => x (ix2 r k)) (fun k j => Wm0 (ix2 k j)) (fun j => bm0 (ix1 j))
          (fun k j => Wv0 (ix2 k j)) (fun j => bv0 (ix1 j)) (fun k j => Wm1 (ix2 k j)) (fun j => bm1 (ix1 j))
          (fun k j => Wv1 (ix2 k j)) (fun j => bv1 (ix1 j)) q :=
  mulf_apply_of_eq _ _ (ix2 r q) _ _ (meanPre_at x Wm0 bm0 Wm1 bm1 r q) (att_at x Wv0 bv0 Wv1 bv1 r q)

/-- The variance branch times its attention weight, read at `(r, q)`. -/
theorem varAtt_at (x : FVec Ideal S100000x128 .f32) (Wv0 : FVec Ideal S128x64 .f32) (bv0 : FVec Ideal S64 .f32)
    (Wv1 : FVec Ideal S64x40 .f32) (bv1 : FVec Ideal S40 .f32) (r : Fin 100000) (q : Fin 40) :
    mulf (Stage.varPre (F := Ideal) x Wv0 bv0 Wv1 bv1) (Stage.att (F := Ideal) x Wv0 bv0 Wv1 bv1) (ix2 r q)
      = RowSpec.var1 (fun k => x (ix2 r k)) (fun k j => Wv0 (ix2 k j)) (fun j => bv0 (ix1 j))
          (fun k j => Wv1 (ix2 k j)) (fun j => bv1 (ix1 j)) q
        * RowSpec.att (RowSpec.var1 (fun k => x (ix2 r k)) (fun k j => Wv0 (ix2 k j)) (fun j => bv0 (ix1 j))
          (fun k j => Wv1 (ix2 k j)) (fun j => bv1 (ix1 j)) q) :=
  mulf_apply_of_eq _ _ (ix2 r q) _ _ (varPre_at x Wv0 bv0 Wv1 bv1 r q) (att_at x Wv0 bv0 Wv1 bv1 r q)

/-- THE REFERENCE's variance stage at `(r, q)`: `varRow` of row `r`. -/
theorem denseVar_at (x : FVec Ideal S100000x128 .f32) (Wv0 : FVec Ideal S128x64 .f32) (bv0 : FVec Ideal S64 .f32)
    (Wv1 : FVec Ideal S64x40 .f32) (bv1 : FVec Ideal S40 .f32) (r : Fin 100000) (q : Fin 40) :
    Stage.denseVar (F := Ideal) x Wv0 bv0 Wv1 bv1 (ix2 r q)
      = RowSpec.varRow (fun k => x (ix2 r k)) (fun k j => Wv0 (ix2 k j)) (fun j => bv0 (ix1 j))
          (fun k j => Wv1 (ix2 k j)) (fun j => bv1 (ix1 j)) q :=
  mulf_apply_of_eq _ _ (ix2 r q) _ _ (varAtt_at x Wv0 bv0 Wv1 bv1 r q) (att_at x Wv0 bv0 Wv1 bv1 r q)

/-! ## The log-softmax -/

/-- The reference's row maximum (taken from `−∞`, then once more against `−∞`), read at row `r`. -/
theorem rowMax_at (z : FVec Ideal S100000x40 .f32) (r : Fin 100000) :
    maximumf (broadcastInDim S100000 ![] bcast_S_S100000 (constant (F := Ideal) S_ .f32 0xFF800000#32))
        (Host.reduce FloatOps.maximumf z (constant (F := Ideal) S_ .f32 0xFF800000#32) reducesTo_S100000x40_S100000_d1 h_S_)
        (ix1 r)
      = RowSpec.rowMax (fun l => z (ix2 r l)) :=
  maximumf_bot_apply _ _ (ix1 r) _ ofBits_negInf
    (hostReduce_max_row z (constant (F := Ideal) S_ .f32 0xFF800000#32) reducesTo_S100000x40_S100000_d1
      reduces_S100000x40_S100000 h_S_ ofBits_negInf r)

/-- A row less its greatest lane, read at `(r, j)`. -/
theorem shifted_at (z : FVec Ideal S100000x40 .f32) (r : Fin 100000) (j : Fin 40) :
    Stage.shifted (F := Ideal) z (ix2 r j) = RowSpec.shifted (fun l => z (ix2 r l)) j :=
  subf_apply_of_eq _ _ (ix2 r j) _ _ rfl
    ((broadcastInDim_a1_ab_apply _ bcast_S100000x1_S100000x40_0_1 r j).trans
      ((broadcastInDim_a_a1_apply _ bcast_S100000_S100000x1_0 r (0 : Fin 1)).trans (rowMax_at z r)))

/-- An initial value that is `0` plus a sum, term by term. -/
theorem init_add_sum_eq {n : Nat} (c : EReal) (hc : c = 0) (f g : Fin n → EReal) (h : ∀ j, f j = g j) :
    c + ∑ j : Fin n, f j = ∑ j : Fin n, g j := by
  rw [hc, zero_add]
  exact Finset.sum_congr rfl fun j _ => h j

/-- The reference's log of the row's sum of exponentials (the sum taken from `0`), read at row `r`. -/
theorem logSum_at (z : FVec Ideal S100000x40 .f32) (r : Fin 100000) :
    Host.log (broadcastInDim S100000x1 ![0] bcast_S100000_S100000x1_0
        (Host.reduceAdd (Host.exp (Stage.shifted (F := Ideal) z)) (constant (F := Ideal) S_ .f32 0x00000000#32)
          reducesTo_S100000x40_S100000_d1 h_S_)) (ix2 r (0 : Fin 1))
      = Ideal.log (∑ j : Fin 40, Ideal.exp (RowSpec.shifted (fun l => z (ix2 r l)) j)) :=
  hostLog_apply_of_eq _ (ix2 r (0 : Fin 1)) _
    ((broadcastInDim_a_a1_apply _ bcast_S100000_S100000x1_0 r (0 : Fin 1)).trans
      ((hostReduceAdd_row (Host.exp (Stage.shifted (F := Ideal) z)) (constant (F := Ideal) S_ .f32 0x00000000#32)
          reducesTo_S100000x40_S100000_d1 reduces_S100000x40_S100000 h_S_ r).trans
        (init_add_sum_eq _ Ideal.ofBits_zero_f32 _ _
          fun j => hostExp_apply_of_eq (Stage.shifted (F := Ideal) z) (ix2 r j) _ (shifted_at z r j))))

/-- The log-softmax of an array, read at `(r, q)`. -/
theorem logSoftmax_at (z : FVec Ideal S100000x40 .f32) (r : Fin 100000) (q : Fin 40) :
    Stage.logSoftmax (F := Ideal) z (ix2 r q) = RowSpec.logSoftmax (fun l => z (ix2 r l)) q :=
  subf_apply_of_eq _ _ (ix2 r q) _ _ (shifted_at z r q)
    ((broadcastInDim_a1_ab_apply _ bcast_S100000x1_S100000x40_0_1 r q).trans (logSum_at z r))

/-- THE REFERENCE's last stage at `(r, q)`: `finalRow` of row `r`. -/
theorem finalOut_at (a b n : FVec Ideal S100000x40 .f32) (r : Fin 100000) (q : Fin 40) :
    Stage.finalOut (F := Ideal) a b n (ix2 r q)
      = RowSpec.finalRow (fun j => a (ix2 r j)) (fun j => b (ix2 r j)) (fun j => n (ix2 r j)) q :=
  logSoftmax_at (addf a (mulf n (Host.sqrt b))) r q

end Cert.ReferenceIdeal.Rows

end
-- ==== Proof.RefRun.Ops0.lean ====
/-
  The reference's statements 1 … 60, as a list of host operations.

  Each statement of the window is one operation; a call of an outlined function is the operations of its body, in
  order, over the buffers of that call (a callee's own calls likewise).  The window, a chain of sequenced steps, is
  the straight line over this list once sequencing is reassociated.
-/
import proofs.«115648_j18047452578190_2_alg».proof.ReferenceIdeal
import proofs.«115648_j18047452578190_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference's statements 1 … 60, in order, the calls unfolded. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.nullary main_cst_7 (constant S_ .f32 0x3F800000#32),
    StableHlo.unary main_cst_7 main_v31 (broadcastInDim S1700000 ![] bcast_S_S1700000 : (⟨S_, .f32⟩ : BufTy).Contents (Elt F) → (⟨S1700000, .f32⟩ : BufTy).Contents (Elt F)),
    StableHlo.nullary main_cst_8 (constant S_ .f32 0x00000000#32),
    StableHlo.unary main_cst_8 main_v32 (broadcastInDim S100000 ![] bcast_S_S100000 : (⟨S_, .f32⟩ : BufTy).Contents (Elt F) → (⟨S100000, .f32⟩ : BufTy).Contents (Elt F)),
    StableHlo.unary main_v3 main_v33 (broadcastInDim S1700000x1 ![0] bcast_S1700000_S1700000x1_0 : (⟨S1700000, .i32⟩ : BufTy).Contents (Elt F) → (⟨S1700000x1, .i32⟩ : BufTy).Contents (Elt F)),
    StableHlo.ternary main_v32 main_v33 main_v31 main_v34 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_9 (constant S_ .f32 0x00000000#32),
    StableHlo.unary main_cst_9 main_v35 (broadcastInDim S100000 ![] bcast_S_S100000 : (⟨S_, .f32⟩ : BufTy).Contents (Elt F) → (⟨S100000, .f32⟩ : BufTy).Contents (Elt F)),
    StableHlo.binary main_v34 main_v35 main_v36 (cmpf .ogt : (⟨S100000, .f32⟩ : BufTy).Contents (Elt F) → (⟨S100000, .f32⟩ : BufTy).Contents (Elt F) → (⟨S100000, .i1⟩ : BufTy).Contents (Elt F)),
    StableHlo.nullary main_cst_10 (constant S_ .f32 0xBF800000#32),
    StableHlo.unary main_cst_10 main_v37 (broadcastInDim S100000 ![] bcast_S_S100000 : (⟨S_, .f32⟩ : BufTy).Contents (Elt F) → (⟨S100000, .f32⟩ : BufTy).Contents (Elt F)),
    StableHlo.binary main_v34 main_v37 main_v38 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.TRef.unary (.of main_cst_11 : StableHlo.TRef sig ⟨S_, .f32⟩) main_call1.v0 id,
    StableHlo.TRef.unary main_call1.v0 main_call1.v1 (broadcastInDim S100000 ![] bcast_S_S100000),
    StableHlo.TRef.ternary (.of main_v36 : StableHlo.TRef sig ⟨S100000, .i1⟩) (.of main_v38 : StableHlo.TRef sig ⟨S100000, .f32⟩) main_call1.v1 main_call1.v2 select,
    StableHlo.nullary main_c_12 (constantI S_ 32 0#32),
    StableHlo.unary main_c_12 main_v40 (broadcastInDim S1700000 ![] bcast_S_S1700000 : (⟨S_, .i32⟩ : BufTy).Contents (Elt F) → (⟨S1700000, .i32⟩ : BufTy).Contents (Elt F)),
    StableHlo.binary main_v3 main_v40 main_v41 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v42 (broadcastInDim S1700000 ![] bcast_S_S1700000 : (⟨S_, .i32⟩ : BufTy).Contents (Elt F) → (⟨S1700000, .i32⟩ : BufTy).Contents (Elt F)),
    StableHlo.binary main_v3 main_v42 main_v43 (addi : (⟨S1700000, .i32⟩ : BufTy).Contents (Elt F) → (⟨S1700000, .i32⟩ : BufTy).Contents (Elt F) → (⟨S1700000, .i32⟩ : BufTy).Contents (Elt F)) ]

set_option maxRecDepth 8192 in
set_option maxHeartbeats 4000000 in
/-- The window is the straight line over its operations. -/
theorem part0_eq (c : Dev nD) : main_part0 (F := F) c = seq ops0 := by
  simp only [main_part0, fn_where.body, fn_where_0.body, fn_where_1.body, fn_elu.body, fn_relu.body, fn_where_3.body, fn_where_4.body, fn_elu_2.body, fn_relu_5.body, fn_log_softmax.body, seq, bind_assoc, pure_bind]
  rfl

/-- Every operation of the window touches TensorCore references only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub ..⟩

set_option maxRecDepth 8192 in
/-- No operation of the window allocates: each determines its result. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefRun.Ops1.lean ====
/-
  The reference's statements 61 … 120, as a list of host operations.

  Each statement of the window is one operation; a call of an outlined function is the operations of its body, in
  order, over the buffers of that call (a callee's own calls likewise).  The window, a chain of sequenced steps, is
  the straight line over this list once sequencing is reassociated.
-/
import proofs.«115648_j18047452578190_2_alg».proof.ReferenceIdeal
import proofs.«115648_j18047452578190_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference's statements 61 … 120, in order, the calls unfolded. -/
abbrev ops1 : List (HloOp τ sig (Elt F)) :=
  [ StableHlo.ternary main_v41 main_v43 main_v3 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v44 main_v45 (broadcastInDim S1700000x1 ![0] bcast_S1700000_S1700000x1_0 : (⟨S1700000, .i32⟩ : BufTy).Contents (Elt F) → (⟨S1700000x1, .i32⟩ : BufTy).Contents (Elt F)),
    StableHlo.binary main_v39 main_v45 main_v46 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_14 (constantI S_ 32 0#32),
    StableHlo.unary main_c_14 main_v47 (broadcastInDim S1700000 ![] bcast_S_S1700000 : (⟨S_, .i32⟩ : BufTy).Contents (Elt F) → (⟨S1700000, .i32⟩ : BufTy).Contents (Elt F)),
    StableHlo.binary main_v6 main_v47 main_v48 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v49 (broadcastInDim S1700000 ![] bcast_S_S1700000 : (⟨S_, .i32⟩ : BufTy).Contents (Elt F) → (⟨S1700000, .i32⟩ : BufTy).Contents (Elt F)),
    StableHlo.binary main_v6 main_v49 main_v50 (addi : (⟨S1700000, .i32⟩ : BufTy).Contents (Elt F) → (⟨S1700000, .i32⟩ : BufTy).Contents (Elt F) → (⟨S1700000, .i32⟩ : BufTy).Contents (Elt F)),
    StableHlo.ternary main_v48 main_v50 main_v6 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v51 main_v52 (broadcastInDim S1700000x1 ![0] bcast_S1700000_S1700000x1_0 : (⟨S1700000, .i32⟩ : BufTy).Contents (Elt F) → (⟨S1700000x1, .i32⟩ : BufTy).Contents (Elt F)),
    StableHlo.binary main_v39 main_v52 main_v53 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v46 main_v53 main_v54 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v55 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v58 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v58 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v58 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v58 : StableHlo.TRef sig ⟨S100000x64, .f32⟩) main_call2.v7 main_call2.call1.v0 select,
    StableHlo.binary main_arg0 main_arg5 main_v60 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v63 : StableHlo.TRef sig ⟨S100000x64, .f32⟩) main_call3.v0 main_call3.v1 maximumf,
    StableHlo.binary main_v59 main_arg7 main_v65 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg8 main_v66 (broadcastInDim S1x40 ![1] bcast_S40_S1x40_1 : (⟨S40, .f32⟩ : BufTy).Contents (Elt F) → (⟨S1x40, .f32⟩ : BufTy).Contents (Elt F)),
    StableHlo.unary main_v66 main_v67 (broadcastInDim S100000x40 ![0, 1] bcast_S1x40_S100000x40_0_1 : (⟨S1x40, .f32⟩ : BufTy).Contents (Elt F) → (⟨S100000x40, .f32⟩ : BufTy).Contents (Elt F)),
    StableHlo.binary main_v65 main_v67 main_v68 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0x00000000#32),
    StableHlo.TRef.unary main_call4.cst main_call4.v0 (broadcastInDim S100000x40 ![] bcast_S_S100000x40),
    StableHlo.TRef.binary (.of main_v68 : StableHlo.TRef sig ⟨S100000x40, .f32⟩) main_call4.v0 main_call4.v1 (cmpf .ogt),
    StableHlo.TRef.nullary main_call4.cst_0 (constant S_ .f32 0x00000000#32),
    StableHlo.TRef.unary main_call4.cst_0 main_call4.v2 (broadcastInDim S100000x40 ![] bcast_S_S100000x40),
    StableHlo.TRef.binary (.of main_v68 : StableHlo.TRef sig ⟨S100000x40, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x40 ![] bcast_S_S100000x40),
    StableHlo.TRef.ternary main_call4.v3 main_call4.call0.v1 (.of main_v68 : StableHlo.TRef sig ⟨S100000x40, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x40 ![] bcast_S_S100000x40),
    StableHlo.TRef.binary main_call4.v6 main_call4.v5 main_call4.v7 mulf,
    StableHlo.TRef.ternary main_call4.v1 (.of main_v68 : StableHlo.TRef sig ⟨S100000x40, .f32⟩) main_call4.v7 main_call4.call1.v0 select,
    StableHlo.binary main_v64 main_arg9 main_v70 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg10 main_v71 (broadcastInDim S1x40 ![1] bcast_S40_S1x40_1 : (⟨S40, .f32⟩ : BufTy).Contents (Elt F) → (⟨S1x40, .f32⟩ : BufTy).Contents (Elt F)),
    StableHlo.unary main_v71 main_v72 (broadcastInDim S100000x40 ![0, 1] bcast_S1x40_S100000x40_0_1 : (⟨S1x40, .f32⟩ : BufTy).Contents (Elt F) → (⟨S100000x40, .f32⟩ : BufTy).Contents (Elt F)),
    StableHlo.binary main_v70 main_v72 main_v73 (addf : (⟨S100000x40, .f32⟩ : BufTy).Contents (Elt F) → (⟨S100000x40, .f32⟩ : BufTy).Contents (Elt F) → (⟨S100000x40, .f32⟩ : BufTy).Contents (Elt F)),
    StableHlo.TRef.nullary main_call5.cst (constant S_ .f32 0x00000000#32),
    StableHlo.TRef.unary main_call5.cst main_call5.v0 (broadcastInDim S100000x40 ![] bcast_S_S100000x40),
    StableHlo.TRef.binary (.of main_v73 : StableHlo.TRef sig ⟨S100000x40, .f32⟩) main_call5.v0 main_call5.v1 maximumf,
    StableHlo.nullary main_cst_16 (constant S_ .f32 0x358637BD#32),
    StableHlo.unary main_cst_16 main_v75 (broadcastInDim S100000x40 ![] bcast_S_S100000x40 : (⟨S_, .f32⟩ : BufTy).Contents (Elt F) → (⟨S100000x40, .f32⟩ : BufTy).Contents (Elt F)),
    StableHlo.binary main_v74 main_v75 main_v76 (addf : (⟨S100000x40, .f32⟩ : BufTy).Contents (Elt F) → (⟨S100000x40, .f32⟩ : BufTy).Contents (Elt F) → (⟨S100000x40, .f32⟩ : BufTy).Contents (Elt F)),
    StableHlo.unary main_v76 main_v77 (Host.negf : (⟨S100000x40, .f32⟩ : BufTy).Contents (Elt F) → (⟨S100000x40, .f32⟩ : BufTy).Contents (Elt F)),
    StableHlo.unary main_v77 main_v78 (Host.exp : (⟨S100000x40, .f32⟩ : BufTy).Contents (Elt F) → (⟨S100000x40, .f32⟩ : BufTy).Contents (Elt F)),
    StableHlo.binary main_v69 main_v78 main_v79 (mulf : (⟨S100000x40, .f32⟩ : BufTy).Contents (Elt F) → (⟨S100000x40, .f32⟩ : BufTy).Contents (Elt F) → (⟨S100000x40, .f32⟩ : BufTy).Contents (Elt F)),
    StableHlo.binary main_v76 main_v78 main_v80 (mulf : (⟨S100000x40, .f32⟩ : BufTy).Contents (Elt F) → (⟨S100000x40, .f32⟩ : BufTy).Contents (Elt F) → (⟨S100000x40, .f32⟩ : BufTy).Contents (Elt F)),
    StableHlo.binary main_v80 main_v78 main_v81 (mulf : (⟨S100000x40, .f32⟩ : BufTy).Contents (Elt F) → (⟨S100000x40, .f32⟩ : BufTy).Contents (Elt F) → (⟨S100000x40, .f32⟩ : BufTy).Contents (Elt F)),
    StableHlo.unary main_v30 main_v82 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v83 (broadcastInDim S1700000 ![] bcast_S_S1700000 : (⟨S_, .i32⟩ : BufTy).Contents (Elt F) → (⟨S1700000, .i32⟩ : BufTy).Contents (Elt F)),
    StableHlo.binary main_v6 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v85 (broadcastInDim S1700000 ![] bcast_S_S1700000 : (⟨S_, .i32⟩ : BufTy).Contents (Elt F) → (⟨S1700000, .i32⟩ : BufTy).Contents (Elt F)),
    StableHlo.binary main_v6 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v6 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v79 main_v88 main_v89 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v82 main_v90 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v90 main_v89 main_v91 (mulf : (⟨S1700000x40, .f32⟩ : BufTy).Contents (Elt F) → (⟨S1700000x40, .f32⟩ : BufTy).Contents (Elt F) → (⟨S1700000x40, .f32⟩ : BufTy).Contents (Elt F)),
    StableHlo.nullary main_cst_19 (constant S_ .f32 0x00000000#32),
    StableHlo.unary main_cst_19 main_v92 (broadcastInDim S100000x40 ![] bcast_S_S100000x40 : (⟨S_, .f32⟩ : BufTy).Contents (Elt F) → (⟨S100000x40, .f32⟩ : BufTy).Contents (Elt F)),
    StableHlo.unary main_v3 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_v54 main_v95 (broadcastInDim S1700000x1 ![0] bcast_S1700000_S1700000x1_0 : (⟨S1700000, .f32⟩ : BufTy).Contents (Elt F) → (⟨S1700000x1, .f32⟩ : BufTy).Contents (Elt F)),
    StableHlo.nullary main_c_20 (constantI S_ 32 0#32),
    StableHlo.unary main_c_20 main_v96 (broadcastInDim S1700000 ![] bcast_S_S1700000 : (⟨S_, .i32⟩ : BufTy).Contents (Elt F) → (⟨S1700000, .i32⟩ : BufTy).Contents (Elt F)) ]

set_option maxRecDepth 8192 in
set_option maxHeartbeats 4000000 in
/-- The window is the straight line over its operations. -/
theorem part1_eq (c : Dev nD) : main_part1 (F := F) c = seq ops1 := by
  simp only [main_part1, fn_where.body, fn_where_0.body, fn_where_1.body, fn_elu.body, fn_relu.body, fn_where_3.body, fn_where_4.body, fn_elu_2.body, fn_relu_5.body, fn_log_softmax.body, seq, bind_assoc, pure_bind]
  rfl

/-- Every operation of the window touches TensorCore references only. -/
theorem ops1_sub : (ops1 : List (HloOp τ sig (Elt F))).Forall fun op => op.bufs ⊆ tcRefs τ sig :=
  ⟨ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., binary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    nullary_bufs_sub .., unary_bufs_sub ..⟩

set_option maxRecDepth 8192 in
/-- No operation of the window allocates: each determines its result. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefRun.Ops2.lean ====
/-
  The reference's statements 121 … 138, as a list of host operations.

  Each statement of the window is one operation; a call of an outlined function is the operations of its body, in
  order, over the buffers of that call (a callee's own calls likewise).  The window, a chain of sequenced steps, is
  the straight line over this list once sequencing is reassociated.
-/
import proofs.«115648_j18047452578190_2_alg».proof.ReferenceIdeal
import proofs.«115648_j18047452578190_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference's statements 121 … 138, in order, the calls unfolded. -/
abbrev ops2 : List (HloOp τ sig (Elt F)) :=
  [ StableHlo.binary main_v6 main_v96 main_v97 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v98 (broadcastInDim S1700000 ![] bcast_S_S1700000 : (⟨S_, .i32⟩ : BufTy).Contents (Elt F) → (⟨S1700000, .i32⟩ : BufTy).Contents (Elt F)),
    StableHlo.binary main_v6 main_v98 main_v99 (addi : (⟨S1700000, .i32⟩ : BufTy).Contents (Elt F) → (⟨S1700000, .i32⟩ : BufTy).Contents (Elt F) → (⟨S1700000, .i32⟩ : BufTy).Contents (Elt F)),
    StableHlo.ternary main_v97 main_v99 main_v6 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v100 main_v101 (broadcastInDim S1700000x1 ![0] bcast_S1700000_S1700000x1_0 : (⟨S1700000, .i32⟩ : BufTy).Contents (Elt F) → (⟨S1700000x1, .i32⟩ : BufTy).Contents (Elt F)),
    StableHlo.binary main_v81 main_v101 main_v102 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v95 main_v103 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v103 main_v102 main_v104 (mulf : (⟨S1700000x40, .f32⟩ : BufTy).Contents (Elt F) → (⟨S1700000x40, .f32⟩ : BufTy).Contents (Elt F) → (⟨S1700000x40, .f32⟩ : BufTy).Contents (Elt F)),
    StableHlo.nullary main_cst_22 (constant S_ .f32 0x00000000#32),
    StableHlo.unary main_cst_22 main_v105 (broadcastInDim S100000x40 ![] bcast_S_S100000x40 : (⟨S_, .f32⟩ : BufTy).Contents (Elt F) → (⟨S100000x40, .f32⟩ : BufTy).Contents (Elt F)),
    StableHlo.unary main_v3 main_v106 (broadcastInDim S1700000x1 ![0] bcast_S1700000_S1700000x1_0 : (⟨S1700000, .i32⟩ : BufTy).Contents (Elt F) → (⟨S1700000x1, .i32⟩ : BufTy).Contents (Elt F)),
    StableHlo.ternary main_v105 main_v106 main_v104 main_v107 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_v107 main_v108 (Host.sqrt : (⟨S100000x40, .f32⟩ : BufTy).Contents (Elt F) → (⟨S100000x40, .f32⟩ : BufTy).Contents (Elt F)),
    StableHlo.binary main_arg2 main_v108 main_v109 (mulf : (⟨S100000x40, .f32⟩ : BufTy).Contents (Elt F) → (⟨S100000x40, .f32⟩ : BufTy).Contents (Elt F) → (⟨S100000x40, .f32⟩ : BufTy).Contents (Elt F)),
    StableHlo.binary main_v94 main_v109 main_v110 (addf : (⟨S100000x40, .f32⟩ : BufTy).Contents (Elt F) → (⟨S100000x40, .f32⟩ : BufTy).Contents (Elt F) → (⟨S100000x40, .f32⟩ : BufTy).Contents (Elt F)),
    StableHlo.TRef.nullary main_call6.cst (constant S_ .f32 0xFF800000#32),
    StableHlo.TRef.binary (.of main_v110 : StableHlo.TRef sig ⟨S100000x40, .f32⟩) main_call6.cst main_call6.v0 (fun x v => Host.reduce FloatOps.maximumf x v reducesTo_S100000x40_S100000_d1 h_S_),
    StableHlo.TRef.nullary main_call6.cst_0 (constant S_ .f32 0xFF800000#32),
    StableHlo.TRef.unary main_call6.cst_0 main_call6.v1 (broadcastInDim S100000 ![] bcast_S_S100000),
    StableHlo.TRef.binary main_call6.v1 main_call6.v0 main_call6.v2 maximumf,
    StableHlo.TRef.unary main_call6.v2 main_call6.v3 (broadcastInDim S100000x1 ![0] bcast_S100000_S100000x1_0),
    StableHlo.TRef.unary main_call6.v3 main_call6.v4 (broadcastInDim S100000x40 ![0, 1] bcast_S100000x1_S100000x40_0_1),
    StableHlo.TRef.binary (.of main_v110 : StableHlo.TRef sig ⟨S100000x40, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S100000x40_S100000_d1 h_S_),
    StableHlo.TRef.unary main_call6.v7 main_call6.v8 (broadcastInDim S100000x1 ![0] bcast_S100000_S100000x1_0),
    StableHlo.TRef.unary main_call6.v8 main_call6.v9 Host.log,
    StableHlo.TRef.unary main_call6.v9 main_call6.v10 (broadcastInDim S100000x40 ![0, 1] bcast_S100000x1_S100000x40_0_1),
    StableHlo.TRef.binary main_call6.v5 main_call6.v10 main_call6.v11 subf ]

set_option maxRecDepth 8192 in
set_option maxHeartbeats 4000000 in
/-- The window is the straight line over its operations. -/
theorem part2_eq (c : Dev nD) : main_part2 (F := F) c = seq ops2 := by
  simp only [main_part2, fn_where.body, fn_where_0.body, fn_where_1.body, fn_elu.body, fn_relu.body, fn_where_3.body, fn_where_4.body, fn_elu_2.body, fn_relu_5.body, fn_log_softmax.body, seq, bind_assoc, pure_bind]

/-- Every operation of the window touches TensorCore references only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

set_option maxRecDepth 8192 in
/-- No operation of the window allocates: each determines its result. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefRun.Segs.lean ====
/-
  The reference's 187 operations, cut into seven consecutive segments along the data flow:
  S1: the two index vectors (edge rows followed by the self loops);
  S2: the first degree normalisation (exponent -1/2) and its edge weights;
  S3: the second degree normalisation (exponent -1) and its edge weights;
  S4: the two dense branches and the attention;
  S5: the weighted neighbourhood sum of the mean branch;
  S6: the weighted neighbourhood sum of the variance branch;
  S7: the reparametrisation and the log-softmax.
  For each segment: the list of the references it writes, and that a reference outside that list keeps its contents
  through the segment.
-/
import proofs.«115648_j18047452578190_2_alg».proof.Proof.RefRun.Ops0
import proofs.«115648_j18047452578190_2_alg».proof.Proof.RefRun.Ops1
import proofs.«115648_j18047452578190_2_alg».proof.Proof.RefRun.Ops2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Segment 1: the two index vectors (edge rows followed by the self loops). -/
abbrev S1 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The references segment 1 writes. -/
abbrev W1 : List (Ref sig .tc) :=
  [main_v0, main_v1, main_v2, main_v3, main_v4, main_v5, main_v6]

/-- Segment 2: the first degree normalisation (exponent -1/2) and its edge weights. -/
abbrev S2 : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The references segment 2 writes. -/
abbrev W2 : List (Ref sig .tc) :=
  [main_cst, main_v7, main_cst_0, main_v8, main_v9, main_v10, main_cst_1, main_v11, main_v12, main_cst_2, main_v13,
   main_v14, main_cst_3, main_call0.v0.ref, main_call0.v1.ref, main_call0.v2.ref, main_c, main_v16, main_v17,
   main_c_4, main_v18, main_v19, main_v20, main_v21, main_v22, main_c_5, main_v23, main_v24, main_c_6, main_v25,
   main_v26, main_v27, main_v28, main_v29, main_v30]

/-- Segment 3: the second degree normalisation (exponent -1) and its edge weights. -/
abbrev S3 : List (HloOp τ sig (Elt F)) :=
  [ StableHlo.nullary main_cst_7 (constant S_ .f32 0x3F800000#32),
    StableHlo.unary main_cst_7 main_v31 (broadcastInDim S1700000 ![] bcast_S_S1700000 : (⟨S_, .f32⟩ : BufTy).Contents (Elt F) → (⟨S1700000, .f32⟩ : BufTy).Contents (Elt F)),
    StableHlo.nullary main_cst_8 (constant S_ .f32 0x00000000#32),
    StableHlo.unary main_cst_8 main_v32 (broadcastInDim S100000 ![] bcast_S_S100000 : (⟨S_, .f32⟩ : BufTy).Contents (Elt F) → (⟨S100000, .f32⟩ : BufTy).Contents (Elt F)),
    StableHlo.unary main_v3 main_v33 (broadcastInDim S1700000x1 ![0] bcast_S1700000_S1700000x1_0 : (⟨S1700000, .i32⟩ : BufTy).Contents (Elt F) → (⟨S1700000x1, .i32⟩ : BufTy).Contents (Elt F)),
    StableHlo.ternary main_v32 main_v33 main_v31 main_v34 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_9 (constant S_ .f32 0x00000000#32),
    StableHlo.unary main_cst_9 main_v35 (broadcastInDim S100000 ![] bcast_S_S100000 : (⟨S_, .f32⟩ : BufTy).Contents (Elt F) → (⟨S100000, .f32⟩ : BufTy).Contents (Elt F)),
    StableHlo.binary main_v34 main_v35 main_v36 (cmpf .ogt : (⟨S100000, .f32⟩ : BufTy).Contents (Elt F) → (⟨S100000, .f32⟩ : BufTy).Contents (Elt F) → (⟨S100000, .i1⟩ : BufTy).Contents (Elt F)),
    StableHlo.nullary main_cst_10 (constant S_ .f32 0xBF800000#32),
    StableHlo.unary main_cst_10 main_v37 (broadcastInDim S100000 ![] bcast_S_S100000 : (⟨S_, .f32⟩ : BufTy).Contents (Elt F) → (⟨S100000, .f32⟩ : BufTy).Contents (Elt F)),
    StableHlo.binary main_v34 main_v37 main_v38 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.TRef.unary (.of main_cst_11 : StableHlo.TRef sig ⟨S_, .f32⟩) main_call1.v0 id,
    StableHlo.TRef.unary main_call1.v0 main_call1.v1 (broadcastInDim S100000 ![] bcast_S_S100000),
    StableHlo.TRef.ternary (.of main_v36 : StableHlo.TRef sig ⟨S100000, .i1⟩) (.of main_v38 : StableHlo.TRef sig ⟨S100000, .f32⟩) main_call1.v1 main_call1.v2 select,
    StableHlo.nullary main_c_12 (constantI S_ 32 0#32),
    StableHlo.unary main_c_12 main_v40 (broadcastInDim S1700000 ![] bcast_S_S1700000 : (⟨S_, .i32⟩ : BufTy).Contents (Elt F) → (⟨S1700000, .i32⟩ : BufTy).Contents (Elt F)),
    StableHlo.binary main_v3 main_v40 main_v41 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v42 (broadcastInDim S1700000 ![] bcast_S_S1700000 : (⟨S_, .i32⟩ : BufTy).Contents (Elt F) → (⟨S1700000, .i32⟩ : BufTy).Contents (Elt F)),
    StableHlo.binary main_v3 main_v42 main_v43 (addi : (⟨S1700000, .i32⟩ : BufTy).Contents (Elt F) → (⟨S1700000, .i32⟩ : BufTy).Contents (Elt F) → (⟨S1700000, .i32⟩ : BufTy).Contents (Elt F)),
    StableHlo.ternary main_v41 main_v43 main_v3 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v44 main_v45 (broadcastInDim S1700000x1 ![0] bcast_S1700000_S1700000x1_0 : (⟨S1700000, .i32⟩ : BufTy).Contents (Elt F) → (⟨S1700000x1, .i32⟩ : BufTy).Contents (Elt F)),
    StableHlo.binary main_v39 main_v45 main_v46 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_14 (constantI S_ 32 0#32),
    StableHlo.unary main_c_14 main_v47 (broadcastInDim S1700000 ![] bcast_S_S1700000 : (⟨S_, .i32⟩ : BufTy).Contents (Elt F) → (⟨S1700000, .i32⟩ : BufTy).Contents (Elt F)),
    StableHlo.binary main_v6 main_v47 main_v48 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v49 (broadcastInDim S1700000 ![] bcast_S_S1700000 : (⟨S_, .i32⟩ : BufTy).Contents (Elt F) → (⟨S1700000, .i32⟩ : BufTy).Contents (Elt F)),
    StableHlo.binary main_v6 main_v49 main_v50 (addi : (⟨S1700000, .i32⟩ : BufTy).Contents (Elt F) → (⟨S1700000, .i32⟩ : BufTy).Contents (Elt F) → (⟨S1700000, .i32⟩ : BufTy).Contents (Elt F)),
    StableHlo.ternary main_v48 main_v50 main_v6 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v51 main_v52 (broadcastInDim S1700000x1 ![0] bcast_S1700000_S1700000x1_0 : (⟨S1700000, .i32⟩ : BufTy).Contents (Elt F) → (⟨S1700000x1, .i32⟩ : BufTy).Contents (Elt F)),
    StableHlo.binary main_v39 main_v52 main_v53 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v46 main_v53 main_v54 (mulf : (⟨S1700000, .f32⟩ : BufTy).Contents (Elt F) → (⟨S1700000, .f32⟩ : BufTy).Contents (Elt F) → (⟨S1700000, .f32⟩ : BufTy).Contents (Elt F)) ]

/-- The references segment 3 writes. -/
abbrev W3 : List (Ref sig .tc) :=
  [main_cst_7, main_v31, main_cst_8, main_v32, main_v33, main_v34, main_cst_9, main_v35, main_v36, main_cst_10,
   main_v37, main_v38, main_cst_11, main_call1.v0.ref, main_call1.v1.ref, main_call1.v2.ref, main_c_12, main_v40,
   main_v41, main_c_13, main_v42, main_v43, main_v44, main_v45, main_v46, main_c_14, main_v47, main_v48, main_c_15,
   main_v49, main_v50, main_v51, main_v52, main_v53, main_v54]

/-- Segment 4: the two dense branches and the attention. -/
abbrev S4 : List (HloOp τ sig (Elt F)) :=
  [ StableHlo.binary main_arg0 main_arg3 main_v55 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v58 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v58 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v58 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v58 : StableHlo.TRef sig ⟨S100000x64, .f32⟩) main_call2.v7 main_call2.call1.v0 select,
    StableHlo.binary main_arg0 main_arg5 main_v60 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v63 : StableHlo.TRef sig ⟨S100000x64, .f32⟩) main_call3.v0 main_call3.v1 maximumf,
    StableHlo.binary main_v59 main_arg7 main_v65 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg8 main_v66 (broadcastInDim S1x40 ![1] bcast_S40_S1x40_1 : (⟨S40, .f32⟩ : BufTy).Contents (Elt F) → (⟨S1x40, .f32⟩ : BufTy).Contents (Elt F)),
    StableHlo.unary main_v66 main_v67 (broadcastInDim S100000x40 ![0, 1] bcast_S1x40_S100000x40_0_1 : (⟨S1x40, .f32⟩ : BufTy).Contents (Elt F) → (⟨S100000x40, .f32⟩ : BufTy).Contents (Elt F)),
    StableHlo.binary main_v65 main_v67 main_v68 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0x00000000#32),
    StableHlo.TRef.unary main_call4.cst main_call4.v0 (broadcastInDim S100000x40 ![] bcast_S_S100000x40),
    StableHlo.TRef.binary (.of main_v68 : StableHlo.TRef sig ⟨S100000x40, .f32⟩) main_call4.v0 main_call4.v1 (cmpf .ogt),
    StableHlo.TRef.nullary main_call4.cst_0 (constant S_ .f32 0x00000000#32),
    StableHlo.TRef.unary main_call4.cst_0 main_call4.v2 (broadcastInDim S100000x40 ![] bcast_S_S100000x40),
    StableHlo.TRef.binary (.of main_v68 : StableHlo.TRef sig ⟨S100000x40, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x40 ![] bcast_S_S100000x40),
    StableHlo.TRef.ternary main_call4.v3 main_call4.call0.v1 (.of main_v68 : StableHlo.TRef sig ⟨S100000x40, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x40 ![] bcast_S_S100000x40),
    StableHlo.TRef.binary main_call4.v6 main_call4.v5 main_call4.v7 mulf,
    StableHlo.TRef.ternary main_call4.v1 (.of main_v68 : StableHlo.TRef sig ⟨S100000x40, .f32⟩) main_call4.v7 main_call4.call1.v0 select,
    StableHlo.binary main_v64 main_arg9 main_v70 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg10 main_v71 (broadcastInDim S1x40 ![1] bcast_S40_S1x40_1 : (⟨S40, .f32⟩ : BufTy).Contents (Elt F) → (⟨S1x40, .f32⟩ : BufTy).Contents (Elt F)),
    StableHlo.unary main_v71 main_v72 (broadcastInDim S100000x40 ![0, 1] bcast_S1x40_S100000x40_0_1 : (⟨S1x40, .f32⟩ : BufTy).Contents (Elt F) → (⟨S100000x40, .f32⟩ : BufTy).Contents (Elt F)),
    StableHlo.binary main_v70 main_v72 main_v73 (addf : (⟨S100000x40, .f32⟩ : BufTy).Contents (Elt F) → (⟨S100000x40, .f32⟩ : BufTy).Contents (Elt F) → (⟨S100000x40, .f32⟩ : BufTy).Contents (Elt F)),
    StableHlo.TRef.nullary main_call5.cst (constant S_ .f32 0x00000000#32),
    StableHlo.TRef.unary main_call5.cst main_call5.v0 (broadcastInDim S100000x40 ![] bcast_S_S100000x40),
    StableHlo.TRef.binary (.of main_v73 : StableHlo.TRef sig ⟨S100000x40, .f32⟩) main_call5.v0 main_call5.v1 maximumf,
    StableHlo.nullary main_cst_16 (constant S_ .f32 0x358637BD#32),
    StableHlo.unary main_cst_16 main_v75 (broadcastInDim S100000x40 ![] bcast_S_S100000x40 : (⟨S_, .f32⟩ : BufTy).Contents (Elt F) → (⟨S100000x40, .f32⟩ : BufTy).Contents (Elt F)),
    StableHlo.binary main_v74 main_v75 main_v76 (addf : (⟨S100000x40, .f32⟩ : BufTy).Contents (Elt F) → (⟨S100000x40, .f32⟩ : BufTy).Contents (Elt F) → (⟨S100000x40, .f32⟩ : BufTy).Contents (Elt F)),
    StableHlo.unary main_v76 main_v77 (Host.negf : (⟨S100000x40, .f32⟩ : BufTy).Contents (Elt F) → (⟨S100000x40, .f32⟩ : BufTy).Contents (Elt F)),
    StableHlo.unary main_v77 main_v78 (Host.exp : (⟨S100000x40, .f32⟩ : BufTy).Contents (Elt F) → (⟨S100000x40, .f32⟩ : BufTy).Contents (Elt F)),
    StableHlo.binary main_v69 main_v78 main_v79 (mulf : (⟨S100000x40, .f32⟩ : BufTy).Contents (Elt F) → (⟨S100000x40, .f32⟩ : BufTy).Contents (Elt F) → (⟨S100000x40, .f32⟩ : BufTy).Contents (Elt F)),
    StableHlo.binary main_v76 main_v78 main_v80 (mulf : (⟨S100000x40, .f32⟩ : BufTy).Contents (Elt F) → (⟨S100000x40, .f32⟩ : BufTy).Contents (Elt F) → (⟨S100000x40, .f32⟩ : BufTy).Contents (Elt F)),
    StableHlo.binary main_v80 main_v78 main_v81 (mulf : (⟨S100000x40, .f32⟩ : BufTy).Contents (Elt F) → (⟨S100000x40, .f32⟩ : BufTy).Contents (Elt F) → (⟨S100000x40, .f32⟩ : BufTy).Contents (Elt F)) ]

/-- The references segment 4 writes. -/
abbrev W4 : List (Ref sig .tc) :=
  [main_v55, main_v56, main_v57, main_v58, main_call2.cst.ref, main_call2.v0.ref, main_call2.v1.ref,
   main_call2.cst_0.ref, main_call2.v2.ref, main_call2.v3.ref, main_call2.cst_1.ref, main_call2.call0.v0.ref,
   main_call2.call0.v1.ref, main_call2.call0.v2.ref, main_call2.v5.ref, main_call2.cst_2.ref, main_call2.v6.ref,
   main_call2.v7.ref, main_call2.call1.v0.ref, main_v60, main_v61, main_v62, main_v63, main_call3.cst.ref,
   main_call3.v0.ref, main_call3.v1.ref, main_v65, main_v66, main_v67, main_v68, main_call4.cst.ref,
   main_call4.v0.ref, main_call4.v1.ref, main_call4.cst_0.ref, main_call4.v2.ref, main_call4.v3.ref,
   main_call4.cst_1.ref, main_call4.call0.v0.ref, main_call4.call0.v1.ref, main_call4.call0.v2.ref,
   main_call4.v5.ref, main_call4.cst_2.ref, main_call4.v6.ref, main_call4.v7.ref, main_call4.call1.v0.ref, main_v70,
   main_v71, main_v72, main_v73, main_call5.cst.ref, main_call5.v0.ref, main_call5.v1.ref, main_cst_16, main_v75,
   main_v76, main_v77, main_v78, main_v79, main_v80, main_v81]

/-- Segment 5: the weighted neighbourhood sum of the mean branch. -/
abbrev S5 : List (HloOp τ sig (Elt F)) :=
  [ StableHlo.unary main_v30 main_v82 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v83 (broadcastInDim S1700000 ![] bcast_S_S1700000 : (⟨S_, .i32⟩ : BufTy).Contents (Elt F) → (⟨S1700000, .i32⟩ : BufTy).Contents (Elt F)),
    StableHlo.binary main_v6 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v85 (broadcastInDim S1700000 ![] bcast_S_S1700000 : (⟨S_, .i32⟩ : BufTy).Contents (Elt F) → (⟨S1700000, .i32⟩ : BufTy).Contents (Elt F)),
    StableHlo.binary main_v6 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v6 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v79 main_v88 main_v89 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v82 main_v90 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v90 main_v89 main_v91 (mulf : (⟨S1700000x40, .f32⟩ : BufTy).Contents (Elt F) → (⟨S1700000x40, .f32⟩ : BufTy).Contents (Elt F) → (⟨S1700000x40, .f32⟩ : BufTy).Contents (Elt F)),
    StableHlo.nullary main_cst_19 (constant S_ .f32 0x00000000#32),
    StableHlo.unary main_cst_19 main_v92 (broadcastInDim S100000x40 ![] bcast_S_S100000x40 : (⟨S_, .f32⟩ : BufTy).Contents (Elt F) → (⟨S100000x40, .f32⟩ : BufTy).Contents (Elt F)),
    StableHlo.unary main_v3 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The references segment 5 writes. -/
abbrev W5 : List (Ref sig .tc) :=
  [main_v82, main_c_17, main_v83, main_v84, main_c_18, main_v85, main_v86, main_v87, main_v88, main_v89, main_v90,
   main_v91, main_cst_19, main_v92, main_v93, main_v94]

/-- Segment 6: the weighted neighbourhood sum of the variance branch. -/
abbrev S6 : List (HloOp τ sig (Elt F)) :=
  [ StableHlo.unary main_v54 main_v95 (broadcastInDim S1700000x1 ![0] bcast_S1700000_S1700000x1_0 : (⟨S1700000, .f32⟩ : BufTy).Contents (Elt F) → (⟨S1700000x1, .f32⟩ : BufTy).Contents (Elt F)),
    StableHlo.nullary main_c_20 (constantI S_ 32 0#32),
    StableHlo.unary main_c_20 main_v96 (broadcastInDim S1700000 ![] bcast_S_S1700000 : (⟨S_, .i32⟩ : BufTy).Contents (Elt F) → (⟨S1700000, .i32⟩ : BufTy).Contents (Elt F)),
    StableHlo.binary main_v6 main_v96 main_v97 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v98 (broadcastInDim S1700000 ![] bcast_S_S1700000 : (⟨S_, .i32⟩ : BufTy).Contents (Elt F) → (⟨S1700000, .i32⟩ : BufTy).Contents (Elt F)),
    StableHlo.binary main_v6 main_v98 main_v99 (addi : (⟨S1700000, .i32⟩ : BufTy).Contents (Elt F) → (⟨S1700000, .i32⟩ : BufTy).Contents (Elt F) → (⟨S1700000, .i32⟩ : BufTy).Contents (Elt F)),
    StableHlo.ternary main_v97 main_v99 main_v6 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v100 main_v101 (broadcastInDim S1700000x1 ![0] bcast_S1700000_S1700000x1_0 : (⟨S1700000, .i32⟩ : BufTy).Contents (Elt F) → (⟨S1700000x1, .i32⟩ : BufTy).Contents (Elt F)),
    StableHlo.binary main_v81 main_v101 main_v102 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v95 main_v103 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v103 main_v102 main_v104 (mulf : (⟨S1700000x40, .f32⟩ : BufTy).Contents (Elt F) → (⟨S1700000x40, .f32⟩ : BufTy).Contents (Elt F) → (⟨S1700000x40, .f32⟩ : BufTy).Contents (Elt F)),
    StableHlo.nullary main_cst_22 (constant S_ .f32 0x00000000#32),
    StableHlo.unary main_cst_22 main_v105 (broadcastInDim S100000x40 ![] bcast_S_S100000x40 : (⟨S_, .f32⟩ : BufTy).Contents (Elt F) → (⟨S100000x40, .f32⟩ : BufTy).Contents (Elt F)),
    StableHlo.unary main_v3 main_v106 (broadcastInDim S1700000x1 ![0] bcast_S1700000_S1700000x1_0 : (⟨S1700000, .i32⟩ : BufTy).Contents (Elt F) → (⟨S1700000x1, .i32⟩ : BufTy).Contents (Elt F)),
    StableHlo.ternary main_v105 main_v106 main_v104 main_v107 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The references segment 6 writes. -/
abbrev W6 : List (Ref sig .tc) :=
  [main_v95, main_c_20, main_v96, main_v97, main_c_21, main_v98, main_v99, main_v100, main_v101, main_v102,
   main_v103, main_v104, main_cst_22, main_v105, main_v106, main_v107]

/-- Segment 7: the reparametrisation and the log-softmax. -/
abbrev S7 : List (HloOp τ sig (Elt F)) :=
  [ StableHlo.unary main_v107 main_v108 (Host.sqrt : (⟨S100000x40, .f32⟩ : BufTy).Contents (Elt F) → (⟨S100000x40, .f32⟩ : BufTy).Contents (Elt F)),
    StableHlo.binary main_arg2 main_v108 main_v109 (mulf : (⟨S100000x40, .f32⟩ : BufTy).Contents (Elt F) → (⟨S100000x40, .f32⟩ : BufTy).Contents (Elt F) → (⟨S100000x40, .f32⟩ : BufTy).Contents (Elt F)),
    StableHlo.binary main_v94 main_v109 main_v110 (addf : (⟨S100000x40, .f32⟩ : BufTy).Contents (Elt F) → (⟨S100000x40, .f32⟩ : BufTy).Contents (Elt F) → (⟨S100000x40, .f32⟩ : BufTy).Contents (Elt F)),
    StableHlo.TRef.nullary main_call6.cst (constant S_ .f32 0xFF800000#32),
    StableHlo.TRef.binary (.of main_v110 : StableHlo.TRef sig ⟨S100000x40, .f32⟩) main_call6.cst main_call6.v0 (fun x v => Host.reduce FloatOps.maximumf x v reducesTo_S100000x40_S100000_d1 h_S_),
    StableHlo.TRef.nullary main_call6.cst_0 (constant S_ .f32 0xFF800000#32),
    StableHlo.TRef.unary main_call6.cst_0 main_call6.v1 (broadcastInDim S100000 ![] bcast_S_S100000),
    StableHlo.TRef.binary main_call6.v1 main_call6.v0 main_call6.v2 maximumf,
    StableHlo.TRef.unary main_call6.v2 main_call6.v3 (broadcastInDim S100000x1 ![0] bcast_S100000_S100000x1_0),
    StableHlo.TRef.unary main_call6.v3 main_call6.v4 (broadcastInDim S100000x40 ![0, 1] bcast_S100000x1_S100000x40_0_1),
    StableHlo.TRef.binary (.of main_v110 : StableHlo.TRef sig ⟨S100000x40, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S100000x40_S100000_d1 h_S_),
    StableHlo.TRef.unary main_call6.v7 main_call6.v8 (broadcastInDim S100000x1 ![0] bcast_S100000_S100000x1_0),
    StableHlo.TRef.unary main_call6.v8 main_call6.v9 Host.log,
    StableHlo.TRef.unary main_call6.v9 main_call6.v10 (broadcastInDim S100000x40 ![0, 1] bcast_S100000x1_S100000x40_0_1),
    StableHlo.TRef.binary main_call6.v5 main_call6.v10 main_call6.v11 subf ]

/-- The references segment 7 writes. -/
abbrev W7 : List (Ref sig .tc) :=
  [main_v108, main_v109, main_v110, main_call6.cst.ref, main_call6.v0.ref, main_call6.cst_0.ref, main_call6.v1.ref,
   main_call6.v2.ref, main_call6.v3.ref, main_call6.v4.ref, main_call6.v5.ref, main_call6.v6.ref,
   main_call6.cst_1.ref, main_call6.v7.ref, main_call6.v8.ref, main_call6.v9.ref, main_call6.v10.ref,
   main_call6.v11.ref]

/-- The three windows' operations, in order, are the seven segments', in order. -/
theorem ops_eq : (ops0 ++ (ops1 ++ ops2) : List (HloOp τ sig (Elt F))) = S1 ++ (S2 ++ (S3 ++ (S4 ++ (S5 ++ (S6 ++ S7))))) := rfl

set_option maxRecDepth 8192 in
theorem S1_writes : (S1 : List (HloOp τ sig (Elt F))).Forall fun op => op.writes ⊆ (W1.map (Proc.devRef (τ := τ) .tc)).toFinset := by
  simp only [S1, List.Forall, nullary_writes, unary_writes, binary_writes, ternary_writes, reshape_writes,
    Finset.singleton_subset_iff, List.mem_toFinset]
  repeat' apply And.intro
  all_goals exact List.mem_map_of_mem (by decide)

/-- A reference segment 1 does not write keeps its contents through it. -/
theorem frame1 (V : Valuation τ sig (Elt F)) (r : Ref sig .tc) (hr : r ∉ W1) :
    after S1 V (Proc.devRef .tc r) = V (Proc.devRef .tc r) :=
  after_of_writes_sub S1 V S1_writes hr

set_option maxRecDepth 8192 in
theorem S2_writes : (S2 : List (HloOp τ sig (Elt F))).Forall fun op => op.writes ⊆ (W2.map (Proc.devRef (τ := τ) .tc)).toFinset := by
  simp only [S2, List.Forall, nullary_writes, unary_writes, binary_writes, ternary_writes, reshape_writes,
    Finset.singleton_subset_iff, List.mem_toFinset]
  repeat' apply And.intro
  all_goals exact List.mem_map_of_mem (by decide)

/-- A reference segment 2 does not write keeps its contents through it. -/
theorem frame2 (V : Valuation τ sig (Elt F)) (r : Ref sig .tc) (hr : r ∉ W2) :
    after S2 V (Proc.devRef .tc r) = V (Proc.devRef .tc r) :=
  after_of_writes_sub S2 V S2_writes hr

set_option maxRecDepth 8192 in
theorem S3_writes : (S3 : List (HloOp τ sig (Elt F))).Forall fun op => op.writes ⊆ (W3.map (Proc.devRef (τ := τ) .tc)).toFinset := by
  simp only [S3, List.Forall, nullary_writes, unary_writes, binary_writes, ternary_writes, reshape_writes,
    Finset.singleton_subset_iff, List.mem_toFinset]
  repeat' apply And.intro
  all_goals exact List.mem_map_of_mem (by decide)

/-- A reference segment 3 does not write keeps its contents through it. -/
theorem frame3 (V : Valuation τ sig (Elt F)) (r : Ref sig .tc) (hr : r ∉ W3) :
    after S3 V (Proc.devRef .tc r) = V (Proc.devRef .tc r) :=
  after_of_writes_sub S3 V S3_writes hr

set_option maxRecDepth 8192 in
theorem S4_writes : (S4 : List (HloOp τ sig (Elt F))).Forall fun op => op.writes ⊆ (W4.map (Proc.devRef (τ := τ) .tc)).toFinset := by
  simp only [S4, List.Forall, nullary_writes, unary_writes, binary_writes, ternary_writes, reshape_writes,
    Finset.singleton_subset_iff, List.mem_toFinset]
  repeat' apply And.intro
  all_goals exact List.mem_map_of_mem (by decide)

/-- A reference segment 4 does not write keeps its contents through it. -/
theorem frame4 (V : Valuation τ sig (Elt F)) (r : Ref sig .tc) (hr : r ∉ W4) :
    after S4 V (Proc.devRef .tc r) = V (Proc.devRef .tc r) :=
  after_of_writes_sub S4 V S4_writes hr

set_option maxRecDepth 8192 in
theorem S5_writes : (S5 : List (HloOp τ sig (Elt F))).Forall fun op => op.writes ⊆ (W5.map (Proc.devRef (τ := τ) .tc)).toFinset := by
  simp only [S5, List.Forall, nullary_writes, unary_writes, binary_writes, ternary_writes, reshape_writes,
    Finset.singleton_subset_iff, List.mem_toFinset]
  repeat' apply And.intro
  all_goals exact List.mem_map_of_mem (by decide)

/-- A reference segment 5 does not write keeps its contents through it. -/
theorem frame5 (V : Valuation τ sig (Elt F)) (r : Ref sig .tc) (hr : r ∉ W5) :
    after S5 V (Proc.devRef .tc r) = V (Proc.devRef .tc r) :=
  after_of_writes_sub S5 V S5_writes hr

set_option maxRecDepth 8192 in
theorem S6_writes : (S6 : List (HloOp τ sig (Elt F))).Forall fun op => op.writes ⊆ (W6.map (Proc.devRef (τ := τ) .tc)).toFinset := by
  simp only [S6, List.Forall, nullary_writes, unary_writes, binary_writes, ternary_writes, reshape_writes,
    Finset.singleton_subset_iff, List.mem_toFinset]
  repeat' apply And.intro
  all_goals exact List.mem_map_of_mem (by decide)

/-- A reference segment 6 does not write keeps its contents through it. -/
theorem frame6 (V : Valuation τ sig (Elt F)) (r : Ref sig .tc) (hr : r ∉ W6) :
    after S6 V (Proc.devRef .tc r) = V (Proc.devRef .tc r) :=
  after_of_writes_sub S6 V S6_writes hr

set_option maxRecDepth 8192 in
theorem S7_writes : (S7 : List (HloOp τ sig (Elt F))).Forall fun op => op.writes ⊆ (W7.map (Proc.devRef (τ := τ) .tc)).toFinset := by
  simp only [S7, List.Forall, nullary_writes, unary_writes, binary_writes, ternary_writes, reshape_writes,
    Finset.singleton_subset_iff, List.mem_toFinset]
  repeat' apply And.intro
  all_goals exact List.mem_map_of_mem (by decide)

/-- A reference segment 7 does not write keeps its contents through it. -/
theorem frame7 (V : Valuation τ sig (Elt F)) (r : Ref sig .tc) (hr : r ∉ W7) :
    after S7 V (Proc.devRef .tc r) = V (Proc.devRef .tc r) :=
  after_of_writes_sub S7 V S7_writes hr

end Cert.ReferenceIdeal.RefRun

end
-- ==== Proof.RefRun.Vals.lean ====
/-
  The seven segments read back: from any contents, the fold of a segment's operations at the buffer of the value it
  produces is the corresponding stage of the reference applied to the contents of the buffers it reads (for a segment
  that reads the index vectors or an earlier stage's value, given that those buffers hold them).  The fold is unrolled
  operation by operation: at a buffer an operation writes it is the operation's function of its operands' contents, at
  any other buffer what was there; the typed references' transports are the identity at these literal references.
-/
import proofs.«115648_j18047452578190_2_alg».proof.Proof.RefStages
import proofs.«115648_j18047452578190_2_alg».proof.Proof.RefRun.Segs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduce Host.reduceAdd Host.scatterAdd Host.powf concatenate extractStridedSlice shapeCast broadcastInDim in
set_option maxRecDepth 16384 in
set_option maxHeartbeats 2000000 in
/-- Segment 1 leaves the row indices (with the self loops) in %3. -/
theorem S1_v3 (V : Valuation τ sig (Elt F)) :
    after S1 V (main_v3 : DevRef τ sig) = Stage.rowIdx (V (main_arg1 : DevRef τ sig)) := by
  simp (disch := decide) only [S1, after_cons, after_nil, cast_eq,
      nullary_result', unary_result', binary_result', ternary_result', reshape_result',
      nullary_result_ne', unary_result_ne', binary_result_ne', ternary_result_ne', reshape_result_ne']
  rfl

attribute [local irreducible] Host.gather Host.reduce Host.reduceAdd Host.scatterAdd Host.powf concatenate extractStridedSlice shapeCast broadcastInDim in
set_option maxRecDepth 16384 in
set_option maxHeartbeats 2000000 in
/-- Segment 1 leaves the column indices (with the self loops) in %6. -/
theorem S1_v6 (V : Valuation τ sig (Elt F)) :
    after S1 V (main_v6 : DevRef τ sig) = Stage.colIdx (V (main_arg1 : DevRef τ sig)) := by
  simp (disch := decide) only [S1, after_cons, after_nil, cast_eq,
      nullary_result', unary_result', binary_result', ternary_result', reshape_result',
      nullary_result_ne', unary_result_ne', binary_result_ne', ternary_result_ne', reshape_result_ne']
  rfl

attribute [local irreducible] Host.gather Host.reduce Host.reduceAdd Host.scatterAdd Host.powf concatenate extractStridedSlice shapeCast broadcastInDim in
set_option maxRecDepth 16384 in
set_option maxHeartbeats 2000000 in
/-- Segment 2 leaves the edge weights of exponent -1/2 in %30. -/
theorem S2_v30 (V : Valuation τ sig (Elt F)) (e : IVec S2x1600000 32)
    (h3 : V (main_v3 : DevRef τ sig) = Stage.rowIdx e) (h6 : V (main_v6 : DevRef τ sig) = Stage.colIdx e) :
    after S2 V (main_v30 : DevRef τ sig) = Stage.edgeW (F := F) 0xBF000000#32 e := by
  simp (disch := decide) only [S2, after_cons, after_nil, cast_eq,
      nullary_result', unary_result', binary_result', ternary_result', reshape_result',
      nullary_result_ne', unary_result_ne', binary_result_ne', ternary_result_ne', reshape_result_ne', h3, h6]
  rfl

attribute [local irreducible] Host.gather Host.reduce Host.reduceAdd Host.scatterAdd Host.powf concatenate extractStridedSlice shapeCast broadcastInDim in
set_option maxRecDepth 16384 in
set_option maxHeartbeats 2000000 in
/-- Segment 3 leaves the edge weights of exponent -1 in %54. -/
theorem S3_v54 (V : Valuation τ sig (Elt F)) (e : IVec S2x1600000 32)
    (h3 : V (main_v3 : DevRef τ sig) = Stage.rowIdx e) (h6 : V (main_v6 : DevRef τ sig) = Stage.colIdx e) :
    after S3 V (main_v54 : DevRef τ sig) = Stage.edgeW (F := F) 0xBF800000#32 e := by
  simp (disch := decide) only [S3, after_cons, after_nil, cast_eq,
      nullary_result', unary_result', binary_result', ternary_result', reshape_result',
      nullary_result_ne', unary_result_ne', binary_result_ne', ternary_result_ne', reshape_result_ne', h3, h6]
  rfl

attribute [local irreducible] Host.gather Host.reduce Host.reduceAdd Host.scatterAdd Host.powf concatenate extractStridedSlice shapeCast broadcastInDim in
set_option maxRecDepth 16384 in
set_option maxHeartbeats 2000000 in
/-- Segment 4 leaves the mean branch times the attention in %79. -/
theorem S4_v79 (V : Valuation τ sig (Elt F)) :
    after S4 V (main_v79 : DevRef τ sig)
      = Stage.denseMean (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp (disch := decide) only [S4, after_cons, after_nil, cast_eq,
      nullary_result', unary_result', binary_result', ternary_result', reshape_result',
      nullary_result_ne', unary_result_ne', binary_result_ne', ternary_result_ne', reshape_result_ne']
  rfl

attribute [local irreducible] Host.gather Host.reduce Host.reduceAdd Host.scatterAdd Host.powf concatenate extractStridedSlice shapeCast broadcastInDim in
set_option maxRecDepth 16384 in
set_option maxHeartbeats 2000000 in
/-- Segment 4 leaves the variance branch times the attention squared in %81. -/
theorem S4_v81 (V : Valuation τ sig (Elt F)) :
    after S4 V (main_v81 : DevRef τ sig)
      = Stage.denseVar (V (main_arg0 : DevRef τ sig)) (V (main_arg5 : DevRef τ sig)) (V (main_arg6 : DevRef τ sig)) (V (main_arg9 : DevRef τ sig)) (V (main_arg10 : DevRef τ sig)) := by
  simp (disch := decide) only [S4, after_cons, after_nil, cast_eq,
      nullary_result', unary_result', binary_result', ternary_result', reshape_result',
      nullary_result_ne', unary_result_ne', binary_result_ne', ternary_result_ne', reshape_result_ne']
  rfl

attribute [local irreducible] Host.gather Host.reduce Host.reduceAdd Host.scatterAdd Host.powf concatenate extractStridedSlice shapeCast broadcastInDim in
set_option maxRecDepth 16384 in
set_option maxHeartbeats 2000000 in
/-- Segment 5 leaves the neighbourhood sum of %79 weighted by %30 in %94. -/
theorem S5_v94 (V : Valuation τ sig (Elt F)) (e : IVec S2x1600000 32) (w : FVec F S1700000 .f32) (P : FVec F S100000x40 .f32)
    (h3 : V (main_v3 : DevRef τ sig) = Stage.rowIdx e) (h6 : V (main_v6 : DevRef τ sig) = Stage.colIdx e)
    (hw : V (main_v30 : DevRef τ sig) = w) (hP : V (main_v79 : DevRef τ sig) = P) :
    after S5 V (main_v94 : DevRef τ sig) = Stage.agg e w P := by
  simp (disch := decide) only [S5, after_cons, after_nil, cast_eq,
      nullary_result', unary_result', binary_result', ternary_result', reshape_result',
      nullary_result_ne', unary_result_ne', binary_result_ne', ternary_result_ne', reshape_result_ne', h3, h6, hw, hP]
  rfl

attribute [local irreducible] Host.gather Host.reduce Host.reduceAdd Host.scatterAdd Host.powf concatenate extractStridedSlice shapeCast broadcastInDim in
set_option maxRecDepth 16384 in
set_option maxHeartbeats 2000000 in
/-- Segment 6 leaves the neighbourhood sum of %81 weighted by %54 in %107. -/
theorem S6_v107 (V : Valuation τ sig (Elt F)) (e : IVec S2x1600000 32) (w : FVec F S1700000 .f32) (P : FVec F S100000x40 .f32)
    (h3 : V (main_v3 : DevRef τ sig) = Stage.rowIdx e) (h6 : V (main_v6 : DevRef τ sig) = Stage.colIdx e)
    (hw : V (main_v54 : DevRef τ sig) = w) (hP : V (main_v81 : DevRef τ sig) = P) :
    after S6 V (main_v107 : DevRef τ sig) = Stage.agg e w P := by
  simp (disch := decide) only [S6, after_cons, after_nil, cast_eq,
      nullary_result', unary_result', binary_result', ternary_result', reshape_result',
      nullary_result_ne', unary_result_ne', binary_result_ne', ternary_result_ne', reshape_result_ne', h3, h6, hw, hP]
  rfl

attribute [local irreducible] Host.gather Host.reduce Host.reduceAdd Host.scatterAdd Host.powf concatenate extractStridedSlice shapeCast broadcastInDim in
set_option maxRecDepth 16384 in
set_option maxHeartbeats 2000000 in
/-- Segment 7 leaves log_softmax (mean + noise * sqrt var) in the result buffer. -/
theorem S7_v111 (V : Valuation τ sig (Elt F)) :
    after S7 V (main_v111 : DevRef τ sig) = Stage.finalOut (V (main_v94 : DevRef τ sig)) (V (main_v107 : DevRef τ sig)) (V (main_arg2 : DevRef τ sig)) := by
  simp (disch := decide) only [S7, after_cons, after_nil, cast_eq,
      nullary_result', unary_result', binary_result', ternary_result', reshape_result',
      nullary_result_ne', unary_result_ne', binary_result_ne', ternary_result_ne', reshape_result_ne']
  rfl

end Cert.ReferenceIdeal.RefRun

end
-- ==== Proof.RefRun.lean ====
/-
  The reference's run, read back.

  The reference's @main is the straight line over its 187 host operations (the three windows' lists, one after
  the other).  Every weakly fair execution of it terminates, and the final contents of every buffer are the fold
  of the operations' results over the launch contents.  The fold is taken segment by segment: the index vectors,
  the two edge weights, the two dense branches, the two neighbourhood sums, the final log-softmax; each segment's
  value is its stage of the arguments, and a buffer a segment does not write passes through it.  Read at the
  result buffer the fold is Stage.refOut of the eleven arguments' launch contents; read at an argument's buffer,
  which no operation writes, it is the launch contents.
-/
import proofs.«115648_j18047452578190_2_alg».proof.Proof.RefStages
import proofs.«115648_j18047452578190_2_alg».proof.Proof.RefRun.Segs
import proofs.«115648_j18047452578190_2_alg».proof.Proof.RefRun.Vals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 187 operations, in order. -/
abbrev ops : List (HloOp τ sig (Elt F)) := ops0 ++ (ops1 ++ ops2)

/-- @main is the straight line over them: its three windows in order. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

theorem ops_fresh : ∀ op ∈ (ops : List (HloOp τ sig (Elt F))), op.fresh = ∅ := fun op h => by
  rcases List.mem_append.mp h with h | h
  · exact ops0_fresh op h
  · rcases List.mem_append.mp h with h | h
    · exact ops1_fresh op h
    · exact ops2_fresh op h

/-- Every weakly fair execution of @main terminates with every buffer at the fold of the operations. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over two lines one after the other (restated here for the seven segments). -/
theorem after_ops (V : Valuation τ sig (Elt F)) :
    after ops V = after S7 (after S6 (after S5 (after S4 (after S3 (after S2 (after S1 V)))))) := by
  show after (ops0 ++ (ops1 ++ ops2)) V = _
  rw [ops_eq]
  simp only [after_append]

/-- The contents after the first k segments. -/
abbrev V1 (V : Valuation τ sig (Elt F)) : Valuation τ sig (Elt F) := after S1 V
abbrev V2 (V : Valuation τ sig (Elt F)) : Valuation τ sig (Elt F) := after S2 (V1 V)
abbrev V3 (V : Valuation τ sig (Elt F)) : Valuation τ sig (Elt F) := after S3 (V2 V)
abbrev V4 (V : Valuation τ sig (Elt F)) : Valuation τ sig (Elt F) := after S4 (V3 V)
abbrev V5 (V : Valuation τ sig (Elt F)) : Valuation τ sig (Elt F) := after S5 (V4 V)
abbrev V6 (V : Valuation τ sig (Elt F)) : Valuation τ sig (Elt F) := after S6 (V5 V)

variable (V : Valuation τ sig (Elt F))

/-! The index vectors, written by segment 1 and by no later segment. -/
theorem V1_v3 : V1 V (main_v3 : DevRef τ sig) = Stage.rowIdx (V (main_arg1 : DevRef τ sig)) := S1_v3 V
theorem V1_v6 : V1 V (main_v6 : DevRef τ sig) = Stage.colIdx (V (main_arg1 : DevRef τ sig)) := S1_v6 V
theorem V2_v3 : V2 V (main_v3 : DevRef τ sig) = Stage.rowIdx (V (main_arg1 : DevRef τ sig)) := (frame2 _ main_v3 (by decide)).trans (V1_v3 V)
theorem V2_v6 : V2 V (main_v6 : DevRef τ sig) = Stage.colIdx (V (main_arg1 : DevRef τ sig)) := (frame2 _ main_v6 (by decide)).trans (V1_v6 V)
theorem V3_v3 : V3 V (main_v3 : DevRef τ sig) = Stage.rowIdx (V (main_arg1 : DevRef τ sig)) := (frame3 _ main_v3 (by decide)).trans (V2_v3 V)
theorem V3_v6 : V3 V (main_v6 : DevRef τ sig) = Stage.colIdx (V (main_arg1 : DevRef τ sig)) := (frame3 _ main_v6 (by decide)).trans (V2_v6 V)
theorem V4_v3 : V4 V (main_v3 : DevRef τ sig) = Stage.rowIdx (V (main_arg1 : DevRef τ sig)) := (frame4 _ main_v3 (by decide)).trans (V3_v3 V)
theorem V4_v6 : V4 V (main_v6 : DevRef τ sig) = Stage.colIdx (V (main_arg1 : DevRef τ sig)) := (frame4 _ main_v6 (by decide)).trans (V3_v6 V)
theorem V5_v3 : V5 V (main_v3 : DevRef τ sig) = Stage.rowIdx (V (main_arg1 : DevRef τ sig)) := (frame5 _ main_v3 (by decide)).trans (V4_v3 V)
theorem V5_v6 : V5 V (main_v6 : DevRef τ sig) = Stage.colIdx (V (main_arg1 : DevRef τ sig)) := (frame5 _ main_v6 (by decide)).trans (V4_v6 V)

/-! The two edge weights. -/
theorem V2_v30 : V2 V (main_v30 : DevRef τ sig) = (Stage.edgeW (F := F) 0xBF000000#32 (V (main_arg1 : DevRef τ sig))) := S2_v30 _ _ (V1_v3 V) (V1_v6 V)
theorem V3_v30 : V3 V (main_v30 : DevRef τ sig) = (Stage.edgeW (F := F) 0xBF000000#32 (V (main_arg1 : DevRef τ sig))) := (frame3 _ main_v30 (by decide)).trans (V2_v30 V)
theorem V4_v30 : V4 V (main_v30 : DevRef τ sig) = (Stage.edgeW (F := F) 0xBF000000#32 (V (main_arg1 : DevRef τ sig))) := (frame4 _ main_v30 (by decide)).trans (V3_v30 V)
theorem V3_v54 : V3 V (main_v54 : DevRef τ sig) = (Stage.edgeW (F := F) 0xBF800000#32 (V (main_arg1 : DevRef τ sig))) := S3_v54 _ _ (V2_v3 V) (V2_v6 V)
theorem V4_v54 : V4 V (main_v54 : DevRef τ sig) = (Stage.edgeW (F := F) 0xBF800000#32 (V (main_arg1 : DevRef τ sig))) := (frame4 _ main_v54 (by decide)).trans (V3_v54 V)
theorem V5_v54 : V5 V (main_v54 : DevRef τ sig) = (Stage.edgeW (F := F) 0xBF800000#32 (V (main_arg1 : DevRef τ sig))) := (frame5 _ main_v54 (by decide)).trans (V4_v54 V)

/-- A reference the first three segments do not write is as launched after them. -/
theorem V3_of (r : Ref sig .tc) (h1 : r ∉ W1) (h2 : r ∉ W2) (h3 : r ∉ W3) :
    V3 V (Proc.devRef .tc r) = V (Proc.devRef .tc r) :=
  (frame3 _ r h3).trans ((frame2 _ r h2).trans (frame1 _ r h1))

/-! The dense branches. -/
theorem V4_v79 : V4 V (main_v79 : DevRef τ sig) = (Stage.denseMean (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) := by
  refine (S4_v79 (V3 V)).trans ?_
  rw [V3_of V main_arg0 (by decide) (by decide) (by decide),
    V3_of V main_arg3 (by decide) (by decide) (by decide),
    V3_of V main_arg4 (by decide) (by decide) (by decide),
    V3_of V main_arg5 (by decide) (by decide) (by decide),
    V3_of V main_arg6 (by decide) (by decide) (by decide),
    V3_of V main_arg7 (by decide) (by decide) (by decide),
    V3_of V main_arg8 (by decide) (by decide) (by decide),
    V3_of V main_arg9 (by decide) (by decide) (by decide),
    V3_of V main_arg10 (by decide) (by decide) (by decide)]
theorem V4_v81 : V4 V (main_v81 : DevRef τ sig) = (Stage.denseVar (V (main_arg0 : DevRef τ sig)) (V (main_arg5 : DevRef τ sig)) (V (main_arg6 : DevRef τ sig)) (V (main_arg9 : DevRef τ sig)) (V (main_arg10 : DevRef τ sig))) := by
  refine (S4_v81 (V3 V)).trans ?_
  rw [V3_of V main_arg0 (by decide) (by decide) (by decide),
    V3_of V main_arg5 (by decide) (by decide) (by decide),
    V3_of V main_arg6 (by decide) (by decide) (by decide),
    V3_of V main_arg9 (by decide) (by decide) (by decide),
    V3_of V main_arg10 (by decide) (by decide) (by decide)]
theorem V5_v81 : V5 V (main_v81 : DevRef τ sig) = (Stage.denseVar (V (main_arg0 : DevRef τ sig)) (V (main_arg5 : DevRef τ sig)) (V (main_arg6 : DevRef τ sig)) (V (main_arg9 : DevRef τ sig)) (V (main_arg10 : DevRef τ sig))) := (frame5 _ main_v81 (by decide)).trans (V4_v81 V)

/-! The two neighbourhood sums. -/
theorem V5_v94 : V5 V (main_v94 : DevRef τ sig) = Stage.agg (V (main_arg1 : DevRef τ sig)) (Stage.edgeW (F := F) 0xBF000000#32 (V (main_arg1 : DevRef τ sig))) (Stage.denseMean (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) :=
  S5_v94 _ _ _ _ (V4_v3 V) (V4_v6 V) (V4_v30 V) (V4_v79 V)
theorem V6_v94 : V6 V (main_v94 : DevRef τ sig) = Stage.agg (V (main_arg1 : DevRef τ sig)) (Stage.edgeW (F := F) 0xBF000000#32 (V (main_arg1 : DevRef τ sig))) (Stage.denseMean (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) :=
  (frame6 _ main_v94 (by decide)).trans (V5_v94 V)
theorem V6_v107 : V6 V (main_v107 : DevRef τ sig) = Stage.agg (V (main_arg1 : DevRef τ sig)) (Stage.edgeW (F := F) 0xBF800000#32 (V (main_arg1 : DevRef τ sig))) (Stage.denseVar (V (main_arg0 : DevRef τ sig)) (V (main_arg5 : DevRef τ sig)) (V (main_arg6 : DevRef τ sig)) (V (main_arg9 : DevRef τ sig)) (V (main_arg10 : DevRef τ sig))) :=
  S6_v107 _ _ _ _ (V5_v3 V) (V5_v6 V) (V5_v54 V) (V5_v81 V)

/-- A reference no segment writes is as launched at the end. -/
theorem after_ops_of (r : Ref sig .tc) (h1 : r ∉ W1) (h2 : r ∉ W2) (h3 : r ∉ W3) (h4 : r ∉ W4) (h5 : r ∉ W5)
    (h6 : r ∉ W6) (h7 : r ∉ W7) : after ops V (Proc.devRef .tc r) = V (Proc.devRef .tc r) := by
  rw [after_ops]
  exact (frame7 _ r h7).trans ((frame6 _ r h6).trans ((frame5 _ r h5).trans ((frame4 _ r h4).trans (V3_of V r h1 h2 h3))))

/-- The noise is as launched when the last segment reads it. -/
theorem V6_arg2 : V6 V (main_arg2 : DevRef τ sig) = (V (main_arg2 : DevRef τ sig)) :=
  (frame6 _ main_arg2 (by decide)).trans ((frame5 _ main_arg2 (by decide)).trans ((frame4 _ main_arg2 (by decide)).trans
    (V3_of V main_arg2 (by decide) (by decide) (by decide))))

/-- The fold at the result buffer is the composition of the stages. -/
theorem out_eq : after ops V (main_v111 : DevRef τ sig) = Stage.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops]
  refine (S7_v111 (V6 V)).trans ?_
  rw [V6_v94 V, V6_v107 V, V6_arg2 V]
  rfl

theorem arg0_eq : after ops V (main_arg0 : DevRef τ sig) = V (main_arg0 : DevRef τ sig) :=
  after_ops_of V main_arg0 (by decide) (by decide) (by decide) (by decide) (by decide) (by decide) (by decide)
theorem arg1_eq : after ops V (main_arg1 : DevRef τ sig) = V (main_arg1 : DevRef τ sig) :=
  after_ops_of V main_arg1 (by decide) (by decide) (by decide) (by decide) (by decide) (by decide) (by decide)
theorem arg2_eq : after ops V (main_arg2 : DevRef τ sig) = V (main_arg2 : DevRef τ sig) :=
  after_ops_of V main_arg2 (by decide) (by decide) (by decide) (by decide) (by decide) (by decide) (by decide)
theorem arg3_eq : after ops V (main_arg3 : DevRef τ sig) = V (main_arg3 : DevRef τ sig) :=
  after_ops_of V main_arg3 (by decide) (by decide) (by decide) (by decide) (by decide) (by decide) (by decide)
theorem arg4_eq : after ops V (main_arg4 : DevRef τ sig) = V (main_arg4 : DevRef τ sig) :=
  after_ops_of V main_arg4 (by decide) (by decide) (by decide) (by decide) (by decide) (by decide) (by decide)
theorem arg5_eq : after ops V (main_arg5 : DevRef τ sig) = V (main_arg5 : DevRef τ sig) :=
  after_ops_of V main_arg5 (by decide) (by decide) (by decide) (by decide) (by decide) (by decide) (by decide)
theorem arg6_eq : after ops V (main_arg6 : DevRef τ sig) = V (main_arg6 : DevRef τ sig) :=
  after_ops_of V main_arg6 (by decide) (by decide) (by decide) (by decide) (by decide) (by decide) (by decide)
theorem arg7_eq : after ops V (main_arg7 : DevRef τ sig) = V (main_arg7 : DevRef τ sig) :=
  after_ops_of V main_arg7 (by decide) (by decide) (by decide) (by decide) (by decide) (by decide) (by decide)
theorem arg8_eq : after ops V (main_arg8 : DevRef τ sig) = V (main_arg8 : DevRef τ sig) :=
  after_ops_of V main_arg8 (by decide) (by decide) (by decide) (by decide) (by decide) (by decide) (by decide)
theorem arg9_eq : after ops V (main_arg9 : DevRef τ sig) = V (main_arg9 : DevRef τ sig) :=
  after_ops_of V main_arg9 (by decide) (by decide) (by decide) (by decide) (by decide) (by decide) (by decide)
theorem arg10_eq : after ops V (main_arg10 : DevRef τ sig) = V (main_arg10 : DevRef τ sig) :=
  after_ops_of V main_arg10 (by decide) (by decide) (by decide) (by decide) (by decide) (by decide) (by decide)

/-- On every device, for any float values, from any memory with zero counters: every weakly fair execution of
    @main terminates with the result buffer at Stage.refOut of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v111) = Stage.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v111).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.Bridge.lean ====
/-
  The two idealized programs compute one function. The kernel's result, read off its run, is: the row-wise last stage
  applied to the two neighbourhood sums (of the row-wise dense stage's outputs, along the edges, with the edge weights
  computed from the edge list) and the noise. The reference's result, read off its run, is the same composition with
  each stage spelt in host operations. The edge-list stages and the neighbourhood sums are the same operations on both
  sides. The dense stage and the last stage act on each of the 100000 rows by itself, and on a row both sides are the
  same function over the extended reals: the kernel's matrix products into a zero accumulator and the host's products
  are the same finite sums, a change of float format is the identity, the kernel's exp x - 1 is the host's expm1 x
  where x is not positive, 0 - v is -v, and the maximum over the lanes from -∞ is taken once or twice alike. None of
  this uses finiteness of the inputs.
-/
import proofs.«115648_j18047452578190_2_alg».proof.Defs
import proofs.«115648_j18047452578190_2_alg».proof.Proof.Gen.Kernel.Frame
import proofs.«115648_j18047452578190_2_alg».proof.Proof.Gen.Pre_finite_inputs
import proofs.«115648_j18047452578190_2_alg».proof.Proof.Gen.ReferenceIdeal
import proofs.«115648_j18047452578190_2_alg».proof.Proof.KValue
import proofs.«115648_j18047452578190_2_alg».proof.Proof.KernelRows
import proofs.«115648_j18047452578190_2_alg».proof.Proof.RefRows
import proofs.«115648_j18047452578190_2_alg».proof.Proof.RefRun

noncomputable section

open Idealize.ShloMosaic Idealize.ShloMosaic.TcCoe Idealize.SL.Sem
open Idealize.ShloMosaic.ValueIdx

namespace Cert.Bridge

/-- The last stage's row function. -/
def Gr : (Fin 40 → Elt Ideal .f32) → (Fin 40 → Elt Ideal .f32) → (Fin 40 → Elt Ideal .f32) → Fin 40 → Elt Ideal .f32 :=
  fun a b n q => Cert.RowSpec.finalRow a b n q

/-- The first stage's mean row function, of a feature row and the weight arrays. -/
def Gm : (Fin 128 → Elt Ideal .f32) → Vec Ideal Cert.KernelIdeal.S128x64 .f32 → Vec Ideal Cert.KernelIdeal.S64 .f32
    → Vec Ideal Cert.KernelIdeal.S128x64 .f32 → Vec Ideal Cert.KernelIdeal.S64 .f32 → Vec Ideal Cert.KernelIdeal.S64x40 .f32
    → Vec Ideal Cert.KernelIdeal.S40 .f32 → Vec Ideal Cert.KernelIdeal.S64x40 .f32 → Vec Ideal Cert.KernelIdeal.S40 .f32
    → Fin 40 → Elt Ideal .f32 :=
  fun xr W1 b1 W3 b3 W5 b5 W7 b7 q =>
    Cert.RowSpec.meanRow xr (fun k j => W1 (ix2 k j)) (fun j => b1 (ix1 j)) (fun k j => W3 (ix2 k j)) (fun j => b3 (ix1 j))
      (fun k j => W5 (ix2 k j)) (fun j => b5 (ix1 j)) (fun k j => W7 (ix2 k j)) (fun j => b7 (ix1 j)) q

/-- The first stage's variance row function. -/
def Gv : (Fin 128 → Elt Ideal .f32) → Vec Ideal Cert.KernelIdeal.S128x64 .f32 → Vec Ideal Cert.KernelIdeal.S64 .f32
    → Vec Ideal Cert.KernelIdeal.S64x40 .f32 → Vec Ideal Cert.KernelIdeal.S40 .f32 → Fin 40 → Elt Ideal .f32 :=
  fun xr W3 b3 W7 b7 q =>
    Cert.RowSpec.varRow xr (fun k j => W3 (ix2 k j)) (fun j => b3 (ix1 j)) (fun k j => W7 (ix2 k j)) (fun j => b7 (ix1 j)) q

/-- An index of the 100000 × 40 array is its row and its lane. -/
theorem idx_row_lane (i : Cert.KernelIdeal.S100000x40.Idx) :
    i = ix2 (Cert.KernelIdeal.KBlocks.rowOf i) (Cert.KernelIdeal.KBlocks.laneOf i) :=
  funext fun a => match a with | ⟨0, _⟩ => rfl | ⟨1, _⟩ => rfl

theorem idx_row_lane0 (i : Cert.KernelIdeal.S100000x40.Idx) :
    i = ix2 (Cert.KernelIdeal.KBlocks0.rowOf i) (Cert.KernelIdeal.KBlocks0.laneOf i) :=
  funext fun a => match a with | ⟨0, _⟩ => rfl | ⟨1, _⟩ => rfl

/-- The second region's array function is the reference's last stage. -/
theorem finalArr_eq (A B N : FVec Ideal Cert.ReferenceIdeal.S100000x40 .f32) :
    Cert.KernelIdeal.KBlocks.finalArr Gr A B N = Cert.ReferenceIdeal.Stage.finalOut (F := Ideal) A B N := by
  funext i
  have h := Cert.ReferenceIdeal.Rows.finalOut_at A B N (Cert.KernelIdeal.KBlocks.rowOf i) (Cert.KernelIdeal.KBlocks.laneOf i)
  rw [← idx_row_lane i] at h
  exact h.symm

/-- The first region's mean array function is the reference's dense mean stage. -/
theorem meanArr_eq (x : FVec Ideal Cert.ReferenceIdeal.S100000x128 .f32) (Wm0 : FVec Ideal Cert.ReferenceIdeal.S128x64 .f32)
    (bm0 : FVec Ideal Cert.ReferenceIdeal.S64 .f32) (Wv0 : FVec Ideal Cert.ReferenceIdeal.S128x64 .f32)
    (bv0 : FVec Ideal Cert.ReferenceIdeal.S64 .f32) (Wm1 : FVec Ideal Cert.ReferenceIdeal.S64x40 .f32)
    (bm1 : FVec Ideal Cert.ReferenceIdeal.S40 .f32) (Wv1 : FVec Ideal Cert.ReferenceIdeal.S64x40 .f32)
    (bv1 : FVec Ideal Cert.ReferenceIdeal.S40 .f32) :
    Cert.KernelIdeal.KBlocks0.meanArr Gm x Wm0 bm0 Wv0 bv0 Wm1 bm1 Wv1 bv1
      = Cert.ReferenceIdeal.Stage.denseMean (F := Ideal) x Wm0 bm0 Wv0 bv0 Wm1 bm1 Wv1 bv1 := by
  funext i
  have h := Cert.ReferenceIdeal.Rows.denseMean_at x Wm0 bm0 Wv0 bv0 Wm1 bm1 Wv1 bv1
    (Cert.KernelIdeal.KBlocks0.rowOf i) (Cert.KernelIdeal.KBlocks0.laneOf i)
  rw [← idx_row_lane0 i] at h
  exact h.symm

/-- The first region's variance array function is the reference's dense variance stage. -/
theorem varArr_eq (x : FVec Ideal Cert.ReferenceIdeal.S100000x128 .f32) (Wv0 : FVec Ideal Cert.ReferenceIdeal.S128x64 .f32)
    (bv0 : FVec Ideal Cert.ReferenceIdeal.S64 .f32) (Wv1 : FVec Ideal Cert.ReferenceIdeal.S64x40 .f32)
    (bv1 : FVec Ideal Cert.ReferenceIdeal.S40 .f32) :
    Cert.KernelIdeal.KBlocks0.varArr Gv x Wv0 bv0 Wv1 bv1
      = Cert.ReferenceIdeal.Stage.denseVar (F := Ideal) x Wv0 bv0 Wv1 bv1 := by
  funext i
  have h := Cert.ReferenceIdeal.Rows.denseVar_at x Wv0 bv0 Wv1 bv1
    (Cert.KernelIdeal.KBlocks0.rowOf i) (Cert.KernelIdeal.KBlocks0.laneOf i)
  rw [← idx_row_lane0 i] at h
  exact h.symm

/-- The kernel's closed result term is the reference's function of the same argument arrays. -/
theorem closed_eq (m : (ℓ : Loc Cert.KernelIdeal.nD Cert.KernelIdeal.τ Cert.KernelIdeal.sig) → Buf (Elt Ideal) ℓ)
    (c : Dev Cert.KernelIdeal.nD) :
    Cert.KernelIdeal.KValue.closed m Gr Gm Gv c
      = Cert.ReferenceIdeal.Stage.refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  unfold Cert.KernelIdeal.KValue.closed Cert.ReferenceIdeal.Stage.refOut
  rw [finalArr_eq, meanArr_eq, varArr_eq, Cert.KernelIdeal.KFold.agg_eq, Cert.KernelIdeal.KFold.agg_eq]

end Cert.Bridge

namespace Cert.Proof.Claims

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization pass rewrote nothing. -/
theorem preserves : Cert.preserves_Kernel_KernelIdeal := trivial

/-- From memories agreeing on the eleven arguments both programs end with the reference's function of the arguments
    in their result buffer: the kernel by its closed result term, which is that function, the reference by its run. -/
theorem algebraic : Cert.algebraic_KernelIdeal_ReferenceIdeal := by
  intro m ρ m' ρ' _ hagree
  refine ⟨fun c => Cert.KernelIdeal.KValue.closed m Cert.Bridge.Gr Cert.Bridge.Gm Cert.Bridge.Gv c,
    Cert.KernelIdeal.KValue.run m ρ Cert.Bridge.Gr Cert.Bridge.Gm Cert.Bridge.Gv
      (fun a b n p q => Cert.KernelIdeal.Rows.final_pay a b n p q)
      (fun x0 x1 x2 x3 x4 x5 x6 x7 x8 p q => Cert.KernelIdeal.Rows.mean_pay x0 x1 x2 x3 x4 x5 x6 x7 x8 p q)
      (fun x0 x3 x4 x7 x8 p q => Cert.KernelIdeal.Rows.var_pay x0 x3 x4 x7 x8 p q), ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10⟩ := hagree c
  rw [a0, a1, a2, a3, a4, a5, a6, a7, a8, a9, a10]
  exact (Cert.Bridge.closed_eq m c).symm

end Cert.Proof.Claims

end
-- ==== Proof.lean ====
/-
  The proof of the certificate's claim: the three frames, the (empty) idealization ledger, and the equality of the two
  idealized programs' results. The kernel is a two-layer dense network with an attention weight computed on row
  blocks, a neighbourhood sum along the edges of a graph done by host operations, and a second kernel that adds scaled
  noise and takes a log-softmax along the lanes; the reference is the same computation in host operations only. The
  frames of the two kernel programs are their generated frame certificates; the reference's frame is its run with the
  result dropped; the results are equal because both are the same composition of stages of the argument arrays
  (Proof/Bridge.lean).
-/
import proofs.«115648_j18047452578190_2_alg».proof.Defs
import proofs.«115648_j18047452578190_2_alg».proof.Proof.Bridge
import proofs.«115648_j18047452578190_2_alg».proof.Proof.Gen.Kernel
import proofs.«115648_j18047452578190_2_alg».proof.Proof.Gen.Kernel.Skeleton
import proofs.«115648_j18047452578190_2_alg».proof.Proof.Gen.Kernel.Launch
import proofs.«115648_j18047452578190_2_alg».proof.Proof.Gen.Kernel.Points
import proofs.«115648_j18047452578190_2_alg».proof.Proof.Gen.Kernel.Frame
import proofs.«115648_j18047452578190_2_alg».proof.Proof.Gen.KernelIdeal
import proofs.«115648_j18047452578190_2_alg».proof.Proof.Gen.KernelIdeal.Skeleton
import proofs.«115648_j18047452578190_2_alg».proof.Proof.Gen.KernelIdeal.Launch
import proofs.«115648_j18047452578190_2_alg».proof.Proof.Gen.KernelIdeal.Points
import proofs.«115648_j18047452578190_2_alg».proof.Proof.Gen.KernelIdeal.Frame
import proofs.«115648_j18047452578190_2_alg».proof.Proof.Gen.ReferenceIdeal
import proofs.«115648_j18047452578190_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
